-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x3x20000 : Shape := ⟨3, ![8, 3, 20000]⟩
abbrev S1024x3 : Shape := ⟨2, ![1024, 3]⟩
abbrev S1024 : Shape := ⟨1, ![1024]⟩
abbrev S1024x1024 : Shape := ⟨2, ![1024, 1024]⟩
abbrev S1x1024 : Shape := ⟨2, ![1, 1024]⟩
abbrev S1 : Shape := ⟨1, ![1]⟩
abbrev S_ : Shape := ⟨0, ![]⟩

class Facts : Prop where
  bcast_S_S8x3x20000 : S_.BroadcastsInDim S8x3x20000 (![] : Fin 0 → Fin S8x3x20000.rank)
  reducesTo_S8x3x20000_S_d0_1_2 : S8x3x20000.ReducesTo [0, 1, 2] S_
  h_S_ : 0 < S_.numel
  bcast_S_S1024x3 : S_.BroadcastsInDim S1024x3 (![] : Fin 0 → Fin S1024x3.rank)
  reducesTo_S1024x3_S_d0_1 : S1024x3.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg5 : FVec F S1024 .f32) (main_arg11 : FVec F S1024 .f32) (main_v63 : IVec S_ 1) (main_v67 : IVec S_ 1) : IVec S_ 1 :=
  let main_v68 : IVec S_ 1 := andi main_v63 main_v67
  let main_cst_26 : FVec F S_ .f32 := constant S_ .f32 0x00000000#32
  let main_v69 : FVec F S1024 .f32 := broadcastInDim S1024 ![] bcast_S_S1024 main_cst_26
  let main_v70 : IVec S1024 1 := cmpf .oge main_arg5 main_v69
  let main_c_27 : IVec S_ 1 := constantI S_ 1 1#1
  let main_v71 : IVec S_ 1 := (fun x v => Host.reduce IntOp.andi x v reducesTo_S1024_S_d0 h_S_) main_v70 main_c_27
  let main_v72 : IVec S_ 1 := andi main_v68 main_v71
  let main_cst_28 : FVec F S_ .f32 := constant S_ .f32 0x00000000#32
  let main_v73 : FVec F S1024 .f32 := broadcastInDim S1024 ![] bcast_S_S1024 main_cst_28
  let main_v74 : IVec S1024 1 := cmpf .oge main_arg11 main_v73
  let main_c_29 : IVec S_ 1 := constantI S_ 1 1#1
  let main_v75 : IVec S_ 1 := (fun x v => Host.reduce IntOp.andi x v reducesTo_S1024_S_d0 h_S_) main_v74 main_c_29
  let main_v76 : IVec S_ 1 := andi main_v72 main_v75
  main_v76

def fn_part3 {F : FTy → Type} [FloatOps F] (main_arg5 : FVec F S1024 .f32) (main_arg11 : FVec F S1024 .f32) (main_arg12 : FVec F S1x1024 .f32) (main_arg13 : FVec F S1 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1x1024 .f32 := Host.absf main_arg12
  let main_cst_22 : FVec F S_ .f32 := constant S_ .f32 0x7F800000#32
  let main_v60 : FVec F S1x1024 .f32 := broadcastInDim S1x1024 ![] bcast_S_S1x1024 main_cst_22
  let main_v61 : IVec S1x1024 1 := cmpf .olt main_v59 main_v60
  let main_c_23 : IVec S_ 1 := constantI S_ 1 1#1
  let main_v62 : IVec S_ 1 := (fun x v => Host.reduce IntOp.andi x v reducesTo_S1x1024_S_d0_1 h_S_) main_v61 main_c_23
  let main_v63 : IVec S_ 1 := andi main_v58 main_v62
  let main_v64 : FVec F S1 .f32 := Host.absf main_arg13
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_arg5 main_arg11 main_v63 main_v67

def fn_part2 {F : FTy → Type} [FloatOps F] (main_arg5 : FVec F S1024 .f32) (main_arg7 : FVec F S1024 .f32) (main_arg8 : FVec F S1024 .f32) (main_arg9 : FVec F S1024 .f32) (main_arg10 : FVec F S1024 .f32) (main_arg11 : FVec F S1024 .f32) (main_arg12 : FVec F S1x1024 .f32) (main_arg13 : FVec F S1 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg5 main_arg11 main_arg12 main_arg13 main_v48 main_v49 main_v50

def fn_part1 {F : FTy → Type} [FloatOps F] (main_arg4 : FVec F S1024 .f32) (main_arg5 : FVec F S1024 .f32) (main_arg6 : FVec F S1024x1024 .f32) (main_arg7 : FVec F S1024 .f32) (main_arg8 : FVec F S1024 .f32) (main_arg9 : FVec F S1024 .f32) (main_arg10 : FVec F S1024 .f32) (main_arg11 : FVec F S1024 .f32) (main_arg12 : FVec F S1x1024 .f32) (main_arg13 : FVec F S1 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg5 main_arg7 main_arg8 main_arg9 main_arg10 main_arg11 main_arg12 main_arg13 main_v33

def fn {F : FTy → Type} [FloatOps F] (main_arg0 : FVec F S8x3x20000 .f32) (main_arg1 : FVec F S1024x3 .f32) (main_arg2 : FVec F S1024 .f32) (main_arg3 : FVec F S1024 .f32) (main_arg4 : FVec F S1024 .f32) (main_arg5 : FVec F S1024 .f32) (main_arg6 : FVec F S1024x1024 .f32) (main_arg7 : FVec F S1024 .f32) (main_arg8 : FVec F S1024 .f32) (main_arg9 : FVec F S1024 .f32) (main_arg10 : FVec F S1024 .f32) (main_arg11 : FVec F S1024 .f32) (main_arg12 : FVec F S1x1024 .f32) (main_arg13 : FVec F S1 .f32) : IVec S_ 1 :=
  let main_v0 : FVec F S8x3x20000 .f32 := Host.absf main_arg0
  let main_cst : FVec F S_ .f32 := constant S_ .f32 0x7F800000#32
  let main_v1 : FVec F S8x3x20000 .f32 := broadcastInDim S8x3x20000 ![] bcast_S_S8x3x20000 main_cst
  let main_v2 : IVec S8x3x20000 1 := cmpf .olt main_v0 main_v1
  let main_c : IVec S_ 1 := constantI S_ 1 1#1
  let main_v3 : IVec S_ 1 := (fun x v => Host.reduce IntOp.andi x v reducesTo_S8x3x20000_S_d0_1_2 h_S_) main_v2 main_c
  let main_v4 : FVec F S1024x3 .f32 := Host.absf main_arg1
  let main_cst_0 : FVec F S_ .f32 := constant S_ .f32 0x7F800000#32
  let main_v5 : FVec F S1024x3 .f32 := broadcastInDim S1024x3 ![] bcast_S_S1024x3 main_cst_0
  let main_v6 : IVec S1024x3 1 := cmpf .olt main_v4 main_v5
  let main_c_1 : IVec S_ 1 := constantI S_ 1 1#1
  let main_v7 : IVec S_ 1 := (fun x v => Host.reduce IntOp.andi x v reducesTo_S1024x3_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_arg9 main_arg10 main_arg11 main_arg12 main_arg13 main_v13 main_v16
-- ==== Kernel.lean ====
abbrev S8x3x20000 : Shape := ⟨3, ![8, 3, 20000]⟩
abbrev S1024x3 : Shape := ⟨2, ![1024, 3]⟩
abbrev S1024 : Shape := ⟨1, ![1024]⟩
abbrev S1024x1024 : Shape := ⟨2, ![1024, 1024]⟩
abbrev S1x1024 : Shape := ⟨2, ![1, 1024]⟩
abbrev S1 : Shape := ⟨1, ![1]⟩
abbrev S8x20000x3 : Shape := ⟨3, ![8, 20000, 3]⟩
abbrev S3x1024 : Shape := ⟨2, ![3, 1024]⟩
abbrev S8x1x1024 : Shape := ⟨3, ![8, 1, 1024]⟩
abbrev S1x2000x3 : Shape := ⟨3, ![1, 2000, 3]⟩
abbrev S1x1x1024 : Shape := ⟨3, ![1, 1, 1024]⟩
abbrev S2000x3 : Shape := ⟨2, ![2000, 3]⟩
abbrev S2000 : Shape := ⟨1, ![2000]⟩
abbrev S2000x1 : Shape := ⟨2, ![2000, 1]⟩
abbrev S2000x1024 : Shape := ⟨2, ![2000, 1024]⟩
abbrev S8x1024 : Shape := ⟨2, ![8, 1024]⟩
abbrev S8x1 : Shape := ⟨2, ![8, 1]⟩
abbrev S1x1 : Shape := ⟨2, ![1, 1]⟩

abbrev nBuf : Space → Nat
  | .hbm => 31
  | .vmem => 19
  | .smem => 0
  | _ => 0

abbrev bufTy : (tb : Table) → Fin (tcTables nBuf tb) → BufTy
  | .hbm, ⟨0, _⟩ => ⟨S8x3x20000, .f32⟩
  | .hbm, ⟨1, _⟩ => ⟨S1024x3, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S1x1024, .f32⟩
  | .hbm, ⟨13, _⟩ => ⟨S1, .f32⟩
  | .hbm, ⟨14, _⟩ => ⟨S8x20000x3, .f32⟩
  | .hbm, ⟨15, _⟩ => ⟨S3x1024, .f32⟩
  | .hbm, ⟨16, _⟩ => ⟨S8x1x1024, .f32⟩
  | .hbm, ⟨17, _⟩ => ⟨S8x1024, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S8x1, .f32⟩
  | .hbm, ⟨28, _⟩ => ⟨S1x1, .f32⟩
  | .hbm, ⟨29, _⟩ => ⟨S8x1, .f32⟩
  | .hbm, ⟨30, _⟩ => ⟨S8x1, .f32⟩
  | .local _ .vmem, ⟨0, _⟩ => ⟨S1x2000x3, .f32⟩
  | .local _ .vmem, ⟨1, _⟩ => ⟨S1x2000x3, .f32⟩
  | .local _ .vmem, ⟨2, _⟩ => ⟨S3x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1024, .f32⟩
  | .local _ .vmem, ⟨6, _⟩ => ⟨S8x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1024x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S8x1, .f32⟩
  | _, _ => ⟨S8x3x20000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg7_0 : Ref sig .tc := ⟨.vmem, 13, rfl⟩
abbrev cc1_stg8_0 : Ref sig .tc := ⟨.vmem, 14, rfl⟩
abbrev cc1_stg9_0 : Ref sig .tc := ⟨.vmem, 15, rfl⟩
abbrev cc1_stg10_0 : Ref sig .tc := ⟨.vmem, 16, rfl⟩
abbrev cc1_stg11_0 : Ref sig .tc := ⟨.vmem, 17, rfl⟩
abbrev cc1_stg12_0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem6_0 : DmaSem sig := 11
abbrev cc1_sem7_0 : DmaSem sig := 12
abbrev cc1_sem8_0 : DmaSem sig := 13
abbrev cc1_sem9_0 : DmaSem sig := 14
abbrev cc1_sem10_0 : DmaSem sig := 15
abbrev cc1_sem11_0 : DmaSem sig := 16
abbrev cc1_sem12_0 : DmaSem sig := 17

abbrev nD : Nat := 1
abbrev τ : Topo := Topo.v7x

variable {F : FTy → Type} [FloatOps F]

abbrev grid0 : Pipeline.Grid := ⟨2, ![8, 10], ![false, false]⟩

def k0_cond2 (i : grid0.Coords) : BitVec 1 :=
  let arg1 : BitVec 32 := BitVec.ofNat 32 (i 1).val
  let c9_i32 : BitVec 32 := 9#32
  let v45 : BitVec 1 := Scalar.cmpi .eq arg1 c9_i32
  let v46 : BitVec 32 := Scalar.extui v45
  let c0_i32_13 : BitVec 32 := 0#32
  let v47 : BitVec 1 := Scalar.cmpi .ne v46 c0_i32_13
  v47

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S3x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S8x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1024x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x1024 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x1024 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x1024 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x1024 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S8x1 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

class Facts₀ : Prop where
  transposes_S8x3x20000_S8x20000x3_0_2_1 : S8x3x20000.Transposes [0, 2, 1] S8x20000x3
  transposes_S1024x3_S3x1024_1_0 : S1024x3.Transposes [1, 0] S3x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1x2000x3_S1x2000x3_0_0_0 : ∀ a, (![0, 0, 0] : Fin 3 → Nat) a + S1x2000x3.size a ≤ S1x2000x3.size a
  h_S1x2000x3 : 0 < S1x2000x3.numel
  shapeCasts_S1x2000x3_S2000x3 : S1x2000x3.ShapeCasts S2000x3
  inb_S3x1024_S3x1024_0_0 : ∀ a, (![0, 0] : Fin 2 → Nat) a + S3x1024.size a ≤ S3x1024.size a
  h_S3x1024 : 0 < S3x1024.numel
  shapeCasts_S3x1024_S3x1024 : S3x1024.ShapeCasts S3x1024
  reduces_S2000x3_S2000 : S2000x3.Reduces [1] S2000
  shapeCasts_S2000_S2000x1 : S2000.ShapeCasts S2000x1
  reduces_S3x1024_S1024 : S3x1024.Reduces [0] S1024
  shapeCasts_S1024_S1x1024 : S1024.ShapeCasts S1x1024
  slices_S2000x3_o0_0_S2000x1 : S2000x3.Slices ![0, 0] S2000x1
  slices_S3x1024_o0_0_S1x1024 : S3x1024.Slices ![0, 0] S1x1024
  broadcasts_S2000x1_S2000x1024 : S2000x1.Broadcasts S2000x1024
  broadcasts_S1x1024_S2000x1024 : S1x1024.Broadcasts S2000x1024
  slices_S2000x3_o0_1_S2000x1 : S2000x3.Slices ![0, 1] S2000x1
  slices_S3x1024_o1_0_S1x1024 : S3x1024.Slices ![1, 0] S1x1024
  slices_S2000x3_o0_2_S2000x1 : S2000x3.Slices ![0, 2] S2000x1
  slices_S3x1024_o2_0_S1x1024 : S3x1024.Slices ![2, 0] S1x1024
  reduces_S2000x1024_S1024 : S2000x1024.Reduces [0] S1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  shapeCasts_S1x1024_S1x1x1024 : S1x1024.ShapeCasts S1x1x1024
  shapeCasts_S8x1x1024_S8x1024 : S8x1x1024.ShapeCasts S8x1024
  inb_S8x1024_S8x1024_0_0 : ∀ a, (![0, 0] : Fin 2 → Nat) a + S8x1024.size a ≤ S8x1024.size a
  h_S8x1024 : 0 < S8x1024.numel
  shapeCasts_S8x1024_S8x1024 : S8x1024.ShapeCasts S8x1024
  broadcasts_S1x1024_S8x1024 : S1x1024.Broadcasts S8x1024
  inb_S1024x1024_S1024x1024_0_0 : ∀ a, (![0, 0] : Fin 2 → Nat) a + S1024x1024.size a ≤ S1024x1024.size a
  h_S1024x1024 : 0 < S1024x1024.numel
  inb_S8x1_S8x1_0_0 : ∀ a, (![0, 0] : Fin 2 → Nat) a + S8x1.size a ≤ S8x1.size a
  h_S8x1 : 0 < S8x1.numel
  bcast_S1_S1x1_1 : S1.BroadcastsInDim S1x1 (![1] : Fin 1 → Fin S1x1.rank)
  bcast_S1x1_S8x1_0_1 : S1x1.BroadcastsInDim S8x1 (![0, 1] : Fin 2 → Fin S8x1.rank)
  dot_S8x1024_S1024x1024_S8x1024_1_1_0_0_n_n_wf : DotDims.WF S8x1024 S1024x1024 S8x1024 [1] [1] [0] [0] [] []
  dot_S8x1024_S1x1024_S8x1_1_1_0_0_n_n_wf : DotDims.WF S8x1024 S1x1024 S8x1 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2000x3.size a ≤ S8x20000x3.size a
  hwx0_0 : ∀ i : grid0.Coords, EltTy.bits .f32 = 32 ∨ (Rect.block (s := S8x20000x3) S1x2000x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x1024.size a ≤ S3x1024.size a
  hwx0_1 : ∀ i : grid0.Coords, EltTy.bits .f32 = 32 ∨ (Rect.block (s := S3x1024) S3x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S8x1x1024.size a
  hwx0_2 : ∀ i : grid0.Coords, EltTy.bits .f32 = 32 ∨ (Rect.block (s := S8x1x1024) S1x1x1024.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S8x1024.size a ≤ S8x1024.size a
  hwx1_0 : ∀ i : grid1.Coords, EltTy.bits .f32 = 32 ∨ (Rect.block (s := S8x1024) S8x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1024.size a ≤ S1x1024.size a
  hwx1_1 : ∀ i : grid1.Coords, EltTy.bits .f32 = 32 ∨ (Rect.block (s := S1x1024) S1x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x1024.size a
  hwx1_3 : ∀ i : grid1.Coords, EltTy.bits .f32 = 32 ∨ (Rect.block (s := S1x1024) S1x1024.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x1024.size a
  hwx1_4 : ∀ i : grid1.Coords, EltTy.bits .f32 = 32 ∨ (Rect.block (s := S1x1024) S1x1024.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1024x1024.size a ≤ S1024x1024.size a
  hwx1_5 : ∀ i : grid1.Coords, EltTy.bits .f32 = 32 ∨ (Rect.block (s := S1024x1024) S1024x1024.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1024.size a ≤ S1x1024.size a
  hwx1_6 : ∀ i : grid1.Coords, EltTy.bits .f32 = 32 ∨ (Rect.block (s := S1x1024) S1x1024.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x1024.size a ≤ S1x1024.size a
  hwx1_7 : ∀ i : grid1.Coords, EltTy.bits .f32 = 32 ∨ (Rect.block (s := S1x1024) S1x1024.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x1024.size a ≤ S1x1024.size a
  hwx1_8 : ∀ i : grid1.Coords, EltTy.bits .f32 = 32 ∨ (Rect.block (s := S1x1024) S1x1024.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x1024.size a ≤ S1x1024.size a
  hwx1_9 : ∀ i : grid1.Coords, EltTy.bits .f32 = 32 ∨ (Rect.block (s := S1x1024) S1x1024.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x1024.size a ≤ S1x1024.size a
  hwx1_10 : ∀ i : grid1.Coords, EltTy.bits .f32 = 32 ∨ (Rect.block (s := S1x1024) S1x1024.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x1024.size a ≤ S1x1024.size a
  hwx1_11 : ∀ i : grid1.Coords, EltTy.bits .f32 = 32 ∨ (Rect.block (s := S1x1024) S1x1024.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S8x1.size a ≤ S8x1.size a
  hwx1_12 : ∀ i : grid1.Coords, EltTy.bits .f32 = 32 ∨ (Rect.block (s := S8x1) S8x1.size (cc1_transform_12 i) (hinb1_12 i)).WholeWords (EltTy.packing .f32)

variable [Facts₀]

def dot_S8x1024_S1024x1024_S8x1024_1_1_0_0_n_n : DotDims S8x1024 S1024x1024 S8x1024 where
  lhsContracting := [1]
  rhsContracting := [1]
  lhsNonContracting := [0]
  rhsNonContracting := [0]
  lhsBatch := []
  rhsBatch := []
  wf := dot_S8x1024_S1024x1024_S8x1024_1_1_0_0_n_n_wf
def dot_S8x1024_S1x1024_S8x1_1_1_0_0_n_n : DotDims S8x1024 S1x1024 S8x1 where
  lhsContracting := [1]
  rhsContracting := [1]
  lhsNonContracting := [0]
  rhsNonContracting := [0]
  lhsBatch := []
  rhsBatch := []
  wf := dot_S8x1024_S1x1024_S8x1_1_1_0_0_n_n_wf

abbrev win0_0 : Pipeline.Window sig grid0 :=
  Pipeline.Window.ofSpec (Memref.whole main_v0) S1x2000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S3x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v3) S8x1024.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7) S1x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S1024x1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v8) S1x1024.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v9) S1x1024.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v10) S1x1024.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v11) S1x1024.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v12) S1x1024.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_arg12) S1x1024.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v13) S8x1.size cc1_transform_12 reads1_12 true true 1 stage1_12 sem1_12
    hrank1 hreads1_12 hinb1_12 nbuf1_12 (Memref.isWhole_whole _) hwx1_12 hstage1_12

abbrev win1 : Fin 13 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | ⟨_ + 13, h⟩ => absurd h (Nat.not_lt.2 (Nat.le_add_left _ _))
abbrev spec1 : Fin 13 → Pipeline.WinSpec sig grid1.rank := fun w => (win1 w).toWinSpec

class Facts : Prop extends Facts₀ where

variable [Facts]
-- ==== ReferenceIdeal.lean ====
abbrev S8x3x20000 : Shape := ⟨3, ![8, 3, 20000]⟩
abbrev S1024x3 : Shape := ⟨2, ![1024, 3]⟩
abbrev S1024 : Shape := ⟨1, ![1024]⟩
abbrev S1024x1024 : Shape := ⟨2, ![1024, 1024]⟩
abbrev S1x1024 : Shape := ⟨2, ![1, 1024]⟩
abbrev S1 : Shape := ⟨1, ![1]⟩
abbrev S8x20000x3 : Shape := ⟨3, ![8, 20000, 3]⟩
abbrev S_ : Shape := ⟨0, ![]⟩
abbrev S8x20000 : Shape := ⟨2, ![8, 20000]⟩
abbrev S8x20000x1024 : Shape := ⟨3, ![8, 20000, 1024]⟩
abbrev S8x20000x1 : Shape := ⟨3, ![8, 20000, 1]⟩
abbrev S1x1x1024 : Shape := ⟨3, ![1, 1, 1024]⟩
abbrev S8x1024 : Shape := ⟨2, ![8, 1024]⟩
abbrev S1024x1 : Shape := ⟨2, ![1024, 1]⟩
abbrev S8x1 : Shape := ⟨2, ![8, 1]⟩
abbrev S1x1 : Shape := ⟨2, ![1, 1]⟩

abbrev nBuf : Space → Nat
  | .hbm => 79
  | .vmem => 0
  | .smem => 0
  | _ => 0

abbrev bufTy : (tb : Table) → Fin (tcTables nBuf tb) → BufTy
  | .hbm, ⟨0, _⟩ => ⟨S8x3x20000, .f32⟩
  | .hbm, ⟨1, _⟩ => ⟨S1024x3, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S1x1024, .f32⟩
  | .hbm, ⟨13, _⟩ => ⟨S1, .f32⟩
  | .hbm, ⟨14, _⟩ => ⟨S8x20000x3, .f32⟩
  | .hbm, ⟨15, _⟩ => ⟨S8x20000x3, .f32⟩
  | .hbm, ⟨16, _⟩ => ⟨S_, .f32⟩
  | .hbm, ⟨17, _⟩ => ⟨S8x20000, .f32⟩
  | .hbm, ⟨18, _⟩ => ⟨S1024x3, .f32⟩
  | .hbm, ⟨19, _⟩ => ⟨S_, .f32⟩
  | .hbm, ⟨20, _⟩ => ⟨S1024, .f32⟩
  | .hbm, ⟨21, _⟩ => ⟨S8x20000x1024, .f32⟩
  | .hbm, ⟨22, _⟩ => ⟨S8x20000x1, .f32⟩
  | .hbm, ⟨23, _⟩ => ⟨S1x1x1024, .f32⟩
  | .hbm, ⟨24, _⟩ => ⟨S8x20000x1024, .f32⟩
  | .hbm, ⟨25, _⟩ => ⟨S8x20000x1024, .f32⟩
  | .hbm, ⟨26, _⟩ => ⟨S8x20000x1024, .f32⟩
  | .hbm, ⟨27, _⟩ => ⟨S_, .f32⟩
  | .hbm, ⟨28, _⟩ => ⟨S8x20000x1024, .f32⟩
  | .hbm, ⟨29, _⟩ => ⟨S8x20000x1024, .f32⟩
  | .hbm, ⟨30, _⟩ => ⟨S8x20000x1024, .f32⟩
  | .hbm, ⟨31, _⟩ => ⟨S_, .f32⟩
  | .hbm, ⟨32, _⟩ => ⟨S_, .f32⟩
  | .hbm, ⟨33, _⟩ => ⟨S8x20000x1024, .f32⟩
  | .hbm, ⟨34, _⟩ => ⟨S8x20000x1024, .f32⟩
  | .hbm, ⟨35, _⟩ => ⟨S_, .f32⟩
  | .hbm, ⟨36, _⟩ => ⟨S8x1024, .f32⟩
  | .hbm, ⟨37, _⟩ => ⟨S8x1024, .f32⟩
  | .hbm, ⟨38, _⟩ => ⟨S1x1024, .f32⟩
  | .hbm, ⟨39, _⟩ => ⟨S8x1024, .f32⟩
  | .hbm, ⟨40, _⟩ => ⟨S8x1024, .f32⟩
  | .hbm, ⟨41, _⟩ => ⟨S_, .f32⟩
  | .hbm, ⟨42, _⟩ => ⟨S1024, .f32⟩
  | .hbm, ⟨43, _⟩ => ⟨S1024, .f32⟩
  | .hbm, ⟨44, _⟩ => ⟨S1024, .f32⟩
  | .hbm, ⟨45, _⟩ => ⟨S1024, .f32⟩
  | .hbm, ⟨46, _⟩ => ⟨S1x1024, .f32⟩
  | .hbm, ⟨47, _⟩ => ⟨S8x1024, .f32⟩
  | .hbm, ⟨48, _⟩ => ⟨S8x1024, .f32⟩
  | .hbm, ⟨49, _⟩ => ⟨S1x1024, .f32⟩
  | .hbm, ⟨50, _⟩ => ⟨S8x1024, .f32⟩
  | .hbm, ⟨51, _⟩ => ⟨S8x1024, .f32⟩
  | .hbm, ⟨52, _⟩ => ⟨S1024x1024, .f32⟩
  | .hbm, ⟨53, _⟩ => ⟨S8x1024, .f32⟩
  | .hbm, ⟨54, _⟩ => ⟨S1x1024, .f32⟩
  | .hbm, ⟨55, _⟩ => ⟨S8x1024, .f32⟩
  | .hbm, ⟨56, _⟩ => ⟨S8x1024, .f32⟩
  | .hbm, ⟨57, _⟩ => ⟨S_, .f32⟩
  | .hbm, ⟨58, _⟩ => ⟨S8x1024, .f32⟩
  | .hbm, ⟨59, _⟩ => ⟨S8x1024, .f32⟩
  | .hbm, ⟨60, _⟩ => ⟨S1x1024, .f32⟩
  | .hbm, ⟨61, _⟩ => ⟨S8x1024, .f32⟩
  | .hbm, ⟨62, _⟩ => ⟨S8x1024, .f32⟩
  | .hbm, ⟨63, _⟩ => ⟨S_, .f32⟩
  | .hbm, ⟨64, _⟩ => ⟨S1024, .f32⟩
  | .hbm, ⟨65, _⟩ => ⟨S1024, .f32⟩
  | .hbm, ⟨66, _⟩ => ⟨S1024, .f32⟩
  | .hbm, ⟨67, _⟩ => ⟨S1024, .f32⟩
  | .hbm, ⟨68, _⟩ => ⟨S1x1024, .f32⟩
  | .hbm, ⟨69, _⟩ => ⟨S8x1024, .f32⟩
  | .hbm, ⟨70, _⟩ => ⟨S8x1024, .f32⟩
  | .hbm, ⟨71, _⟩ => ⟨S1x1024, .f32⟩
  | .hbm, ⟨72, _⟩ => ⟨S8x1024, .f32⟩
  | .hbm, ⟨73, _⟩ => ⟨S8x1024, .f32⟩
  | .hbm, ⟨74, _⟩ => ⟨S1024x1, .f32⟩
  | .hbm, ⟨75, _⟩ => ⟨S8x1, .f32⟩
  | .hbm, ⟨76, _⟩ => ⟨S1x1, .f32⟩
  | .hbm, ⟨77, _⟩ => ⟨S8x1, .f32⟩
  | .hbm, ⟨78, _⟩ => ⟨S8x1, .f32⟩
  | _, _ => ⟨S8x3x20000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_cst : Ref sig .tc := ⟨.hbm, 16, rfl⟩
abbrev main_v2 : Ref sig .tc := ⟨.hbm, 17, rfl⟩
abbrev main_v3 : Ref sig .tc := ⟨.hbm, 18, rfl⟩
abbrev main_cst_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v14 : Ref sig .tc := ⟨.hbm, 34, rfl⟩
abbrev main_cst_3 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst_4 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_call1_cst : Ref sig .tc := ⟨.hbm, 57, rfl⟩
abbrev main_call1_v0 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_5 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩

abbrev nD : Nat := 1
abbrev τ : Topo := Topo.v7x

variable {F : FTy → Type} [FloatOps F]

class Facts₀ : Prop where
  transposes_S8x3x20000_S8x20000x3_0_2_1 : S8x3x20000.Transposes [0, 2, 1] S8x20000x3
  reducesTo_S8x20000x3_S8x20000_d2 : S8x20000x3.ReducesTo [2] S8x20000
  h_S_ : 0 < S_.numel
  reducesTo_S1024x3_S1024_d1 : S1024x3.ReducesTo [1] S1024
  bcast_S8x20000_S8x20000x1_0_1 : S8x20000.BroadcastsInDim S8x20000x1 (![0, 1] : Fin 2 → Fin S8x20000x1.rank)
  bcast_S1024_S1x1x1024_2 : S1024.BroadcastsInDim S1x1x1024 (![2] : Fin 1 → Fin S1x1x1024.rank)
  bcast_S8x20000x1_S8x20000x1024_0_1_2 : S8x20000x1.BroadcastsInDim S8x20000x1024 (![0, 1, 2] : Fin 3 → Fin S8x20000x1024.rank)
  bcast_S1x1x1024_S8x20000x1024_0_1_2 : S1x1x1024.BroadcastsInDim S8x20000x1024 (![0, 1, 2] : Fin 3 → Fin S8x20000x1024.rank)
  bcast_S_S8x20000x1024 : S_.BroadcastsInDim S8x20000x1024 (![] : Fin 0 → Fin S8x20000x1024.rank)
  reducesTo_S8x20000x1024_S8x1024_d1 : S8x20000x1024.ReducesTo [1] S8x1024
  bcast_S1024_S1x1024_1 : S1024.BroadcastsInDim S1x1024 (![1] : Fin 1 → Fin S1x1024.rank)
  bcast_S1x1024_S8x1024_0_1 : S1x1024.BroadcastsInDim S8x1024 (![0, 1] : Fin 2 → Fin S8x1024.rank)
  bcast_S_S1024 : S_.BroadcastsInDim S1024 (![] : Fin 0 → Fin S1024.rank)
  transposes_S1024x1024_S1024x1024_1_0 : S1024x1024.Transposes [1, 0] S1024x1024
  bcast_S_S8x1024 : S_.BroadcastsInDim S8x1024 (![] : Fin 0 → Fin S8x1024.rank)
  transposes_S1x1024_S1024x1_1_0 : S1x1024.Transposes [1, 0] S1024x1
  bcast_S1_S1x1_1 : S1.BroadcastsInDim S1x1 (![1] : Fin 1 → Fin S1x1.rank)
  bcast_S1x1_S8x1_0_1 : S1x1.BroadcastsInDim S8x1 (![0, 1] : Fin 2 → Fin S8x1.rank)
  dot_S8x20000x3_S1024x3_S8x20000x1024_2_1_01_0_n_n_wf : DotDims.WF S8x20000x3 S1024x3 S8x20000x1024 [2] [1] [0, 1] [0] [] []
  dot_S8x1024_S1024x1024_S8x1024_1_0_0_1_n_n_wf : DotDims.WF S8x1024 S1024x1024 S8x1024 [1] [0] [0] [1] [] []
  dot_S8x1024_S1024x1_S8x1_1_0_0_1_n_n_wf : DotDims.WF S8x1024 S1024x1 S8x1 [1] [0] [0] [1] [] []

variable [Facts₀]

def dot_S8x20000x3_S1024x3_S8x20000x1024_2_1_01_0_n_n : DotDims S8x20000x3 S1024x3 S8x20000x1024 where
  lhsContracting := [2]
  rhsContracting := [1]
  lhsNonContracting := [0, 1]
  rhsNonContracting := [0]
  lhsBatch := []
  rhsBatch := []
  wf := dot_S8x20000x3_S1024x3_S8x20000x1024_2_1_01_0_n_n_wf
def dot_S8x1024_S1024x1024_S8x1024_1_0_0_1_n_n : DotDims S8x1024 S1024x1024 S8x1024 where
  lhsContracting := [1]
  rhsContracting := [0]
  lhsNonContracting := [0]
  rhsNonContracting := [1]
  lhsBatch := []
  rhsBatch := []
  wf := dot_S8x1024_S1024x1024_S8x1024_1_0_0_1_n_n_wf
def dot_S8x1024_S1024x1_S8x1_1_0_0_1_n_n : DotDims S8x1024 S1024x1 S8x1 where
  lhsContracting := [1]
  rhsContracting := [0]
  lhsNonContracting := [0]
  rhsNonContracting := [1]
  lhsBatch := []
  rhsBatch := []
  wf := dot_S8x1024_S1024x1_S8x1_1_0_0_1_n_n_wf

class Facts : Prop extends Facts₀ where

variable [Facts]
-- ==== Proof.KernelIdeal.R0Base.lean ====
/-
  The distance kernel's region (the first of the program's two kernel regions): the names its frame is stated over.

  The region runs the kernel body over a grid of 8 clouds by 10 tiles of 2000 points.  The body sees a tile of the
  cloud (window 0), the transposed basis (window 1, fetched once), the cloud's row of the result (window 2) and a
  scratch row carrying the running minimum from tile to tile.  At a cloud's first tile the scratch is reset to
  +infinity; at every tile the tile's column minima are folded into it; at the cloud's last tile its square root is
  stored into the result row, which is written back only there and is idle at the other tiles.

  Here: a window's block read off the array the region finds; the two branch conditions of the body in closed form
  over the grid (first tile: position = 0 mod 10; last tile: position = 9 mod 10); where the result window is idle
  and where it is written back; the staging memrefs and the scratch as the pipeline passes them.
-/
import proofs.«167137_j12017318494451_2_alg».proof.Proof.Gen.KernelIdeal.Launch
import proofs.«167137_j12017318494451_2_alg».proof.Proof.Gen.KernelIdeal.Skeleton
import proofs.«167137_j12017318494451_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at grid position `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The cloud window's staging buffer holds the position's tile whenever the body runs, for any proof data over the
    entry contents whose body leaves the tile in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The basis window's staging buffer holds the basis whenever the body runs: fetched once, its block never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
end

/-! ## The body's two branch conditions over the grid -/

/-- "This is the cloud's first tile": the reset of the running minimum. -/
abbrev isFirst (i : grid0.Coords) : Prop :=
  (Scalar.cmpi .ne (Scalar.extui (Scalar.cmpi .eq (BitVec.ofNat 32 (i 1).val) 0#32)) 0#32) = 1#1
theorem isFirst_iff : ∀ t : Fin cfg0.N, isFirst (grid0.coords t) ↔ t.val % 10 = 0 :=
  (by decide +kernel : ∀ t : Fin grid0.N, isFirst (grid0.coords t) ↔ t.val % 10 = 0)

/-- "This is the cloud's last tile": the square root is stored into the result row. -/
abbrev isLast (i : grid0.Coords) : Prop := k0_cond2 i = 1#1
theorem isLast_iff : ∀ t : Fin cfg0.N, isLast (grid0.coords t) ↔ t.val % 10 = 9 :=
  (by decide +kernel : ∀ t : Fin grid0.N, isLast (grid0.coords t) ↔ t.val % 10 = 9)

/-! ## Where the result window is idle, and where it is written back -/

theorem idle_out_of_not_last : ∀ t : Fin cfg0.N, ¬isLast (grid0.coords t) → cfg0.idle 2 (grid0.coords t) = true := by decide +kernel
theorem noFlush_out_of_not_last : ∀ t : Fin cfg0.N, ¬isLast (grid0.coords t) → (cfg0.win 2).flush t = false := by decide +kernel
theorem live_out_of_last : ∀ t : Fin cfg0.N, isLast (grid0.coords t) → cfg0.idle 2 (grid0.coords t) = false := by decide +kernel
theorem live_in0 : ∀ t : Fin cfg0.N, cfg0.idle 0 (grid0.coords t) = false := by decide +kernel
theorem live_in1 : ∀ t : Fin cfg0.N, cfg0.idle 1 (grid0.coords t) = false := by decide +kernel

/-! ## The memrefs the body is called with -/

abbrev mX (t : Fin cfg0.N) : Memref sig .tc .vmem S1x2000x3 .f32 := win0_0.stage (cfg0.slots t 0)
abbrev hX (t : Fin cfg0.N) : (mX t).IsWhole := hstage0_0 ((cfg0.slots t 0).cast nbuf0_0)
abbrev mB (t : Fin cfg0.N) : Memref sig .tc .vmem S3x1024 .f32 := win0_1.stage (cfg0.slots t 1)
abbrev hB (t : Fin cfg0.N) : (mB t).IsWhole := hstage0_1 ((cfg0.slots t 1).cast nbuf0_1)
abbrev mO (t : Fin cfg0.N) : Memref sig .tc .vmem S1x1x1024 .f32 := win0_2.stage (cfg0.slots t 2)
abbrev hO (t : Fin cfg0.N) : (mO t).IsWhole := hstage0_2 ((cfg0.slots t 2).cast nbuf0_2)
/-- The scratch row: a whole scoped buffer of the kernel's own. -/
abbrev mS : Memref sig .tc .vmem S1x1024 .f32 := Memref.whole cc0_scratch0
/-- The views through which the scratch's and the result row's contents are stated. -/
abbrev vS : View sig .tc .vmem S1x1024 .f32 := mS.view
abbrev vO : View sig .tc .vmem S1x1x1024 .f32 := (Memref.whole cc0_stg2_0 : Memref sig .tc .vmem S1x1x1024 .f32).view

/-- The second region's staging buffers, which this region never touches: each whole at some contents. -/
def otherStaging (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg9_0), ((c : Thread nD τ).loc cc1_stg9_0) ↦{fullShare} f) ∗ (∃ f : Buf (Elt F) ((c : Thread nD τ).loc cc1_stg10_0), ((c : Thread nD τ).loc cc1_stg10_0) ↦{fullShare} f) ∗ (∃ f : Buf (Elt F) ((c : Thread nD τ).loc cc1_stg11_0), ((c : Thread nD τ).loc cc1_stg11_0) ↦{fullShare} f) ∗ (∃ f : Buf (Elt F) ((c : Thread nD τ).loc cc1_stg12_0), ((c : Thread nD τ).loc cc1_stg12_0) ↦{fullShare} f))

/-- The class invariant of this region: the scratch row at some contents, the second region's staging buffers at
    some contents, and the generator register at some state. -/
theorem PhiA0_eq (c : Dev nD) :
    (Pipeline.ΦA spec0 c : sProp 𝕄)
      = iprop(iprop((∃ d, owns (c : Thread nD τ) mS fullShare d) ∗ otherStaging (F := F) c) ∗ (∃ r, prngReg c r)) := by
  unfold Pipeline.ΦA otherStaging; rw [scopedRest0_eq]; simp only [mS, owns_whole]; try rfl

end Cert.KernelIdeal.Hand

end
-- ==== Proof.KernelIdeal.R0RunFirst.lean ====
/-
  The distance kernel's body, run once at a cloud's first tile (the running minimum is reset, the result row left alone): on whole staging memrefs holding a tile of the cloud, the basis and the
  result row, and the scratch row, every step of the body goes through and the continuation is reached with the inputs as
  they were and each buffer the body stored into at its stores written over what it held, last store first.  The list of
  stores is found by running the body; what matters of it later is only that it covers the buffer.
-/
import proofs.«167137_j12017318494451_2_alg».proof.Proof.KernelIdeal.R0Base

set_option maxHeartbeats 4000000
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body at a first tile: the scratch, at anything, ends at the stores `LS` (the reset, then the fold of the tile's
    minima); the result row `xo` is handed back untouched. -/
noncomputable def runFirst (c : Dev nD) (i : grid0.Coords) (arg2 : Memref sig .tc .vmem S1x2000x3 .f32) (harg2 : arg2.IsWhole) (arg3 : Memref sig .tc .vmem S3x1024 .f32) (harg3 : arg3.IsWhole) (arg4 : Memref sig .tc .vmem S1x1x1024 .f32) (harg4 : arg4.IsWhole) (arg5 : Memref sig .tc .vmem S1x1024 .f32) (harg5 : arg5.IsWhole) (hf : isFirst i) (hl : ¬isLast i)
    (x0 : Vec F S1x2000x3 .f32) (x1 : Vec F S3x1024 .f32) :
    { LS : List (View.Piece (Elt F) S1x1024 .f32) //
      ∀ (xo : Vec F S1x1x1024 .f32) (E : Set ℕ) (K : PUnit → sProp 𝕄),
        iprop(owns (c : Thread nD τ) arg2 fullShare x0 ∗ owns (c : Thread nD τ) arg3 fullShare x1 ∗ owns (c : Thread nD τ) arg4 fullShare xo ∗ (∃ d, owns (c : Thread nD τ) arg5 fullShare d)
            ∗ (iprop(owns (c : Thread nD τ) arg2 fullShare x0 ∗ owns (c : Thread nD τ) arg3 fullShare x1 ∗ owns (c : Thread nD τ) arg4 fullShare xo ∗ (∃ f, arg5.view.loc (c : Thread nD τ) ↦[arg5.view.set]{fullShare} arg5.view.writes (Elt F) f LS)) -∗ K ⟨⟩))
          ⊢ wp frame (wpE (defs₀ (F := F)) Variants.none c none) E (cc0__bps_kernel i arg2 harg2 arg3 harg3 arg4 harg4 arg5 harg5) K } := by
  refine ⟨?_, fun xo E K => ?run⟩
  case run =>
    simp only [cc0__bps_kernel_eq_skeleton]; unfold cc0__bps_kernel_skel
    simp only [k0_part1_eq_skeleton]
    unfold owns
    iintro ⟨⟨%f0, %hf0, H0⟩, ⟨%f1, %hf1, H1⟩, ⟨%fo, %hfo, HO⟩, ⟨%ds, %fs, -, HS⟩, Hk⟩
    obtain rfl := harg2.eq_unread hf0; obtain rfl := harg3.eq_unread hf1; obtain rfl := harg4.eq_unread hfo
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [HO]
    · iexists _; isplitr; · ipureintro; exact harg4.read_unread _
      iexact HO
    iexists _; iexact HS

end Cert.KernelIdeal.Hand

end
-- ==== Proof.KernelIdeal.R0RunMid.lean ====
/-
  The distance kernel's body, run once at a tile that is neither a cloud's first nor its last (the tile's minima folded into the running minimum): on whole staging memrefs holding a tile of the cloud, the basis and the
  result row, and the scratch row, every step of the body goes through and the continuation is reached with the inputs as
  they were and each buffer the body stored into at its stores written over what it held, last store first.  The list of
  stores is found by running the body; what matters of it later is only that it covers the buffer.
-/
import proofs.«167137_j12017318494451_2_alg».proof.Proof.KernelIdeal.R0Base

set_option maxHeartbeats 4000000
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body at a middle tile: the scratch, at the running minimum `xs` so far, ends at the store `LS`; the result row
    `xo` is handed back untouched. -/
noncomputable def runMid (c : Dev nD) (i : grid0.Coords) (arg2 : Memref sig .tc .vmem S1x2000x3 .f32) (harg2 : arg2.IsWhole) (arg3 : Memref sig .tc .vmem S3x1024 .f32) (harg3 : arg3.IsWhole) (arg4 : Memref sig .tc .vmem S1x1x1024 .f32) (harg4 : arg4.IsWhole) (arg5 : Memref sig .tc .vmem S1x1024 .f32) (harg5 : arg5.IsWhole) (hf : ¬isFirst i) (hl : ¬isLast i)
    (x0 : Vec F S1x2000x3 .f32) (x1 : Vec F S3x1024 .f32) (xs : Vec F S1x1024 .f32) :
    { LS : List (View.Piece (Elt F) S1x1024 .f32) //
      ∀ (xo : Vec F S1x1x1024 .f32) (E : Set ℕ) (K : PUnit → sProp 𝕄),
        iprop(owns (c : Thread nD τ) arg2 fullShare x0 ∗ owns (c : Thread nD τ) arg3 fullShare x1 ∗ owns (c : Thread nD τ) arg4 fullShare xo ∗ owns (c : Thread nD τ) arg5 fullShare xs
            ∗ (iprop(owns (c : Thread nD τ) arg2 fullShare x0 ∗ owns (c : Thread nD τ) arg3 fullShare x1 ∗ owns (c : Thread nD τ) arg4 fullShare xo ∗ (∃ f, arg5.view.loc (c : Thread nD τ) ↦[arg5.view.set]{fullShare} arg5.view.writes (Elt F) f LS)) -∗ K ⟨⟩))
          ⊢ wp frame (wpE (defs₀ (F := F)) Variants.none c none) E (cc0__bps_kernel i arg2 harg2 arg3 harg3 arg4 harg4 arg5 harg5) K } := by
  refine ⟨?_, fun xo E K => ?run⟩
  case run =>
    simp only [cc0__bps_kernel_eq_skeleton]; unfold cc0__bps_kernel_skel
    simp only [k0_part1_eq_skeleton]
    unfold owns
    iintro ⟨⟨%f0, %hf0, H0⟩, ⟨%f1, %hf1, H1⟩, ⟨%fo, %hfo, HO⟩, ⟨%fs, %hfs, HS⟩, Hk⟩
    obtain rfl := harg2.eq_unread hf0; obtain rfl := harg3.eq_unread hf1; obtain rfl := harg4.eq_unread hfo; obtain rfl := harg5.eq_unread hfs
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [HO]
    · iexists _; isplitr; · ipureintro; exact harg4.read_unread _
      iexact HO
    iexists _; iexact HS

end Cert.KernelIdeal.Hand

end
-- ==== Proof.KernelIdeal.R0RunLast.lean ====
/-
  The distance kernel's body, run once at a cloud's last tile (the tile's minima folded in, then the square root stored into the result row): on whole staging memrefs holding a tile of the cloud, the basis and the
  result row, and the scratch row, every step of the body goes through and the continuation is reached with the inputs as
  they were and each buffer the body stored into at its stores written over what it held, last store first.  The list of
  stores is found by running the body; what matters of it later is only that it covers the buffer.
-/
import proofs.«167137_j12017318494451_2_alg».proof.Proof.KernelIdeal.R0Base

set_option maxHeartbeats 4000000
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body at a last tile: the scratch, at the running minimum `xs` so far, ends at the store `LS`; the result row, at
    anything, ends at the store `LO`. -/
noncomputable def runLast (c : Dev nD) (i : grid0.Coords) (arg2 : Memref sig .tc .vmem S1x2000x3 .f32) (harg2 : arg2.IsWhole) (arg3 : Memref sig .tc .vmem S3x1024 .f32) (harg3 : arg3.IsWhole) (arg4 : Memref sig .tc .vmem S1x1x1024 .f32) (harg4 : arg4.IsWhole) (arg5 : Memref sig .tc .vmem S1x1024 .f32) (harg5 : arg5.IsWhole) (hf : ¬isFirst i) (hl : isLast i)
    (x0 : Vec F S1x2000x3 .f32) (x1 : Vec F S3x1024 .f32) (xs : Vec F S1x1024 .f32) :
    Σ' (LO : List (View.Piece (Elt F) S1x1x1024 .f32)), { LS : List (View.Piece (Elt F) S1x1024 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LS)) -∗ K ⟨⟩))
          ⊢ wp frame (wpE (defs₀ (F := F)) Variants.none c none) E (cc0__bps_kernel i arg2 harg2 arg3 harg3 arg4 harg4 arg5 harg5) K } := by
  refine ⟨?_, ?_, fun E K => ?run⟩
  case run =>
    simp only [cc0__bps_kernel_eq_skeleton]; unfold cc0__bps_kernel_skel
    simp only [k0_part1_eq_skeleton]
    unfold owns
    iintro ⟨⟨%f0, %hf0, H0⟩, ⟨%f1, %hf1, H1⟩, ⟨%dO, %fo, -, HO⟩, ⟨%fs, %hfs, HS⟩, Hk⟩
    obtain rfl := harg2.eq_unread hf0; obtain rfl := harg3.eq_unread hf1; obtain rfl := harg5.eq_unread hfs
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [HO]
    · iexists _; iexact HO
    iexists _; iexact HS

end Cert.KernelIdeal.Hand

end
-- ==== Proof.KernelIdeal.R0Frame.lean ====
/-
  The distance kernel's region: what its scratch row and its result row hold after each grid position, the region's
  invariant, its proof data over the contents the region is entered with, and the body obligation at every position.

  Along a cloud's ten tiles the scratch row holds the running minimum: after the first tile, the fold of that tile's
  column minima into +infinity; after each later tile, the fold of the tile's minima into what the tile before left.
  The result row is stored only at the last tile, from the running minimum the tile before left.  The region's
  invariant says so position by position: before the first position the scratch is at anything; after position n it is at
  the running minimum of n.  The second region's staging buffers and the generator register ride along untouched.
-/
import proofs.«167137_j12017318494451_2_alg».proof.Proof.KernelIdeal.R0RunFirst
import proofs.«167137_j12017318494451_2_alg».proof.Proof.KernelIdeal.R0RunMid
import proofs.«167137_j12017318494451_2_alg».proof.Proof.KernelIdeal.R0RunLast

set_option maxHeartbeats 4000000
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case's stores leave -/

/-- The first tile's stores into the scratch row cover it. -/
theorem coverFirst (c : Dev nD) (i : grid0.Coords) (arg2 : Memref sig .tc .vmem S1x2000x3 .f32) (harg2 : arg2.IsWhole) (arg3 : Memref sig .tc .vmem S3x1024 .f32) (harg3 : arg3.IsWhole) (arg4 : Memref sig .tc .vmem S1x1x1024 .f32) (harg4 : arg4.IsWhole) (arg5 : Memref sig .tc .vmem S1x1024 .f32) (harg5 : arg5.IsWhole) (hf : isFirst i) (hl : ¬isLast i) (x0 : Vec F S1x2000x3 .f32) (x1 : Vec F S3x1024 .f32) (y : S1x1024.Idx) :
    ∃ pc ∈ (runFirst c i arg2 harg2 arg3 harg3 arg4 harg4 arg5 harg5 hf hl x0 x1).1, y ∈ pc.1.set :=
  View.cover_of_tiledL (runFirst c i arg2 harg2 arg3 harg3 arg4 harg4 arg5 harg5 hf hl x0 x1).1 S1x1024.size (by sl_kernel_rfl) y
/-- The running minimum after a first tile. -/
def accFirst (c : Dev nD) (i : grid0.Coords) (arg2 : Memref sig .tc .vmem S1x2000x3 .f32) (harg2 : arg2.IsWhole) (arg3 : Memref sig .tc .vmem S3x1024 .f32) (harg3 : arg3.IsWhole) (arg4 : Memref sig .tc .vmem S1x1x1024 .f32) (harg4 : arg4.IsWhole) (arg5 : Memref sig .tc .vmem S1x1024 .f32) (harg5 : arg5.IsWhole) (hf : isFirst i) (hl : ¬isLast i) (x0 : Vec F S1x2000x3 .f32) (x1 : Vec F S3x1024 .f32) : Vec F S1x1024 .f32 :=
  vS.read (Elt F) (vS.writes (Elt F) vS.junk (runFirst c i arg2 harg2 arg3 harg3 arg4 harg4 arg5 harg5 hf hl x0 x1).1)

/-- A middle tile's store into the scratch row covers it. -/
theorem coverMid (c : Dev nD) (i : grid0.Coords) (arg2 : Memref sig .tc .vmem S1x2000x3 .f32) (harg2 : arg2.IsWhole) (arg3 : Memref sig .tc .vmem S3x1024 .f32) (harg3 : arg3.IsWhole) (arg4 : Memref sig .tc .vmem S1x1x1024 .f32) (harg4 : arg4.IsWhole) (arg5 : Memref sig .tc .vmem S1x1024 .f32) (harg5 : arg5.IsWhole) (hf : ¬isFirst i) (hl : ¬isLast i) (x0 : Vec F S1x2000x3 .f32) (x1 : Vec F S3x1024 .f32) (xs : Vec F S1x1024 .f32) (y : S1x1024.Idx) :
    ∃ pc ∈ (runMid c i arg2 harg2 arg3 harg3 arg4 harg4 arg5 harg5 hf hl x0 x1 xs).1, y ∈ pc.1.set :=
  View.cover_of_tiledL (runMid c i arg2 harg2 arg3 harg3 arg4 harg4 arg5 harg5 hf hl x0 x1 xs).1 S1x1024.size (by sl_kernel_rfl) y
/-- The running minimum after a middle tile, from the one before it. -/
def accMid (c : Dev nD) (i : grid0.Coords) (arg2 : Memref sig .tc .vmem S1x2000x3 .f32) (harg2 : arg2.IsWhole) (arg3 : Memref sig .tc .vmem S3x1024 .f32) (harg3 : arg3.IsWhole) (arg4 : Memref sig .tc .vmem S1x1x1024 .f32) (harg4 : arg4.IsWhole) (arg5 : Memref sig .tc .vmem S1x1024 .f32) (harg5 : arg5.IsWhole) (hf : ¬isFirst i) (hl : ¬isLast i) (x0 : Vec F S1x2000x3 .f32) (x1 : Vec F S3x1024 .f32) (xs : Vec F S1x1024 .f32) : Vec F S1x1024 .f32 :=
  vS.read (Elt F) (vS.writes (Elt F) vS.junk (runMid c i arg2 harg2 arg3 harg3 arg4 harg4 arg5 harg5 hf hl x0 x1 xs).1)

/-- A last tile's store into the scratch row covers it, and its store into the result row covers that. -/
theorem coverLastS (c : Dev nD) (i : grid0.Coords) (arg2 : Memref sig .tc .vmem S1x2000x3 .f32) (harg2 : arg2.IsWhole) (arg3 : Memref sig .tc .vmem S3x1024 .f32) (harg3 : arg3.IsWhole) (arg4 : Memref sig .tc .vmem S1x1x1024 .f32) (harg4 : arg4.IsWhole) (arg5 : Memref sig .tc .vmem S1x1024 .f32) (harg5 : arg5.IsWhole) (hf : ¬isFirst i) (hl : isLast i) (x0 : Vec F S1x2000x3 .f32) (x1 : Vec F S3x1024 .f32) (xs : Vec F S1x1024 .f32) (y : S1x1024.Idx) :
    ∃ pc ∈ (runLast c i arg2 harg2 arg3 harg3 arg4 harg4 arg5 harg5 hf hl x0 x1 xs).2.1, y ∈ pc.1.set :=
  View.cover_of_tiledL (runLast c i arg2 harg2 arg3 harg3 arg4 harg4 arg5 harg5 hf hl x0 x1 xs).2.1 S1x1024.size (by sl_kernel_rfl) y
theorem coverLastO (c : Dev nD) (i : grid0.Coords) (arg2 : Memref sig .tc .vmem S1x2000x3 .f32) (harg2 : arg2.IsWhole) (arg3 : Memref sig .tc .vmem S3x1024 .f32) (harg3 : arg3.IsWhole) (arg4 : Memref sig .tc .vmem S1x1x1024 .f32) (harg4 : arg4.IsWhole) (arg5 : Memref sig .tc .vmem S1x1024 .f32) (harg5 : arg5.IsWhole) (hf : ¬isFirst i) (hl : isLast i) (x0 : Vec F S1x2000x3 .f32) (x1 : Vec F S3x1024 .f32) (xs : Vec F S1x1024 .f32) (y : S1x1x1024.Idx) :
    ∃ pc ∈ (runLast c i arg2 harg2 arg3 harg3 arg4 harg4 arg5 harg5 hf hl x0 x1 xs).1, y ∈ pc.1.set :=
  View.cover_of_tiledL (runLast c i arg2 harg2 arg3 harg3 arg4 harg4 arg5 harg5 hf hl x0 x1 xs).1 S1x1x1024.size (by sl_kernel_rfl) y
/-- The running minimum after a last tile, and the result row it stores, from the running minimum before it. -/
def accLast (c : Dev nD) (i : grid0.Coords) (arg2 : Memref sig .tc .vmem S1x2000x3 .f32) (harg2 : arg2.IsWhole) (arg3 : Memref sig .tc .vmem S3x1024 .f32) (harg3 : arg3.IsWhole) (arg4 : Memref sig .tc .vmem S1x1x1024 .f32) (harg4 : arg4.IsWhole) (arg5 : Memref sig .tc .vmem S1x1024 .f32) (harg5 : arg5.IsWhole) (hf : ¬isFirst i) (hl : isLast i) (x0 : Vec F S1x2000x3 .f32) (x1 : Vec F S3x1024 .f32) (xs : Vec F S1x1024 .f32) : Vec F S1x1024 .f32 :=
  vS.read (Elt F) (vS.writes (Elt F) vS.junk (runLast c i arg2 harg2 arg3 harg3 arg4 harg4 arg5 harg5 hf hl x0 x1 xs).2.1)
def outLast (c : Dev nD) (i : grid0.Coords) (arg2 : Memref sig .tc .vmem S1x2000x3 .f32) (harg2 : arg2.IsWhole) (arg3 : Memref sig .tc .vmem S3x1024 .f32) (harg3 : arg3.IsWhole) (arg4 : Memref sig .tc .vmem S1x1x1024 .f32) (harg4 : arg4.IsWhole) (arg5 : Memref sig .tc .vmem S1x1024 .f32) (harg5 : arg5.IsWhole) (hf : ¬isFirst i) (hl : isLast i) (x0 : Vec F S1x2000x3 .f32) (x1 : Vec F S3x1024 .f32) (xs : Vec F S1x1024 .f32) : Vec F S1x1x1024 .f32 :=
  vO.read (Elt F) (vO.writes (Elt F) vO.junk (runLast c i arg2 harg2 arg3 harg3 arg4 harg4 arg5 harg5 hf hl x0 x1 xs).1)

section
variable (V : (c : Dev nD) → (b : Ref sig .tc) → Buf (Elt F) ((c : Thread nD τ).loc b))

/-! ## The running minimum, position by position -/

theorem not_last_of_first (t : Fin cfg0.N) (h0 : t.val % 10 = 0) : ¬isLast (grid0.coords t) :=
  fun h => by have := (isLast_iff t).mp h; omega
theorem not_first_of (t : Fin cfg0.N) (h0 : ¬t.val % 10 = 0) : ¬isFirst (grid0.coords t) :=
  fun h => h0 ((isFirst_iff t).mp h)
theorem not_last_of (t : Fin cfg0.N) (h9 : ¬t.val % 10 = 9) : ¬isLast (grid0.coords t) :=
  fun h => h9 ((isLast_iff t).mp h)

/-- One position's effect on the scratch row, given what the position before left in it. -/
def accStep (c : Dev nD) (t : Fin cfg0.N) (prev : Vec F S1x1024 .f32) : Vec F S1x1024 .f32 :=
  if h0 : t.val % 10 = 0 then
    accFirst c (grid0.coords t) (mX t) (hX t) (mB t) (hB t) (mO t) (hO t) mS (Memref.isWhole_whole _) ((isFirst_iff t).mpr h0) (not_last_of_first t h0) (iblk0 V c 0 t) (iblk0 V c 1 t)
  else if h9 : t.val % 10 = 9 then
    accLast c (grid0.coords t) (mX t) (hX t) (mB t) (hB t) (mO t) (hO t) mS (Memref.isWhole_whole _) (not_first_of t h0) ((isLast_iff t).mpr h9) (iblk0 V c 0 t) (iblk0 V c 1 t) prev
  else
    accMid c (grid0.coords t) (mX t) (hX t) (mB t) (hB t) (mO t) (hO t) mS (Memref.isWhole_whole _) (not_first_of t h0) (not_last_of t h9) (iblk0 V c 0 t) (iblk0 V c 1 t) prev

/-- What the scratch row holds after position `n`. -/
def accAt (c : Dev nD) : (n : ℕ) → n < cfg0.N → Vec F S1x1024 .f32
  | 0, hn => accStep V c ⟨0, hn⟩ (vS.read (Elt F) vS.junk)
  | n + 1, hn => accStep V c ⟨n + 1, hn⟩ (accAt c n (Nat.lt_of_succ_lt hn))

/-- What the scratch row holds before position `t` (at the very first position, anything: it is then reset). -/
def accBefore (c : Dev nD) (t : Fin cfg0.N) : Vec F S1x1024 .f32 :=
  if h : t.val = 0 then vS.read (Elt F) vS.junk else accAt V c (t.val - 1) (by have := t.isLt; omega)

theorem accAt_eq (c : Dev nD) (t : Fin cfg0.N) : accAt V c t.val t.isLt = accStep V c t (accBefore V c t) := by
  obtain ⟨n, hn⟩ := t
  cases n with
  | zero => rfl
  | succ n => rfl

/-- What the result row's staging buffer holds after position `t`: at a last tile the square root of the running
    minimum; elsewhere the window is idle and this value is never consulted. -/
def outAt (c : Dev nD) (t : Fin cfg0.N) : Vec F S1x1x1024 .f32 :=
  if h9 : t.val % 10 = 9 then
    outLast c (grid0.coords t) (mX t) (hX t) (mB t) (hB t) (mO t) (hO t) mS (Memref.isWhole_whole _) (not_first_of t (by omega)) ((isLast_iff t).mpr h9) (iblk0 V c 0 t) (iblk0 V c 1 t) (accBefore V c t)
  else vO.read (Elt F) vO.junk

/-! ## The region's invariant -/

/-- Before position `n`: at the start the class invariant (the scratch at anything); afterwards the scratch at the
    running minimum of position `n - 1`, the second region's staging buffers and the generator register as they are. -/
def PhiS (c : Dev nD) : (n : ℕ) → n ≤ cfg0.N → sProp 𝕄
  | 0, _ => Pipeline.ΦA spec0 c
  | n + 1, hn => iprop(iprop(owns (c : Thread nD τ) mS fullShare (accAt V c n hn) ∗ otherStaging (F := F) c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) mS fullShare (accAt V c n hn) ∗ otherStaging (F := F) c) ∗ (∃ r, prngReg c r)) := rfl
theorem PhiS_pos (c : Dev nD) (n : ℕ) (h : n ≤ cfg0.N) (hz : n ≠ 0) :
    PhiS V c n h = iprop(iprop(owns (c : Thread nD τ) mS fullShare (accAt V c (n - 1) (by omega)) ∗ otherStaging (F := F) c) ∗ (∃ r, prngReg c r)) := by
  cases n with
  | zero => exact absurd rfl hz
  | succ n => rfl

/-! ## The proof data -/

/-- The region's proof data on core `c`: the arrays as the region finds them; after the body at position `t` each
    input's buffer at its block and the result row's at `outAt`; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => outAt V c t
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = outAt V c t := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

end

end Cert.KernelIdeal.Hand

end
-- ==== Proof.KernelIdeal.R0Body.lean ====
/-
  The distance kernel's region: the body obligation.  At every grid position the body, called with the region's invariant,
  the tile of the cloud, the basis and the result row's buffer, runs to the invariant of the next position: the closed
  forms of the two branch conditions say which of the three cases the position is in (a cloud's first tile, a middle tile,
  its last tile), the invariant hands the body the scratch row at the running minimum so far (at anything before the very
  first position), and takes it back at the running minimum of this position.  The result row's buffer is handed back as
  found except at a last tile, where it holds the stored square root.
-/
import proofs.«167137_j12017318494451_2_alg».proof.Proof.KernelIdeal.R0Frame

set_option maxHeartbeats 8000000
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- What the body is called with at position `t`, -/
def bodyPre0 (c : Dev nD) (t : Fin cfg0.N) : sProp 𝕄 :=
  iprop((dat0 V c).Φ t.castSucc ∗ (dat0 V c).owesAt () t.castSucc
    ∗ (∃ d, owns (c : Thread nD τ) (mX t) fullShare ((dat0 V c).before 0 t d))
    ∗ (∃ d, owns (c : Thread nD τ) (mB t) fullShare ((dat0 V c).before 1 t d))
    ∗ (∃ d, owns (c : Thread nD τ) (mO t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (mX t) fullShare ((dat0 V c).after 0 t) from by
    unfold Dat.leavesExact; rw [live_in0 t], after0_0]
  rw [show (dat0 V c).leavesExact 1 t = owns (c : Thread nD τ) (mB t) fullShare ((dat0 V c).after 1 t) from by
    unfold Dat.leavesExact; rw [live_in1 t], after0_1]
  rw [accAt_eq V c t]
  by_cases h0 : t.val % 10 = 0
  · have hl := not_last_of_first t h0
    rw [Dat.leavesExact_idle (dat0 V c) 2 t (idle_out_of_not_last t hl) (noFlush_out_of_not_last t hl)]
    rw [show accStep V c t (accBefore V c t) = accFirst c (grid0.coords t) (mX t) (hX t) (mB t) (hB t) (mO t) (hO t) mS (Memref.isWhole_whole _) ((isFirst_iff t).mpr h0) (not_last_of_first t h0) (iblk0 V c 0 t) (iblk0 V c 1 t) from dif_pos h0]
    unfold accFirst
    by_cases hz : t.val = 0
    · rw [PhiS_castSucc V c t, PhiS_zero V c _ _ hz, PhiA0_eq]
      iintro ⟨⟨⟨HS, Hother⟩, Hg⟩, Ho, ⟨%d0, H0⟩, ⟨%d1, H1⟩, ⟨%d2, H2⟩⟩
      iapply ((runFirst c (grid0.coords t) (mX t) (hX t) (mB t) (hB t) (mO t) (hO t) mS (Memref.isWhole_whole _) ((isFirst_iff t).mpr h0) (not_last_of_first t h0) (iblk0 V c 0 t) (iblk0 V c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HS Hother Hg]
      · isplitl [HS Hother]
        · isplitl [HS]
          · unfold owns; iexists _; isplitr
            swap; · iexact HS
            ipureintro; exact View.read_writes_of_cover _ _ _ _ _ (coverFirst c _ _ _ _ _ _ _ _ _ _ _ _ _)
          iexact Hother
        iexact Hg
      isplitl [Ho]; · iexact Ho
      isplitl [H0]; · iexact H0
      isplitl [H1]; · iexact H1
      iexists _; iexact H2
    · rw [PhiS_castSucc V c t, PhiS_pos V c _ _ hz]
      iintro ⟨⟨⟨HS, Hother⟩, Hg⟩, Ho, ⟨%d0, H0⟩, ⟨%d1, H1⟩, ⟨%d2, H2⟩⟩
      iapply ((runFirst c (grid0.coords t) (mX t) (hX t) (mB t) (hB t) (mO t) (hO t) mS (Memref.isWhole_whole _) ((isFirst_iff t).mpr h0) (not_last_of_first t h0) (iblk0 V c 0 t) (iblk0 V c 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hother Hg]
      · isplitl [HS Hother]
        · isplitl [HS]
          · unfold owns; iexists _; isplitr
            swap; · iexact HS
            ipureintro; exact View.read_writes_of_cover _ _ _ _ _ (coverFirst c _ _ _ _ _ _ _ _ _ _ _ _ _)
          iexact Hother
        iexact Hg
      isplitl [Ho]; · iexact Ho
      isplitl [H0]; · iexact H0
      isplitl [H1]; · iexact H1
      iexists _; iexact H2
  · have hz : t.val ≠ 0 := fun h => h0 (by rw [h])
    have hprev : accBefore V c t = accAt V c (t.val - 1) (by have := t.isLt; omega) := dif_neg hz
    by_cases h9 : t.val % 10 = 9
    · have hl := (isLast_iff t).mpr h9
      rw [show (dat0 V c).leavesExact 2 t = owns (c : Thread nD τ) (mO t) fullShare ((dat0 V c).after 2 t) from by
        unfold Dat.leavesExact; rw [live_out_of_last t hl], after0_2]
      rw [show outAt V c t = outLast c (grid0.coords t) (mX t) (hX t) (mB t) (hB t) (mO t) (hO t) mS (Memref.isWhole_whole _) (not_first_of t h0) hl (iblk0 V c 0 t) (iblk0 V c 1 t) (accBefore V c t) from dif_pos h9]
      rw [show accStep V c t (accBefore V c t) = accLast c (grid0.coords t) (mX t) (hX t) (mB t) (hB t) (mO t) (hO t) mS (Memref.isWhole_whole _) (not_first_of t h0) hl (iblk0 V c 0 t) (iblk0 V c 1 t) (accBefore V c t) from (dif_neg h0).trans (dif_pos h9)]
      rw [hprev]
      unfold accLast outLast
      rw [PhiS_castSucc V c t, PhiS_pos V c _ _ hz]
      iintro ⟨⟨⟨HS, Hother⟩, Hg⟩, Ho, ⟨%d0, H0⟩, ⟨%d1, H1⟩, ⟨%d2, H2⟩⟩
      iapply ((runLast c (grid0.coords t) (mX t) (hX t) (mB t) (hB t) (mO t) (hO t) mS (Memref.isWhole_whole _) (not_first_of t h0) hl (iblk0 V c 0 t) (iblk0 V c 1 t) _).2.2 Set.univ _)
      isplitl [H0]; · iexact H0
      isplitl [H1]; · iexact H1
      isplitl [H2]; · iexists _; iexact H2
      isplitl [HS]; · iexact HS
      iintro ⟨H0, H1, ⟨%eo, H2⟩, ⟨%es, HS⟩⟩
      isplitl [HS Hother Hg]
      · isplitl [HS Hother]
        · isplitl [HS]
          · unfold owns; iexists _; isplitr
            swap; · iexact HS
            ipureintro; exact View.read_writes_of_cover _ _ _ _ _ (coverLastS c _ _ _ _ _ _ _ _ _ _ _ _ _ _)
          iexact Hother
        iexact Hg
      isplitl [Ho]; · iexact Ho
      isplitl [H0]; · iexact H0
      isplitl [H1]; · iexact H1
      unfold owns; iexists _; isplitr
      swap; · iexact H2
      ipureintro; exact View.read_writes_of_cover _ _ _ _ _ (coverLastO c _ _ _ _ _ _ _ _ _ _ _ _ _ _)
    · have hl := not_last_of t h9
      rw [Dat.leavesExact_idle (dat0 V c) 2 t (idle_out_of_not_last t hl) (noFlush_out_of_not_last t hl)]
      rw [show accStep V c t (accBefore V c t) = accMid c (grid0.coords t) (mX t) (hX t) (mB t) (hB t) (mO t) (hO t) mS (Memref.isWhole_whole _) (not_first_of t h0) hl (iblk0 V c 0 t) (iblk0 V c 1 t) (accBefore V c t) from (dif_neg h0).trans (dif_neg h9)]
      rw [hprev]
      unfold accMid
      rw [PhiS_castSucc V c t, PhiS_pos V c _ _ hz]
      iintro ⟨⟨⟨HS, Hother⟩, Hg⟩, Ho, ⟨%d0, H0⟩, ⟨%d1, H1⟩, ⟨%d2, H2⟩⟩
      iapply ((runMid c (grid0.coords t) (mX t) (hX t) (mB t) (hB t) (mO t) (hO t) mS (Memref.isWhole_whole _) (not_first_of t h0) hl (iblk0 V c 0 t) (iblk0 V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hother Hg]
      · isplitl [HS Hother]
        · isplitl [HS]
          · unfold owns; iexists _; isplitr
            swap; · iexact HS
            ipureintro; exact View.read_writes_of_cover _ _ _ _ _ (coverMid c _ _ _ _ _ _ _ _ _ _ _ _ _ _)
          iexact Hother
        iexact Hg
      isplitl [Ho]; · iexact Ho
      isplitl [H0]; · iexact H0
      isplitl [H1]; · iexact H1
      iexists _; iexact H2

/-- The library's body obligation, at every position. -/
theorem body_obligation0 (c : Dev nD) : BodyObligation (dat0 (F := F) V c) (defs₀ (F := F)) Variants.none () Set.univ := fun t => by
  rw [bigSep_W0, bigSep_W0]
  exact sound_body0 V c t

/-- The class invariant is the region's invariant before the first position. -/
theorem phi_in0 (c : Dev nD) : Pipeline.ΦA spec0 c ⊢ (dat0 V c).Φ 0 := by
  rw [show (dat0 V c).Φ 0 = Pipeline.ΦA spec0 c from rfl]

/-- After the last position the region's invariant gives the class invariant back: the scratch at what it then holds. -/
theorem phi_out0 (c : Dev nD) : (dat0 V c).Φ (Fin.last cfg0.N) ⊢ Pipeline.ΦA spec0 c := by
  rw [show (dat0 V c).Φ (Fin.last cfg0.N) = PhiS V c cfg0.N (Nat.le_refl _) from rfl,
    PhiS_pos V c _ _ (by rw [show cfg0.N = 80 from N_0]; decide), PhiA0_eq]
  iintro ⟨⟨HS, Hother⟩, Hg⟩
  isplitl [HS Hother]
  · isplitl [HS]; · iexists _; iexact HS
    iexact Hother
  iexact Hg

end

end Cert.KernelIdeal.Hand

end
-- ==== Proof.KernelIdeal.Region1.lean ====
import proofs.«167137_j12017318494451_2_alg».proof.Proof.Gen.KernelIdeal.Launch
import proofs.«167137_j12017318494451_2_alg».proof.Proof.Gen.KernelIdeal.Skeleton
import proofs.«167137_j12017318494451_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The second kernel launch (the MLP kernel): its frame half

The kernel runs at a grid of one point.  Its body reads each of its twelve input windows whole, computes,
and writes its one output window (window 12, an 8x1 block) whole.  Everything below is stated at a
parameter `V`: the contents of the TensorCore's buffers when the region is entered. -/

-- membership in a rectangle with a 1024-long axis is decided by a structural recursion, one step per coordinate
set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the contents of the TensorCore's buffers when the region is entered
variable (V : (c : Dev nD) → (b : Ref sig .tc) → Buf (Elt F) ((c : Thread nD τ).loc b))

/-! ## The windows' blocks -/

/-- The block of window `w` at grid point `t`: the window's view of its array, read at the entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0: its staging buffer holds the window's block at every point, for any proof data whose array is
    the entry contents and whose body leaves the block where it is (the window is whole and never idle). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1: its staging buffer holds the window's block at every point, for any proof data whose array is
    the entry contents and whose body leaves the block where it is (the window is whole and never idle). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2: its staging buffer holds the window's block at every point, for any proof data whose array is
    the entry contents and whose body leaves the block where it is (the window is whole and never idle). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3: its staging buffer holds the window's block at every point, for any proof data whose array is
    the entry contents and whose body leaves the block where it is (the window is whole and never idle). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4: its staging buffer holds the window's block at every point, for any proof data whose array is
    the entry contents and whose body leaves the block where it is (the window is whole and never idle). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5: its staging buffer holds the window's block at every point, for any proof data whose array is
    the entry contents and whose body leaves the block where it is (the window is whole and never idle). -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6: its staging buffer holds the window's block at every point, for any proof data whose array is
    the entry contents and whose body leaves the block where it is (the window is whole and never idle). -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7: its staging buffer holds the window's block at every point, for any proof data whose array is
    the entry contents and whose body leaves the block where it is (the window is whole and never idle). -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8: its staging buffer holds the window's block at every point, for any proof data whose array is
    the entry contents and whose body leaves the block where it is (the window is whole and never idle). -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-- Input window 9: its staging buffer holds the window's block at every point, for any proof data whose array is
    the entry contents and whose body leaves the block where it is (the window is whole and never idle). -/
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

/-- Input window 10: its staging buffer holds the window's block at every point, for any proof data whose array is
    the entry contents and whose body leaves the block where it is (the window is whole and never idle). -/
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)

/-- Input window 11: its staging buffer holds the window's block at every point, for any proof data whose array is
    the entry contents and whose body leaves the block where it is (the window is whole and never idle). -/
theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body reads and writes: each is a whole buffer -/

abbrev whole8x1024 : Rect S8x1024 := Rect.unit (s := S8x1024) ![0, 0] S8x1024.size inb_S8x1024_S8x1024_0_0
abbrev whole1x1024 : Rect S1x1024 := Rect.unit (s := S1x1024) ![0, 0] S1x1024.size inb_S1x1024_S1x1024_0_0
abbrev whole1024x1024 : Rect S1024x1024 := Rect.unit (s := S1024x1024) ![0, 0] S1024x1024.size inb_S1024x1024_S1024x1024_0_0
abbrev whole8x1 : Rect S8x1 := Rect.unit (s := S8x1) ![0, 0] S8x1.size inb_S8x1_S8x1_0_0

/-! ## What the body leaves in the output window -/

/-- The output window's buffer after the body, as a function of the twelve input blocks `x0 … x11` (numbered by
    window): the body's single store, which writes the whole 8x1 buffer.  The stored value is the last payload
    applied to the hidden activations (a function of windows 0, 3, 1, 4, 2, 5, 6, 9), to the recast rows of
    windows 7 and 10, and to the rows of windows 8 and 11. -/
def out1_12 (x0 : Vec F S8x1024 .f32) (x1 x2 x3 x4 : Vec F S1x1024 .f32) (x5 : Vec F S1024x1024 .f32) (x6 x7 x8 x9 x10 x11 : Vec F S1x1024 .f32) : Vec F S8x1 .f32 :=
  View.canon [⟨whole8x1, k1_pay1 (k1_pay2 (View.ld x0 whole8x1024) (View.ld x3 whole1x1024) (View.ld x1 whole1x1024) (View.ld x4 whole1x1024) (View.ld x2 whole1x1024) (View.ld x5 whole1024x1024) (View.ld x6 whole1x1024) (View.ld x9 whole1x1024)) (k1_pay3 (View.ld x7 whole1x1024)) (k1_pay4 (View.ld x10 whole1x1024)) (View.ld x8 whole1x1024) (View.ld x11 whole1x1024)⟩]

/-- The single store's rectangle is the whole 8x1 buffer, so every index lies in it. -/
theorem cover1_12 (p0 : Vec F S8x1 .f32) (y : S8x1.Idx) :
    ∃ pc ∈ ([⟨whole8x1, p0⟩] : List (View.Piece (Elt F) S8x1 .f32)), y ∈ pc.1.set :=
  View.cover_of_tiled [⟨whole8x1, p0⟩] S8x1.size (by rfl) y

/-! ## The body's triple -/

set_option maxHeartbeats 4000000 in
/-- The kernel body on whole staging buffers, the twelve inputs at contents `x0 … x11` and the output at anything,
    runs to a continuation that holds the inputs unchanged and the output at `out1_12` of the inputs. -/
theorem sound_kernel1 (c : Dev nD) (E : Set ℕ) (i : grid1.Coords) (arg1 : Memref sig .tc .vmem S8x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S8x1 .f32) (harg13 : arg13.IsWhole)
    (x0 : Vec F S8x1024 .f32) (x1 x2 x3 x4 : Vec F S1x1024 .f32) (x5 : Vec F S1024x1024 .f32) (x6 x7 x8 x9 x10 x11 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (out1_12 x0 x1 x2 x3 x4 x5 x6 x7 x8 x9 x10 x11)) -∗ K ⟨⟩))
      ⊢ wp frame (wpE (defs₀ (F := F)) Variants.none c none) E (cc1__mlp_kernel i arg1 harg1 arg2 harg2 arg3 harg3 arg4 harg4 arg5 harg5 arg6 harg6 arg7 harg7 arg8 harg8 arg9 harg9 arg10 harg10 arg11 harg11 arg12 harg12 arg13 harg13) K := by
  simp only [cc1__mlp_kernel_eq_skeleton]; unfold cc1__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, Hk⟩
  subst hf0
  subst hf1
  subst hf2
  subst hf3
  subst hf4
  subst hf5
  subst hf6
  subst hf7
  subst hf8
  subst hf9
  subst hf10
  subst hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  iexists _; isplitr
  swap; · iexact H12
  ipureintro
  exact View.read_writes_eq_canon _ _ _ (cover1_12 _)

/-! ## The proof data of the pipeline -/

/-- The proof data on core `c`: each window's array at the entry contents; after the body at point `t` every input
    buffer still holds its block and the output buffer holds `out1_12` of the input blocks; the invariant is the
    untouched rest of the core's state; all shares are full and nothing is owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => out1_12 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = out1_12 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) := by dsimp only [dat1]

/-- Every input's staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d

/-! ## The body obligation -/

/-- What the body is given at point `t`: the invariant, the core's debt, and every window's staging buffer. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d)))

/-- What the body hands back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t))

set_option maxHeartbeats 4000000 in
/-- The body at any point: the inputs' buffers hold their blocks, so the body's triple applies; the invariant and the
    debt pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel1 c Set.univ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.KernelIdeal.Run.lean ====
/-
  The whole program's run.  @main is five stretches: host operations (the two transposes), the distance kernel's region,
  host operations (the reshapes of the features and of the network's parameters), the network kernel's region, host
  operations (the bias broadcast and the final add).  The contents of the TensorCore's buffers at each of the six
  boundaries are a fold from the launch memory: a host stretch applies its operations; a region leaves its windows' arrays
  at what its write-backs leave and every other buffer as it was.  Every weakly fair execution of @main terminates without
  a fault in a memory that holds, at every unscoped buffer, the last boundary's contents.
-/
import proofs.«167137_j12017318494451_2_alg».proof.Proof.KernelIdeal.R0Body
import proofs.«167137_j12017318494451_2_alg».proof.Proof.KernelIdeal.Region1

set_option maxHeartbeats 4000000
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the six boundaries -/

/-- At launch. -/
abbrev W0 : Dev nD → Valuation τ sig (Elt F) := fun c b => (s₀ m ρ).mem ((c : Dev nD), b)
/-- After the first host stretch: the distance region's entry. -/
abbrev W1 : Dev nD → Valuation τ sig (Elt F) := fun c => StableHlo.after hostOps0 (W0 m ρ c)
abbrev Ve1 : (c : Dev nD) → (b : Ref sig .tc) → Buf (Elt F) ((c : Thread nD τ).loc b) := fun c b => W1 m ρ c b
/-- At the distance region's exit: its arrays at what the pipeline leaves, every other buffer as entered. -/
def W2 (c : Dev nD) : Valuation τ sig (Elt F) :=
  Pipeline.withArrays spec0 c (W1 m ρ c) fun w => (dat0 (Ve1 m ρ) c).arrAt w cfg0.N
theorem W2_arr (c : Dev nD) (w : Fin cfg0.W) :
    W2 m ρ c (Proc.devRef .tc (Pipeline.arrRef spec0 w)) = (dat0 (Ve1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev Ve2 : (c : Dev nD) → (b : Ref sig .tc) → Buf (Elt F) ((c : Thread nD τ).loc b) := fun c b => W2 m ρ c b
theorem hF0 (c : Dev nD) (w : Fin cfg0.W) : (dat0 (Ve1 m ρ) c).arrAt w cfg0.N = Ve2 m ρ c (Pipeline.arrRef spec0 w) :=
  (W2_arr m ρ c w).symm
theorem hrest0 (c : Dev nD) : ∀ b, b ∉ Finset.univ.image (Pipeline.arrRef spec0) → Ve2 m ρ c b = Ve1 m ρ c b :=
  fun b hb => W2_of_ne m ρ c b fun w e => hb (Finset.mem_image.mpr ⟨w, Finset.mem_univ _, e⟩)
/-- After the second host stretch: the network region's entry. -/
abbrev W3 : Dev nD → Valuation τ sig (Elt F) := fun c => StableHlo.after hostOps1 (W2 m ρ c)
abbrev Ve3 : (c : Dev nD) → (b : Ref sig .tc) → Buf (Elt F) ((c : Thread nD τ).loc b) := fun c b => W3 m ρ c b
/-- At the network region's exit. -/
def W4 (c : Dev nD) : Valuation τ sig (Elt F) :=
  Pipeline.withArrays spec1 c (W3 m ρ c) fun w => (dat1 (Ve3 m ρ) c).arrAt w cfg1.N
theorem W4_arr (c : Dev nD) (w : Fin cfg1.W) :
    W4 m ρ c (Proc.devRef .tc (Pipeline.arrRef spec1 w)) = (dat1 (Ve3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev Ve4 : (c : Dev nD) → (b : Ref sig .tc) → Buf (Elt F) ((c : Thread nD τ).loc b) := fun c b => W4 m ρ c b
theorem hF1 (c : Dev nD) (w : Fin cfg1.W) : (dat1 (Ve3 m ρ) c).arrAt w cfg1.N = Ve4 m ρ c (Pipeline.arrRef spec1 w) :=
  (W4_arr m ρ c w).symm
theorem hrest1 (c : Dev nD) : ∀ b, b ∉ Finset.univ.image (Pipeline.arrRef spec1) → Ve4 m ρ c b = Ve3 m ρ c b :=
  fun b hb => W4_of_ne m ρ c b fun w e => hb (Finset.mem_image.mpr ⟨w, Finset.mem_univ _, e⟩)
/-- After the last host stretch: the end. -/
abbrev W5 : Dev nD → Valuation τ sig (Elt F) := fun c => StableHlo.after hostOps2 (W4 m ρ c)

/-! ## The proof data family and the thread state -/

abbrev admT : (p : Fin 2) → (pcfgs (F := F) p).Adm := fun p => (cfgs p).toPCfg_adm
/-- Each region's proof data at its entry contents. -/
def pdat : (p : Fin 2) → (c : Dev nD) → Dat τ (Elt F) Unit ℕ (UR sig nD τ) ℕ (Pipeline.pin (pcfgs (F := F)) admT p) c
  | ⟨0, _⟩ => fun c => dat0 (Ve1 m ρ) c
  | ⟨1, _⟩ => fun c => dat1 (Ve3 m ρ) c
abbrev 𝒱ₙ : Variants := Variants.none
abbrev Lₙ : GSem nD τ sig → Finset Unit := fun _ => ∅
abbrev lvₙ : GSem nD τ sig → Unit → ℕ := fun _ _ => 0
/-- What rides beside the buffers through every stretch: the generator register at some state and the core owing nothing. -/
abbrev Rest (c : Dev nD) : sProp 𝕄 := iprop((∃ r, prngReg c r) ∗ ∃ W, owes (c : Thread nD τ) (0 : CellTallies nD τ sig Unit) W)
/-- A host stretch as a segment from the contents `W`. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱ₙ Lₙ lvₙ :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest
theorem fresh0 : (hostOps0 : List (HloOp τ sig (Elt F))).Forall fun op => op.fresh = ∅ := by
  simp only [List.Forall]; repeat' constructor
theorem fresh1 : (hostOps1 : List (HloOp τ sig (Elt F))).Forall fun op => op.fresh = ∅ := by
  simp only [List.Forall]; repeat' constructor
theorem fresh2 : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the core's `owes`. -/
abbrev Tend (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- The distance kernel's region over the thread state: entered from every unscoped buffer at `W1`, left at `W2`.
    Its arrays are split out of the unscoped buffers and put back at their exit contents; the generator register goes into
    the region's invariant and comes out; nothing is owed; the kernel has no semaphore of its own. -/
def reg0 : Pipeline.RegionSeg (pcfgs (F := F)) admT (pdat m ρ) () defs₀ 𝒱ₙ Lₙ lvₙ 0 where
  win := launch0.win.to₀
  block_pos := launch0.block_pos
  stage_whole := launch0.stage_whole
  K := PEmpty
  osem k := k.elim
  ho := Pipeline.OwnSemFacts.none _
  hbody c := (body_obligation0 (Ve1 m ρ) c).loose
  hwaits := Pipeline.hwaits_of_owed_zero _ _ _ _ Lₙ lvₙ 0 fun _ _ => rfl
  pre c := iprop(StableHlo.held (c : Thread nD τ) (Pipeline.ucRefs τ sig) (W1 m ρ c) ∗ Rest c)
  post c := iprop(StableHlo.held (c : Thread nD τ) (Pipeline.ucRefs τ sig) (W2 m ρ c) ∗ Rest c)
  X c := iprop(∃ r, prngReg c r)
  Y c := iprop(∃ r, prngReg c r)
  Z c := Pipeline.unscopedRest (Ix := Unit) (Name := ℕ) (U := UR sig nD τ) (Lvl := ℕ) spec0 c (Ve1 m ρ c)
  hentry c := by
    rw [Pipeline.ownSems0_none]
    have hsplit := Pipeline.arrays_of_unscopedBufs (p := 0) (pcfgs (F := F)) admT (pdat m ρ) launch0.win launch0.arr_whole c
      ((pdat m ρ 0 c).share_full fun _ => rfl) (Ve1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdat m ρ 0 c).Φ (Fin.last _) = (dat0 (Ve1 m ρ) c).Φ (Fin.last cfg0.N) from rfl]
    have hback := phi_out0 (Ve1 m ρ) c
    unfold Pipeline.ΦA at hback
    iintro HPhi
    ihave H := hback $$ HPhi
    icases H with ⟨Hr, Hp⟩
    isplitl [Hp]; · iexact Hp
    isplitr; · iempintro
    iexact Hr
  hexit c := by
    have hjoin := Pipeline.unscopedBufs_of_arrays (p := 0) (pcfgs (F := F)) admT (Ix := Unit) (Name := ℕ) (U := UR sig nD τ) (Lvl := ℕ)
      launch0.win launch0.arr_whole c (pdat m ρ) ((pdat m ρ 0 c).share_full fun _ => rfl)
      (Ve1 m ρ c) (Ve2 m ρ c) ((pdat m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The network kernel's region over the thread state: entered from every unscoped buffer at `W3`, left at `W4`.
    Its arrays are split out of the unscoped buffers and put back at their exit contents; the generator register goes into
    the region's invariant and comes out; nothing is owed; the kernel has no semaphore of its own. -/
def reg1 : Pipeline.RegionSeg (pcfgs (F := F)) admT (pdat m ρ) () defs₀ 𝒱ₙ Lₙ lvₙ 1 where
  win := launch1.win.to₀
  block_pos := launch1.block_pos
  stage_whole := launch1.stage_whole
  K := PEmpty
  osem k := k.elim
  ho := Pipeline.OwnSemFacts.none _
  hbody c := (body_obligation1 (Ve3 m ρ) c).loose
  hwaits := Pipeline.hwaits_of_owed_zero _ _ _ _ Lₙ lvₙ 1 fun _ _ => rfl
  pre c := iprop(StableHlo.held (c : Thread nD τ) (Pipeline.ucRefs τ sig) (W3 m ρ c) ∗ Rest c)
  post c := iprop(StableHlo.held (c : Thread nD τ) (Pipeline.ucRefs τ sig) (W4 m ρ c) ∗ Rest c)
  X c := iprop(∃ r, prngReg c r)
  Y c := iprop(∃ r, prngReg c r)
  Z c := Pipeline.unscopedRest (Ix := Unit) (Name := ℕ) (U := UR sig nD τ) (Lvl := ℕ) spec1 c (Ve3 m ρ c)
  hentry c := by
    rw [Pipeline.ownSems0_none]
    have hsplit := Pipeline.arrays_of_unscopedBufs (p := 1) (pcfgs (F := F)) admT (pdat m ρ) launch1.win launch1.arr_whole c
      ((pdat m ρ 1 c).share_full fun _ => rfl) (Ve3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdat m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admT (Ix := Unit) (Name := ℕ) (U := UR sig nD τ) (Lvl := ℕ)
      launch1.win launch1.arr_whole c (pdat m ρ) ((pdat m ρ 1 c).share_full fun _ => rfl)
      (Ve3 m ρ c) (Ve4 m ρ c) ((pdat m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segments : List (Pipeline.Seg (pcfgs (F := F)) admT (pdat m ρ) () defs₀ 𝒱ₙ Lₙ lvₙ) :=
  [ .host (hostSeg hostOps0 hostOps0_sub fresh0 (W0 m ρ)),
    .region (reg0 m ρ),
    .host (hostSeg hostOps1 hostOps1_sub fresh1 (W2 m ρ)),
    .region (reg1 m ρ),
    .host (hostSeg hostOps2 hostOps2_sub fresh2 (W4 m ρ)) ]
theorem main_is_segments (c : Dev nD) : main (F := F) c = Pipeline.Seg.run (segments m ρ) := (main_chain c).trans (by chain_rfl)

set_option backward.isDefEq.respectTransparency.types false in
/-- Every weakly fair execution of @main from memory `m` with zero counters terminates, nothing faulting, in a memory that
    holds the last boundary's contents at every unscoped buffer of every core. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) admT (pdat m ρ) () cellOf_inj emb₁ defs₀ 𝒱ₙ Lₙ lvₙ m ρ main (segments m ρ)
    (fun c Q => by rw [main_is_segments m ρ c])
    (by simp only [segments, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rest c)) (Tₙ := Tend m ρ)
    (hch := ⟨fun _ => .rfl, fun _ => .rfl, fun _ => .rfl, fun _ => .rfl, fun _ => .rfl, fun c => by
      change iprop(StableHlo.held (c : Thread nD τ) (Pipeline.ucRefs τ sig) (W5 m ρ c) ∗ Rest c)
        ⊢ iprop(Tend m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach Lₙ lvₙ fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

end Cert.KernelIdeal.Hand

end
-- ==== Proof.KernelIdeal.Final0.lean ====
/-
  The distance kernel's region: the array it leaves.  The result array [8, 1, 1024] is written back once per cloud, at the
  cloud's last tile; the block written at grid position 10 b + 9 is row b.  So the array ends holding, in row b, the result
  row stored at cloud b's last tile.  Also here: which entries of the cloud array and of the basis array a grid position's
  blocks are.
-/
import proofs.«167137_j12017318494451_2_alg».proof.Proof.KernelIdeal.R0Body
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The printed index maps over the grid -/

theorem idx_out : ∀ t : Fin cfg0.N, win0_2.index t (0 : Fin 3) = t.val / 10 ∧ win0_2.index t (1 : Fin 3) = 0 ∧ win0_2.index t (2 : Fin 3) = 0 :=
  (by decide +kernel : ∀ t : Fin grid0.N, _)
theorem idx_cloud : ∀ t : Fin cfg0.N, win0_0.index t (0 : Fin 3) = t.val / 10 ∧ win0_0.index t (1 : Fin 3) = t.val % 10 ∧ win0_0.index t (2 : Fin 3) = 0 :=
  (by decide +kernel : ∀ t : Fin grid0.N, _)
theorem idx_basis : ∀ t : Fin cfg0.N, win0_1.index t (0 : Fin 2) = 0 ∧ win0_1.index t (1 : Fin 2) = 0 :=
  (by decide +kernel : ∀ t : Fin grid0.N, _)

/-- The grid position of cloud `b`'s last tile. -/
def lastPos (b : ℕ) (hb : b < 8) : Fin cfg0.N := ⟨10 * b + 9, by rw [show cfg0.N = 80 from N_0]; omega⟩
/-- An entry of the result array, as an entry of its row. -/
abbrev rowIdx (i : S8x1x1024.Idx) : S1x1x1024.Idx := fun a => match a with
  | ⟨0, _⟩ => (0 : Fin 1)
  | ⟨1, _⟩ => ⟨(i 1).val, (i 1).isLt⟩
  | ⟨2, _⟩ => ⟨(i 2).val, (i 2).isLt⟩

section
variable (V : (c : Dev nD) → (b : Ref sig .tc) → Buf (Elt F) ((c : Thread nD τ).loc b))

/-- What the region leaves in the result array: row `b` is the row stored at cloud `b`'s last tile. -/
def featArr (c : Dev nD) : Buf (Elt F) ((c : Thread nD τ).loc main_v2) :=
  fun i => outAt V c (lastPos (i 0).val (i 0).isLt) (rowIdx i)

/-- What a last tile's position writes back is its row of `featArr`. -/
theorem flushedOut_eq (c : Dev nD) (t : Fin cfg0.N) (hf : (cfg0.win 2).flush t = true) :
    (dat0 V c).flushed 2 t = ((cfg0.win 2).blk t).view.read (Elt F) (featArr V c) := by
  have h9 : t.val % 10 = 9 := (flush0_2 t).mp hf
  show (cfg0.win 2).cut (grid0.coords t) ((dat0 V c).after 2 t) = _
  rw [after0_2]
  obtain ⟨e0, e1, e2⟩ := idx_out t
  funext j
  show outAt V c t j = featArr V c (((cfg0.win 2).blk t).view.emb j)
  unfold featArr
  have hj0 : (j 0).val < 1 := (j 0).isLt
  have ht : lastPos ((((cfg0.win 2).blk t).view.emb j) 0).val ((((cfg0.win 2).blk t).view.emb j) 0).isLt = t := by
    apply Fin.ext
    show 10 * (win0_2.index t (0 : Fin 3) * 1 + 1 * (j 0).val) + 9 = t.val
    omega
  have hr : rowIdx (((cfg0.win 2).blk t).view.emb j) = j := by
    funext a; apply Fin.ext
    match a with
    | ⟨0, _⟩ => show 0 = (j 0).val; omega
    | ⟨1, _⟩ => show win0_2.index t (1 : Fin 3) * 1 + 1 * (j 1).val = (j 1).val; omega
    | ⟨2, _⟩ => show win0_2.index t (2 : Fin 3) * 1024 + 1 * (j 2).val = (j 2).val; omega
  rw [ht, hr]

/-- Every entry of the result array is in the block some last tile writes back. -/
theorem coverOut (i : S8x1x1024.Idx) :
    ∃ t : Fin cfg0.N, (cfg0.win 2).flush t = true ∧ i ∈ ((cfg0.win 2).blk t).view.set := by
  have h0 : (i 0).val < 8 := (i 0).isLt
  have h1 : (i 1).val < 1 := (i 1).isLt
  have h2 : (i 2).val < 1024 := (i 2).isLt
  refine ⟨lastPos (i 0).val h0, (flush0_2 _).mpr (by show (10 * (i 0).val + 9) % 10 = 9; omega), ?_⟩
  obtain ⟨e0, e1, e2⟩ := idx_out (lastPos (i 0).val h0)
  have e0' : win0_2.index (lastPos (i 0).val h0) (0 : Fin 3) = (i 0).val := by rw [e0]; show (10 * (i 0).val + 9) / 10 = (i 0).val; omega
  show i ∈ ((View.whole main_v2).slice (win0_2.rect (lastPos (i 0).val h0))).set
  rw [View.set_slice_whole, Rect.mem_set_unit]
  intro a
  match a with
  | ⟨0, _⟩ => show win0_2.index (lastPos (i 0).val h0) (0 : Fin 3) * 1 ≤ (i 0).val ∧ (i 0).val < win0_2.index (lastPos (i 0).val h0) (0 : Fin 3) * 1 + 1; omega
  | ⟨1, _⟩ => show win0_2.index (lastPos (i 0).val h0) (1 : Fin 3) * 1 ≤ (i 1).val ∧ (i 1).val < win0_2.index (lastPos (i 0).val h0) (1 : Fin 3) * 1 + 1; omega
  | ⟨2, _⟩ => show win0_2.index (lastPos (i 0).val h0) (2 : Fin 3) * 1024 ≤ (i 2).val ∧ (i 2).val < win0_2.index (lastPos (i 0).val h0) (2 : Fin 3) * 1024 + 1024; omega

/-- The result array after the region. -/
theorem final0 (c : Dev nD) : (dat0 V c).arrAt 2 cfg0.N = featArr V c :=
  (dat0 V c).arrAt_eq_of_cover 2 (featArr V c) (flushedOut_eq V c) (coverOut)

/-! ## The input blocks as entries of their arrays -/

/-- The cloud window's block at position `t`: tile `t mod 10` of cloud `t / 10`. -/
theorem cloudBlk_apply (c : Dev nD) (t : Fin cfg0.N) (y : S1x2000x3.Idx) (i : S8x20000x3.Idx)
    (h0 : (i 0).val = t.val / 10) (h1 : (i 1).val = 2000 * (t.val % 10) + (y 1).val) (h2 : (i 2).val = (y 2).val) :
    iblk0 V c 0 t y = V c main_v0 i := by
  obtain ⟨e0, e1, e2⟩ := idx_cloud t
  have hy0 : (y 0).val < 1 := (y 0).isLt
  unfold iblk0
  rw [View.read_apply]
  show V c main_v0 _ = V c main_v0 i
  congr 1
  funext a; apply Fin.ext
  match a with
  | ⟨0, _⟩ => show win0_0.index t (0 : Fin 3) * 1 + 1 * (y 0).val = (i 0).val; omega
  | ⟨1, _⟩ => show win0_0.index t (1 : Fin 3) * 2000 + 1 * (y 1).val = (i 1).val; omega
  | ⟨2, _⟩ => show win0_0.index t (2 : Fin 3) * 3 + 1 * (y 2).val = (i 2).val; omega

/-- The basis window's block at any position is the whole transposed basis. -/
theorem basisBlk_apply (c : Dev nD) (t : Fin cfg0.N) (y : S3x1024.Idx) : iblk0 V c 1 t y = V c main_v1 y := by
  obtain ⟨e0, e1⟩ := idx_basis t
  unfold iblk0
  rw [View.read_apply]
  show V c main_v1 _ = V c main_v1 y
  congr 1
  funext a; apply Fin.ext
  match a with
  | ⟨0, _⟩ => show win0_1.index t (0 : Fin 2) * 3 + 1 * (y 0).val = (y 0).val; omega
  | ⟨1, _⟩ => show win0_1.index t (1 : Fin 2) * 1024 + 1 * (y 1).val = (y 1).val; omega

end

end Cert.KernelIdeal.Hand

end
-- ==== Proof.KernelIdeal.Final1.lean ====
/-
  The network kernel's region: the array it leaves.  Its grid is a single point and every window's block is the whole
  array, so the result array [8, 1] ends holding what the body stores, computed from the twelve operand arrays as the region
  finds them.
-/
import proofs.«167137_j12017318494451_2_alg».proof.Proof.KernelIdeal.Region1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window 0's block is its whole array. -/
theorem blk1_0 (c : Dev nD) (t : Fin cfg1.N) : @Eq (Vec F S8x1024 .f32) (iblk1 V c 0 t) (V c main_v3) := by
  obtain rfl := fin_N1 t
  unfold iblk1
  have hz' : (fun a => win1_0.index t1_0 a * main_v3.ty.shape.size a) = fun _ => 0 := funext fun a => by fin_cases a <;> decide
  exact Memref.read_access_unit_zero (Elt F) main_v3 hz' (fun a => by rw [congrFun hz' a]; simp) (V c main_v3)
/-- Window 1's block is its whole array. -/
theorem blk1_1 (c : Dev nD) (t : Fin cfg1.N) : @Eq (Vec F S1x1024 .f32) (iblk1 V c 1 t) (V c main_v4) := by
  obtain rfl := fin_N1 t
  unfold iblk1
  have hz' : (fun a => win1_1.index t1_0 a * main_v4.ty.shape.size a) = fun _ => 0 := funext fun a => by fin_cases a <;> decide
  exact Memref.read_access_unit_zero (Elt F) main_v4 hz' (fun a => by rw [congrFun hz' a]; simp) (V c main_v4)
/-- Window 2's block is its whole array. -/
theorem blk1_2 (c : Dev nD) (t : Fin cfg1.N) : @Eq (Vec F S1x1024 .f32) (iblk1 V c 2 t) (V c main_v5) := by
  obtain rfl := fin_N1 t
  unfold iblk1
  have hz' : (fun a => win1_2.index t1_0 a * main_v5.ty.shape.size a) = fun _ => 0 := funext fun a => by fin_cases a <;> decide
  exact Memref.read_access_unit_zero (Elt F) main_v5 hz' (fun a => by rw [congrFun hz' a]; simp) (V c main_v5)
/-- Window 3's block is its whole array. -/
theorem blk1_3 (c : Dev nD) (t : Fin cfg1.N) : @Eq (Vec F S1x1024 .f32) (iblk1 V c 3 t) (V c main_v6) := by
  obtain rfl := fin_N1 t
  unfold iblk1
  have hz' : (fun a => win1_3.index t1_0 a * main_v6.ty.shape.size a) = fun _ => 0 := funext fun a => by fin_cases a <;> decide
  exact Memref.read_access_unit_zero (Elt F) main_v6 hz' (fun a => by rw [congrFun hz' a]; simp) (V c main_v6)
/-- Window 4's block is its whole array. -/
theorem blk1_4 (c : Dev nD) (t : Fin cfg1.N) : @Eq (Vec F S1x1024 .f32) (iblk1 V c 4 t) (V c main_v7) := by
  obtain rfl := fin_N1 t
  unfold iblk1
  have hz' : (fun a => win1_4.index t1_0 a * main_v7.ty.shape.size a) = fun _ => 0 := funext fun a => by fin_cases a <;> decide
  exact Memref.read_access_unit_zero (Elt F) main_v7 hz' (fun a => by rw [congrFun hz' a]; simp) (V c main_v7)
/-- Window 5's block is its whole array. -/
theorem blk1_5 (c : Dev nD) (t : Fin cfg1.N) : @Eq (Vec F S1024x1024 .f32) (iblk1 V c 5 t) (V c main_arg6) := by
  obtain rfl := fin_N1 t
  unfold iblk1
  have hz' : (fun a => win1_5.index t1_0 a * main_arg6.ty.shape.size a) = fun _ => 0 := funext fun a => by fin_cases a <;> decide
  exact Memref.read_access_unit_zero (Elt F) main_arg6 hz' (fun a => by rw [congrFun hz' a]; simp) (V c main_arg6)
/-- Window 6's block is its whole array. -/
theorem blk1_6 (c : Dev nD) (t : Fin cfg1.N) : @Eq (Vec F S1x1024 .f32) (iblk1 V c 6 t) (V c main_v8) := by
  obtain rfl := fin_N1 t
  unfold iblk1
  have hz' : (fun a => win1_6.index t1_0 a * main_v8.ty.shape.size a) = fun _ => 0 := funext fun a => by fin_cases a <;> decide
  exact Memref.read_access_unit_zero (Elt F) main_v8 hz' (fun a => by rw [congrFun hz' a]; simp) (V c main_v8)
/-- Window 7's block is its whole array. -/
theorem blk1_7 (c : Dev nD) (t : Fin cfg1.N) : @Eq (Vec F S1x1024 .f32) (iblk1 V c 7 t) (V c main_v9) := by
  obtain rfl := fin_N1 t
  unfold iblk1
  have hz' : (fun a => win1_7.index t1_0 a * main_v9.ty.shape.size a) = fun _ => 0 := funext fun a => by fin_cases a <;> decide
  exact Memref.read_access_unit_zero (Elt F) main_v9 hz' (fun a => by rw [congrFun hz' a]; simp) (V c main_v9)
/-- Window 8's block is its whole array. -/
theorem blk1_8 (c : Dev nD) (t : Fin cfg1.N) : @Eq (Vec F S1x1024 .f32) (iblk1 V c 8 t) (V c main_v10) := by
  obtain rfl := fin_N1 t
  unfold iblk1
  have hz' : (fun a => win1_8.index t1_0 a * main_v10.ty.shape.size a) = fun _ => 0 := funext fun a => by fin_cases a <;> decide
  exact Memref.read_access_unit_zero (Elt F) main_v10 hz' (fun a => by rw [congrFun hz' a]; simp) (V c main_v10)
/-- Window 9's block is its whole array. -/
theorem blk1_9 (c : Dev nD) (t : Fin cfg1.N) : @Eq (Vec F S1x1024 .f32) (iblk1 V c 9 t) (V c main_v11) := by
  obtain rfl := fin_N1 t
  unfold iblk1
  have hz' : (fun a => win1_9.index t1_0 a * main_v11.ty.shape.size a) = fun _ => 0 := funext fun a => by fin_cases a <;> decide
  exact Memref.read_access_unit_zero (Elt F) main_v11 hz' (fun a => by rw [congrFun hz' a]; simp) (V c main_v11)
/-- Window 10's block is its whole array. -/
theorem blk1_10 (c : Dev nD) (t : Fin cfg1.N) : @Eq (Vec F S1x1024 .f32) (iblk1 V c 10 t) (V c main_v12) := by
  obtain rfl := fin_N1 t
  unfold iblk1
  have hz' : (fun a => win1_10.index t1_0 a * main_v12.ty.shape.size a) = fun _ => 0 := funext fun a => by fin_cases a <;> decide
  exact Memref.read_access_unit_zero (Elt F) main_v12 hz' (fun a => by rw [congrFun hz' a]; simp) (V c main_v12)
/-- Window 11's block is its whole array. -/
theorem blk1_11 (c : Dev nD) (t : Fin cfg1.N) : @Eq (Vec F S1x1024 .f32) (iblk1 V c 11 t) (V c main_arg12) := by
  obtain rfl := fin_N1 t
  unfold iblk1
  have hz' : (fun a => win1_11.index t1_0 a * main_arg12.ty.shape.size a) = fun _ => 0 := funext fun a => by fin_cases a <;> decide
  exact Memref.read_access_unit_zero (Elt F) main_arg12 hz' (fun a => by rw [congrFun hz' a]; simp) (V c main_arg12)

/-- What the region leaves in its result array: the body's stored value of the twelve operand arrays. -/
def mlpArr (c : Dev nD) : Buf (Elt F) ((c : Thread nD τ).loc main_v13) :=
  out1_12 (V c main_v3) (V c main_v4) (V c main_v5) (V c main_v6) (V c main_v7) (V c main_arg6) (V c main_v8) (V c main_v9) (V c main_v10) (V c main_v11) (V c main_v12) (V c main_arg12)

/-- The one write-back writes it. -/
theorem flushed1_eq (c : Dev nD) (t : Fin cfg1.N) (hf : (cfg1.win 12).flush t = true) :
    (dat1 V c).flushed 12 t = ((cfg1.win 12).blk t).view.read (Elt F) (mlpArr V c) := by
  show (cfg1.win 12).cut (grid1.coords t) ((dat1 V c).after 12 t) = _
  rw [after1_12, blk1_0, blk1_1, blk1_2, blk1_3, blk1_4, blk1_5, blk1_6, blk1_7, blk1_8, blk1_9, blk1_10, blk1_11]
  obtain rfl := fin_N1 t
  have hz' : (fun a => win1_12.index t1_0 a * main_v13.ty.shape.size a) = fun _ => 0 := funext fun a => by fin_cases a <;> decide
  exact (Memref.read_access_unit_zero (Elt F) main_v13 hz' (fun a => by rw [congrFun hz' a]; simp) (mlpArr V c)).symm

/-- The result array after the region. -/
theorem final1 (c : Dev nD) : (dat1 V c).arrAt 12 cfg1.N = mlpArr V c :=
  (dat1 V c).arrAt_eq_of_cover 12 (mlpArr V c) (flushed1_eq V c) fun i =>
    ⟨t1_0, flush1_12 t1_0, by
      show i ∈ ((View.whole main_v13).slice (win1_12.rect t1_0)).set
      rw [View.set_slice_whole, Rect.mem_set_unit]
      intro a
      have h0 : (i 0 : Nat) < 8 := (i 0).isLt
      have h1 : (i 1 : Nat) < 1 := (i 1).isLt
      match a with
      | ⟨0, _⟩ => show win1_12.index t1_0 0 * 8 ≤ (i 0 : Nat) ∧ (i 0 : Nat) < win1_12.index t1_0 0 * 8 + 8
                  rw [show win1_12.index t1_0 0 = 0 from by decide +kernel]; omega
      | ⟨1, _⟩ => show win1_12.index t1_0 1 * 1 ≤ (i 1 : Nat) ∧ (i 1 : Nat) < win1_12.index t1_0 1 * 1 + 1
                  rw [show win1_12.index t1_0 1 = 0 from by decide +kernel]; omega⟩

end

end Cert.KernelIdeal.Hand

end
-- ==== Proof.KernelIdeal.R0Pieces.lean ====
/-
  The values the distance kernel's three control cases leave, read off the store lists their runs found.

  Each case's run of the body ends with a list of stores into the scratch row (and, at a cloud's last tile, into the
  result row).  Every one of those stores writes its whole buffer, and every load of the body reads a whole buffer, so
  the contents a list leaves is the payload of its newest store, and that payload's loads read either a buffer's entry
  contents or the payload of the store that preceded them.  Unwinding this gives each case's value in closed form over
  the body's payload functions:

    first tile   the running minimum is reset to +inf, read back, folded with this tile's minima, and stored
    middle tile  the running minimum so far is folded with this tile's minima and stored
    last tile    as a middle tile; the scratch row is then read back and the square root of it stored as the result row
-/
import proofs.«167137_j12017318494451_2_alg».proof.Proof.KernelIdeal.R0Frame
import Idealize.ShloMosaic.Lib.Pipeline.Value

set_option maxHeartbeats 4000000
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The offsets of a rectangle that starts at the origin of a rank-2 buffer. -/
theorem offsZero2 : (![0, 0] : Fin 2 → Nat) = fun _ => 0 := funext fun a => by fin_cases a <;> rfl
/-- The offsets of a rectangle that starts at the origin of a rank-3 buffer. -/
theorem offsZero3 : (![0, 0, 0] : Fin 3 → Nat) = fun _ => 0 := funext fun a => by fin_cases a <;> rfl

/-- A cloud's FIRST tile leaves in the scratch row the fold of the tile's minima into +inf: the row is first stored
    +inf everywhere, that store is read back whole, folded, and the fold stored over it. -/
theorem accFirst_eq (c : Dev nD) (i : grid0.Coords) (arg2 : Memref sig .tc .vmem S1x2000x3 .f32) (harg2 : arg2.IsWhole) (arg3 : Memref sig .tc .vmem S3x1024 .f32) (harg3 : arg3.IsWhole) (arg4 : Memref sig .tc .vmem S1x1x1024 .f32) (harg4 : arg4.IsWhole) (arg5 : Memref sig .tc .vmem S1x1024 .f32) (harg5 : arg5.IsWhole) (hf : isFirst i) (hl : ¬isLast i) (x0 : Vec F S1x2000x3 .f32) (x1 : Vec F S3x1024 .f32) :
    accFirst c i arg2 harg2 arg3 harg3 arg4 harg4 arg5 harg5 hf hl x0 x1 = k0_pay1 (k0_pay4 x0 x1 (k0_pay3 (F := F))) := by
  unfold accFirst
  rw [View.read_writes_eq_canon _ _ _ (coverFirst c i arg2 harg2 arg3 harg3 arg4 harg4 arg5 harg5 hf hl x0 x1)]
  unfold runFirst
  dsimp only
  sl_unfold_words
  rw [View.canon_cons_unit_zero (S := S1x1024) offsZero2, View.readCov_unit_zero (S := S1x1024) _ offsZero2]
  simp only [View.readAt_eq_ld, harg2.read_unread, harg3.read_unread, harg5.read_unread,
    View.ld_unit_zero (S := S1x2000x3) offsZero3, View.ld_unit_zero (S := S3x1024) offsZero2, View.ld_unit_zero (S := S1x1024) offsZero2]

/-- A MIDDLE tile leaves in the scratch row the fold of the tile's minima into the running minimum `xs` it found
    there: its one store writes the whole row, and its three loads read the whole tile, basis and row. -/
theorem accMid_eq (c : Dev nD) (i : grid0.Coords) (arg2 : Memref sig .tc .vmem S1x2000x3 .f32) (harg2 : arg2.IsWhole) (arg3 : Memref sig .tc .vmem S3x1024 .f32) (harg3 : arg3.IsWhole) (arg4 : Memref sig .tc .vmem S1x1x1024 .f32) (harg4 : arg4.IsWhole) (arg5 : Memref sig .tc .vmem S1x1024 .f32) (harg5 : arg5.IsWhole) (hf : ¬isFirst i) (hl : ¬isLast i) (x0 : Vec F S1x2000x3 .f32) (x1 : Vec F S3x1024 .f32) (xs : Vec F S1x1024 .f32) :
    accMid c i arg2 harg2 arg3 harg3 arg4 harg4 arg5 harg5 hf hl x0 x1 xs = k0_pay1 (k0_pay4 x0 x1 xs) := by
  unfold accMid
  rw [View.read_writes_eq_canon _ _ _ (coverMid c i arg2 harg2 arg3 harg3 arg4 harg4 arg5 harg5 hf hl x0 x1 xs)]
  unfold runMid
  dsimp only
  sl_unfold_words
  rw [View.canon_unit_zero (S := S1x1024) offsZero2]
  simp only [View.readAt_eq_ld, harg2.read_unread, harg3.read_unread, harg5.read_unread,
    View.ld_unit_zero (S := S1x2000x3) offsZero3, View.ld_unit_zero (S := S3x1024) offsZero2, View.ld_unit_zero (S := S1x1024) offsZero2]

/-- A cloud's LAST tile leaves in the scratch row what a middle tile does. -/
theorem accLast_eq (c : Dev nD) (i : grid0.Coords) (arg2 : Memref sig .tc .vmem S1x2000x3 .f32) (harg2 : arg2.IsWhole) (arg3 : Memref sig .tc .vmem S3x1024 .f32) (harg3 : arg3.IsWhole) (arg4 : Memref sig .tc .vmem S1x1x1024 .f32) (harg4 : arg4.IsWhole) (arg5 : Memref sig .tc .vmem S1x1024 .f32) (harg5 : arg5.IsWhole) (hf : ¬isFirst i) (hl : isLast i) (x0 : Vec F S1x2000x3 .f32) (x1 : Vec F S3x1024 .f32) (xs : Vec F S1x1024 .f32) :
    accLast c i arg2 harg2 arg3 harg3 arg4 harg4 arg5 harg5 hf hl x0 x1 xs = k0_pay1 (k0_pay4 x0 x1 xs) := by
  unfold accLast
  rw [View.read_writes_eq_canon _ _ _ (coverLastS c i arg2 harg2 arg3 harg3 arg4 harg4 arg5 harg5 hf hl x0 x1 xs)]
  unfold runLast
  dsimp only
  sl_unfold_words
  rw [View.canon_unit_zero (S := S1x1024) offsZero2]
  simp only [View.readAt_eq_ld, harg2.read_unread, harg3.read_unread, harg5.read_unread,
    View.ld_unit_zero (S := S1x2000x3) offsZero3, View.ld_unit_zero (S := S3x1024) offsZero2, View.ld_unit_zero (S := S1x1024) offsZero2]

/-- A cloud's LAST tile leaves in the result row the square root of the scratch row AS THIS TILE LEFT IT: the row is
    read back after the tile's own store into it, so the root is of this tile's fold, not of the minimum before it. -/
theorem outLast_eq (c : Dev nD) (i : grid0.Coords) (arg2 : Memref sig .tc .vmem S1x2000x3 .f32) (harg2 : arg2.IsWhole) (arg3 : Memref sig .tc .vmem S3x1024 .f32) (harg3 : arg3.IsWhole) (arg4 : Memref sig .tc .vmem S1x1x1024 .f32) (harg4 : arg4.IsWhole) (arg5 : Memref sig .tc .vmem S1x1024 .f32) (harg5 : arg5.IsWhole) (hf : ¬isFirst i) (hl : isLast i) (x0 : Vec F S1x2000x3 .f32) (x1 : Vec F S3x1024 .f32) (xs : Vec F S1x1024 .f32) :
    outLast c i arg2 harg2 arg3 harg3 arg4 harg4 arg5 harg5 hf hl x0 x1 xs = k0_pay2 (k0_pay1 (k0_pay4 x0 x1 xs)) := by
  unfold outLast
  rw [View.read_writes_eq_canon _ _ _ (coverLastO c i arg2 harg2 arg3 harg3 arg4 harg4 arg5 harg5 hf hl x0 x1 xs)]
  unfold runLast
  dsimp only
  sl_unfold_words
  rw [View.canon_unit_zero (S := S1x1x1024) offsZero3, View.readCov_unit_zero (S := S1x1024) _ offsZero2]
  simp only [View.readAt_eq_ld, harg2.read_unread, harg3.read_unread, harg5.read_unread,
    View.ld_unit_zero (S := S1x2000x3) offsZero3, View.ld_unit_zero (S := S3x1024) offsZero2, View.ld_unit_zero (S := S1x1024) offsZero2]

/-- So the result row is the square root of the scratch row the same tile leaves. -/
theorem outLast_eq_of_accLast (c : Dev nD) (i : grid0.Coords) (arg2 : Memref sig .tc .vmem S1x2000x3 .f32) (harg2 : arg2.IsWhole) (arg3 : Memref sig .tc .vmem S3x1024 .f32) (harg3 : arg3.IsWhole) (arg4 : Memref sig .tc .vmem S1x1x1024 .f32) (harg4 : arg4.IsWhole) (arg5 : Memref sig .tc .vmem S1x1024 .f32) (harg5 : arg5.IsWhole) (hf : ¬isFirst i) (hl : isLast i) (x0 : Vec F S1x2000x3 .f32) (x1 : Vec F S3x1024 .f32) (xs : Vec F S1x1024 .f32) :
    outLast c i arg2 harg2 arg3 harg3 arg4 harg4 arg5 harg5 hf hl x0 x1 xs = k0_pay2 (accLast c i arg2 harg2 arg3 harg3 arg4 harg4 arg5 harg5 hf hl x0 x1 xs) := by
  rw [outLast_eq, accLast_eq]

end Cert.KernelIdeal.Hand

end
-- ==== Proof.Spec.lean ====
/-
  The function both programs compute, on the extended reals, index by index.

  A point cloud x[b, d, n] (8 clouds, 3 coordinates, 20000 points) is encoded against 1024 basis points
  basis[m, d] as the distance from each basis point to its nearest point of the cloud:
      feat[b, m] = sqrt (inf over n of max (|x[b,:,n]|^2 + |basis[m,:]|^2 - 2 <x[b,:,n], basis[m,:]>, 0)).
  The 1024 features go through an evaluation-mode batch normalisation, a dense layer with a rectifier, a second
  normalisation and a final dense layer to one number per cloud.  A normalisation with running mean rm, running
  variance rv, gain g and shift s sends f to (f - rm) * (g * (rv + eps)^(-1/2)) + s.

  The infimum over the points is the lattice infimum of the extended reals; the squared norms and the inner product
  are sums over the three coordinates.  Nothing here mentions a program.
-/
import Idealize.ShloMosaic.PureOps.Ideal
import Idealize.ShloMosaic.Lib.ValueIdx

noncomputable section

namespace Cert.Spec

open Idealize.ShloMosaic Idealize.ShloMosaic.ValueIdx

/-- The arrays' types: an array is a function of its index into the extended reals. -/
abbrev Cloud := (⟨3, ![8, 3, 20000]⟩ : Shape).Idx → EReal
abbrev Basis := (⟨2, ![1024, 3]⟩ : Shape).Idx → EReal
abbrev Vec1024 := (⟨1, ![1024]⟩ : Shape).Idx → EReal
abbrev Mat := (⟨2, ![1024, 1024]⟩ : Shape).Idx → EReal
abbrev Row := (⟨2, ![1, 1024]⟩ : Shape).Idx → EReal
abbrev One := (⟨1, ![1]⟩ : Shape).Idx → EReal

/-- The normalisation's epsilon: the single-precision number nearest 1e-5, as its exact value. -/
def eps : EReal := Ideal.ofBits .f32 0x3727C5AC#32
/-- The number two. -/
def two : EReal := Ideal.ofBits .f32 0x40000000#32

/-- The squared norm of point n of cloud b. -/
def ptSq (x : Cloud) (b : Fin 8) (n : Fin 20000) : EReal := ∑ d : Fin 3, x (ix3 b d n) * x (ix3 b d n)
/-- The squared norm of basis point m. -/
def basisSq (bs : Basis) (m : Fin 1024) : EReal := ∑ d : Fin 3, bs (ix2 m d) * bs (ix2 m d)
/-- The inner product of point n of cloud b with basis point m. -/
def inner (x : Cloud) (bs : Basis) (b : Fin 8) (n : Fin 20000) (m : Fin 1024) : EReal :=
  ∑ d : Fin 3, x (ix3 b d n) * bs (ix2 m d)
/-- The squared distance from point n of cloud b to basis point m, by the polarisation identity, clamped at zero. -/
def dist2 (x : Cloud) (bs : Basis) (b : Fin 8) (n : Fin 20000) (m : Fin 1024) : EReal :=
  max ((ptSq x b n + basisSq bs m) - two * inner x bs b n m) 0
/-- The distance from basis point m to the nearest point of cloud b. -/
def feat (x : Cloud) (bs : Basis) (b : Fin 8) (m : Fin 1024) : EReal :=
  Ideal.sqrt (⨅ n : Fin 20000, dist2 x bs b n m)

/-- A normalisation's multiplier at feature m: the gain over the square root of the variance plus epsilon. -/
def scale (g rv : Vec1024) (m : Fin 1024) : EReal := g (ix1 m) * Ideal.rsqrt (rv (ix1 m) + eps)
/-- A normalisation applied to the value f of feature m. -/
def norm (g s rm rv : Vec1024) (m : Fin 1024) (f : EReal) : EReal := (f - rm (ix1 m)) * scale g rv m + s (ix1 m)

/-- The first dense layer with its rectifier: unit j of cloud b. -/
def hidden (x : Cloud) (bs : Basis) (g1 s1 rm1 rv1 : Vec1024) (w1 : Mat) (b1 : Vec1024) (b : Fin 8) (j : Fin 1024) : EReal :=
  max ((∑ k : Fin 1024, norm g1 s1 rm1 rv1 k (feat x bs b k) * w1 (ix2 j k)) + b1 (ix1 j)) 0

/-- The network's output for cloud b. -/
def out (x : Cloud) (bs : Basis) (g1 s1 rm1 rv1 : Vec1024) (w1 : Mat) (b1 : Vec1024) (g2 s2 rm2 rv2 : Vec1024) (w2 : Row) (b2 : One)
    (b : Fin 8) : EReal :=
  (∑ j : Fin 1024, norm g2 s2 rm2 rv2 j (hidden x bs g1 s1 rm1 rv1 w1 b1 b j) * w2 (ix2 0 j)) + b2 (ix1 0)

/-- The result array, of shape [8, 1]. -/
def result (x : Cloud) (bs : Basis) (g1 s1 rm1 rv1 : Vec1024) (w1 : Mat) (b1 : Vec1024) (g2 s2 rm2 rv2 : Vec1024) (w2 : Row) (b2 : One) :
    (⟨2, ![8, 1]⟩ : Shape).Idx → EReal :=
  fun i => out x bs g1 s1 rm1 rv1 w1 b1 g2 s2 rm2 rv2 w2 b2 (i 0)

end Cert.Spec

end
-- ==== Proof.LibMatmulNT.lean ====
/-
  A matrix product of a row-major `M × K` block against an `N × K` block whose LAST axis is contracted (the
  right operand enters transposed: the left operand's axis 1 is contracted with the right operand's axis 1),
  accumulated into the zero block and read at the extended reals: entry `(p, q)` of the result is the sum over
  `k` of `x[p, k] · w[q, k]`.  The contraction index of the matrix unit ranges over a one-axis shape of extent
  `K`; it is re-indexed to `Fin K`, and the two operand indices that the dimension record computes are named
  coordinate by coordinate.  General in the three extents and in the operands' float formats.
-/
import Idealize.ShloMosaic.PureOps.Ideal.Laws
import Idealize.ShloMosaic.Lib.ValueIdx

noncomputable section

open scoped BigOperators

namespace LibMatmulNT

open Idealize.ShloMosaic Idealize.ShloMosaic.ValueIdx

variable (M K N : Nat)

/-- The left operand's index at output index `(p, q)` and contraction index `k` is `(p, k)`. -/
theorem lhsIdx_eq (p : Fin M) (q : Fin N) (k : Fin K) :
    (DotDims.transposedRhs M K N).lhsIdx (ix2 p q) ((contrEquiv1 (DotDims.transposedRhs M K N) K rfl rfl).symm k) = ix2 p k := by
  have hk := contrEquiv1_symm_val (DotDims.transposedRhs M K N) K rfl rfl k
  funext a
  apply Fin.ext
  match a with
  | ⟨0, _⟩ => rfl
  | ⟨1, _⟩ => exact ((DotDims.transposedRhs M K N).lhsIdx_val_of_single rfl _ _).trans hk

/-- The right operand's index at output index `(p, q)` and contraction index `k` is `(q, k)`: its row is the
    output's column. -/
theorem rhsIdx_eq (p : Fin M) (q : Fin N) (k : Fin K) :
    (DotDims.transposedRhs M K N).rhsIdx (ix2 p q) ((contrEquiv1 (DotDims.transposedRhs M K N) K rfl rfl).symm k) = ix2 q k := by
  have hk := contrEquiv1_symm_val (DotDims.transposedRhs M K N) K rfl rfl k
  funext a
  apply Fin.ext
  match a with
  | ⟨0, _⟩ => rfl
  | ⟨1, _⟩ => exact ((DotDims.transposedRhs M K N).rhsIdx_val_of_single rfl _ _).trans hk

/-- Entry `(p, q)` of `x · wᵀ` accumulated into zero is `∑ k, x[p, k] · w[q, k]` on the extended reals. -/
theorem matmul_zero_apply {φ₁ φ₂ : FTy} (prec : Option ContractPrecision)
    (x : FVec Ideal ⟨2, ![M, K]⟩ φ₁) (w : FVec Ideal ⟨2, ![N, K]⟩ φ₂) (p : Fin M) (q : Fin N) :
    FloatOps.matmul (DotDims.transposedRhs M K N) prec x w (constant (F := Ideal) ⟨2, ![M, N]⟩ .f32 0x00000000#32) (ix2 p q)
      = ∑ k : Fin K, x (ix2 p k) * w (ix2 q k) := by
  rw [Ideal.matmul_constant_zero_apply, ← Equiv.sum_comp (contrEquiv1 (DotDims.transposedRhs M K N) K rfl rfl).symm]
  refine Finset.sum_congr rfl fun k _ => ?_
  rw [lhsIdx_eq, rhsIdx_eq]

end LibMatmulNT

end
-- ==== Proof.KernelIdeal.Payload1.lean ====
/-
  The network head's arithmetic on the extended reals, read index by index.

  The head takes the `[8, 1024]` features and eleven parameter blocks: for each of the two normalisations a gain, a shift,
  a running mean and a running variance, each a `[1, 1024]` row; the first dense layer's `[1024, 1024]` weights and
  `[1, 1024]` bias; and the last layer's `[1, 1024]` weights.  A normalisation sends `x` at feature `m` to
  `(x - mean m) * (gain m * (variance m + eps)^(-1/2)) + shift m`.  Each dense layer contracts its operand's lanes with the
  weights' lanes into a zero accumulator, so its entry `(b, j)` is the sum over `k` of `x (b, k) * w (j, k)`.  The stored
  value at cloud `b` is the last layer's sum over the 1024 hidden units of the normalised, rectified first layer.
-/
import proofs.«167137_j12017318494451_2_alg».proof.Proof.Spec
import proofs.«167137_j12017318494451_2_alg».proof.Proof.Gen.KernelIdeal.Skeleton
import proofs.«167137_j12017318494451_2_alg».proof.Proof.LibMatmulNT
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayloadValue

open Cert.KernelIdeal Cert.KernelIdeal.Gen Idealize.ShloMosaic Idealize.ShloMosaic.ValueIdx

/-- A normalisation over `[1, 1024]` parameter rows, applied to the value `x` of feature `m`. -/
def normRow (g s rm rv : Vec Ideal S1x1024 .f32) (m : Fin 1024) (x : EReal) : EReal :=
  (x - rm (ix2 0 m)) * (g (ix2 0 m) * Ideal.rsqrt (rv (ix2 0 m) + Cert.Spec.eps)) + s (ix2 0 m)

/-- When the four rows hold a normalisation's four parameter vectors, the row form is the specification's normalisation. -/
theorem normRow_eq_norm (g s rm rv : Vec Ideal S1x1024 .f32) (G S RM RV : Cert.Spec.Vec1024)
    (hg : ∀ m : Fin 1024, g (ix2 0 m) = G (ix1 m)) (hs : ∀ m : Fin 1024, s (ix2 0 m) = S (ix1 m))
    (hrm : ∀ m : Fin 1024, rm (ix2 0 m) = RM (ix1 m)) (hrv : ∀ m : Fin 1024, rv (ix2 0 m) = RV (ix1 m))
    (m : Fin 1024) (x : EReal) : normRow g s rm rv m x = Cert.Spec.norm G S RM RV m x := by
  unfold normRow Cert.Spec.norm Cert.Spec.scale
  rw [hg, hs, hrm, hrv]

/-- The reciprocal square root of an array, read at an index. -/
theorem rsqrt_apply {s : Shape} {φ : FTy} (a : FVec Ideal s φ) (i : s.Idx) : rsqrt a i = Ideal.rsqrt (a i) := rfl

/-- The first dense layer into zero: entry `(b, j)` is the sum over `k` of `X (b, k) * W (j, k)`. -/
theorem dense1_apply (X : FVec Ideal S8x1024 .f32) (W : FVec Ideal S1024x1024 .f32) (b : Fin 8) (j : Fin 1024) :
    matmul dot_S8x1024_S1024x1024_S8x1024_1_1_0_0_n_n none X W (constant S8x1024 .f32 0x00000000#32) (ix2 b j)
      = ∑ k : Fin 1024, X (ix2 b k) * W (ix2 j k) :=
  LibMatmulNT.matmul_zero_apply 8 1024 1024 none X W b j

/-- The last dense layer into zero: entry `(b, 0)` is the sum over `k` of `X (b, k) * W (0, k)`. -/
theorem dense2_apply (X : FVec Ideal S8x1024 .f32) (W : FVec Ideal S1x1024 .f32) (b : Fin 8) :
    matmul dot_S8x1024_S1x1024_S8x1_1_1_0_0_n_n none X W (constant S8x1 .f32 0x00000000#32) (ix2 b (0 : Fin 1))
      = ∑ k : Fin 1024, X (ix2 b k) * W (ix2 (0 : Fin 1) k) :=
  LibMatmulNT.matmul_zero_apply 8 1024 1 none X W b (0 : Fin 1)

/-- The first part's main result at `(b, j)`: hidden unit `j` of cloud `b`, rectified, less the second running mean. -/
theorem mlp_hidden_apply (f : Vec Ideal S8x1024 .f32) (g1 s1 rm1 rv1 : Vec Ideal S1x1024 .f32) (w1 : Vec Ideal S1024x1024 .f32)
    (b1 rm2 : Vec Ideal S1x1024 .f32) (b : Fin 8) (j : Fin 1024) :
    k1_pay2 (F := Ideal) f rm1 g1 rv1 s1 w1 b1 rm2 (ix2 b j)
      = max ((∑ k : Fin 1024, normRow g1 s1 rm1 rv1 k (f (ix2 b k)) * w1 (ix2 j k)) + b1 (ix2 0 j)) 0 - rm2 (ix2 0 j) := by
  unfold k1_pay2
  simp only [subf_apply, maximumf_apply, addf_apply, mulf_apply, rsqrt_apply, broadcast_apply, broadcastTo_1b_ab_apply,
    shapeCast_self, dense1_apply, Ideal.ofBits_def, Ideal.ofBits_zero_f32, normRow, Cert.Spec.eps]

/-- The part's other two results are the second gain and the second running variance as loaded. -/
theorem mlp_pay3_eq (g2 : Vec Ideal S1x1024 .f32) : k1_pay3 (F := Ideal) g2 = g2 := shapeCast_self g2 _
theorem mlp_pay4_eq (rv2 : Vec Ideal S1x1024 .f32) : k1_pay4 (F := Ideal) rv2 = rv2 := shapeCast_self rv2 _

/-- The stored value over any main result `H`, gain `G` and variance `V`: the last layer's sum of the scaled and shifted
    entries of row `b` of `H`. -/
theorem mlp_out_apply (H : FVec Ideal S8x1024 .f32) (G V : FVec Ideal S1x1024 .f32) (s2 w2 : Vec Ideal S1x1024 .f32) (b : Fin 8) :
    k1_pay1 (F := Ideal) H G V s2 w2 (ix2 b (0 : Fin 1))
      = ∑ j : Fin 1024, (H (ix2 b j) * (G (ix2 0 j) * Ideal.rsqrt (V (ix2 0 j) + Cert.Spec.eps)) + s2 (ix2 0 j)) * w2 (ix2 0 j) := by
  unfold k1_pay1
  simp only [dense2_apply, addf_apply, mulf_apply, rsqrt_apply, broadcast_apply, broadcastTo_1b_ab_apply, shapeCast_self,
    Ideal.ofBits_def, Cert.Spec.eps]

/-- The value the head stores at cloud `b`: the last layer over the second normalisation of the rectified first layer
    over the first normalisation of the features. -/
theorem mlp_apply (f : Vec Ideal S8x1024 .f32) (g1 s1 rm1 rv1 : Vec Ideal S1x1024 .f32) (w1 : Vec Ideal S1024x1024 .f32)
    (b1 g2 s2 rm2 rv2 w2 : Vec Ideal S1x1024 .f32) (b : Fin 8) :
    k1_pay1 (F := Ideal) (k1_pay2 f rm1 g1 rv1 s1 w1 b1 rm2) (k1_pay3 g2) (k1_pay4 rv2) s2 w2 (ix2 b (0 : Fin 1))
      = ∑ j : Fin 1024,
          normRow g2 s2 rm2 rv2 j (max ((∑ k : Fin 1024, normRow g1 s1 rm1 rv1 k (f (ix2 b k)) * w1 (ix2 j k)) + b1 (ix2 0 j)) 0)
            * w2 (ix2 0 j) := by
  rw [mlp_out_apply, mlp_pay3_eq, mlp_pay4_eq]
  refine Finset.sum_congr rfl fun j _ => ?_
  rw [mlp_hidden_apply]
  rfl

end Cert.KernelIdeal.PayloadValue

end
-- ==== Proof.KernelIdeal.MlpValue.lean ====
/-
  The network kernel's stored value, entry by entry, on the extended reals: for the feature block f and the eleven
  parameter blocks, entry (b, 0) of what the body stores is the second dense layer applied to the second normalisation of
  the rectified first dense layer of the first normalisation of row b of f.
-/
import proofs.«167137_j12017318494451_2_alg».proof.Proof.KernelIdeal.Final1
import proofs.«167137_j12017318494451_2_alg».proof.Proof.KernelIdeal.R0Pieces
import proofs.«167137_j12017318494451_2_alg».proof.Proof.KernelIdeal.Payload1

noncomputable section

namespace Cert.KernelIdeal.Hand

open Cert.KernelIdeal Cert.KernelIdeal.Gen Cert.KernelIdeal.PayloadValue
open Idealize.ShloMosaic Idealize.ShloMosaic.ValueIdx

theorem out1_12_apply (x0 : Vec Ideal S8x1024 .f32) (x1 x2 x3 x4 : Vec Ideal S1x1024 .f32) (x5 : Vec Ideal S1024x1024 .f32)
    (x6 x7 x8 x9 x10 x11 : Vec Ideal S1x1024 .f32) (b : Fin 8) :
    out1_12 (F := Ideal) x0 x1 x2 x3 x4 x5 x6 x7 x8 x9 x10 x11 (ix2 b (0 : Fin 1))
      = ∑ j : Fin 1024, normRow x7 x8 x9 x10 j (max ((∑ k : Fin 1024, normRow x1 x2 x3 x4 k (x0 (ix2 b k)) * x5 (ix2 j k)) + x6 (ix2 0 j)) 0) * x11 (ix2 0 j) := by
  unfold out1_12
  rw [View.canon_unit_zero offsZero2]
  simp only [View.ld_unit_zero (S := S8x1024) offsZero2, View.ld_unit_zero (S := S1x1024) offsZero2, View.ld_unit_zero (S := S1024x1024) offsZero2]
  exact mlp_apply x0 x1 x2 x3 x4 x5 x6 x7 x8 x9 x10 x11 b

end Cert.KernelIdeal.Hand

end
-- ==== Proof.KernelIdeal.HostReads.lean ====
/-
  The second host stretch read at an index.  Before the network region the host reshapes the features from
  [8, 1, 1024] to [8, 1024] and each normalisation and bias parameter from [1024] to [1, 1024]; a reshape keeps the
  row-major position, so the reshaped features at (b, k) are the distance region's output at (b, 0, k), and a reshaped
  parameter at (u, k) is the parameter at k.  The parameters themselves are as launched: neither the first host stretch
  nor the distance region writes an argument.  The two weight arrays are not touched by the stretch at all.
-/
import proofs.«167137_j12017318494451_2_alg».proof.Proof.KernelIdeal.Run
import Idealize.ShloMosaic.Lib.StableHlo.Run
import Idealize.ShloMosaic.Lib.Pipeline.Value
import Idealize.ShloMosaic.Lib.ValueIdx
import Idealize.ShloMosaic.Lib.ValueLayout

set_option maxHeartbeats 4000000
set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- An [a, 1, b] array cast to [a, b] reads, at (i, j), the operand at (i, 0, j): both have row-major position i * b + j. -/
theorem shapeCast_a1b_ab_apply {α : Type} {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

variable {F : FTy → Type} [FloatOps F]

variable (m : (ℓ : Loc nD τ sig) → Buf (Elt F) ℓ) (ρ : Dev nD → PrngReg)

/-! ## The arguments at the distance region's exit are as launched -/

theorem W2_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.Forall, StableHlo.unary_writes, StableHlo.binary_writes, StableHlo.reshape_writes, Finset.mem_singleton]
          repeat' apply And.intro
          all_goals exact StableHlo.devRef_ne_of_ne (by decide)))
    _ = m ((c : Thread nD τ).loc main_arg2) := rfl

theorem W2_arg3 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.Forall, StableHlo.unary_writes, StableHlo.binary_writes, StableHlo.reshape_writes, Finset.mem_singleton]
          repeat' apply And.intro
          all_goals exact StableHlo.devRef_ne_of_ne (by decide)))
    _ = m ((c : Thread nD τ).loc main_arg3) := rfl

theorem W2_arg4 (c : Dev nD) : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.Forall, StableHlo.unary_writes, StableHlo.binary_writes, StableHlo.reshape_writes, Finset.mem_singleton]
          repeat' apply And.intro
          all_goals exact StableHlo.devRef_ne_of_ne (by decide)))
    _ = m ((c : Thread nD τ).loc main_arg4) := rfl

theorem W2_arg5 (c : Dev nD) : W2 m ρ c (Proc.devRef .tc main_arg5) = m ((c : Thread nD τ).loc main_arg5) :=
  calc W2 m ρ c (Proc.devRef .tc main_arg5)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.Forall, StableHlo.unary_writes, StableHlo.binary_writes, StableHlo.reshape_writes, Finset.mem_singleton]
          repeat' apply And.intro
          all_goals exact StableHlo.devRef_ne_of_ne (by decide)))
    _ = m ((c : Thread nD τ).loc main_arg5) := rfl

theorem W2_arg6 (c : Dev nD) : W2 m ρ c (Proc.devRef .tc main_arg6) = m ((c : Thread nD τ).loc main_arg6) :=
  calc W2 m ρ c (Proc.devRef .tc main_arg6)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.Forall, StableHlo.unary_writes, StableHlo.binary_writes, StableHlo.reshape_writes, Finset.mem_singleton]
          repeat' apply And.intro
          all_goals exact StableHlo.devRef_ne_of_ne (by decide)))
    _ = m ((c : Thread nD τ).loc main_arg6) := rfl

theorem W2_arg7 (c : Dev nD) : W2 m ρ c (Proc.devRef .tc main_arg7) = m ((c : Thread nD τ).loc main_arg7) :=
  calc W2 m ρ c (Proc.devRef .tc main_arg7)
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.Forall, StableHlo.unary_writes, StableHlo.binary_writes, StableHlo.reshape_writes, Finset.mem_singleton]
          repeat' apply And.intro
          all_goals exact StableHlo.devRef_ne_of_ne (by decide)))
    _ = m ((c : Thread nD τ).loc main_arg7) := rfl

theorem W2_arg8 (c : Dev nD) : W2 m ρ c (Proc.devRef .tc main_arg8) = m ((c : Thread nD τ).loc main_arg8) :=
  calc W2 m ρ c (Proc.devRef .tc main_arg8)
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.Forall, StableHlo.unary_writes, StableHlo.binary_writes, StableHlo.reshape_writes, Finset.mem_singleton]
          repeat' apply And.intro
          all_goals exact StableHlo.devRef_ne_of_ne (by decide)))
    _ = m ((c : Thread nD τ).loc main_arg8) := rfl

theorem W2_arg9 (c : Dev nD) : W2 m ρ c (Proc.devRef .tc main_arg9) = m ((c : Thread nD τ).loc main_arg9) :=
  calc W2 m ρ c (Proc.devRef .tc main_arg9)
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.Forall, StableHlo.unary_writes, StableHlo.binary_writes, StableHlo.reshape_writes, Finset.mem_singleton]
          repeat' apply And.intro
          all_goals exact StableHlo.devRef_ne_of_ne (by decide)))
    _ = m ((c : Thread nD τ).loc main_arg9) := rfl

theorem W2_arg10 (c : Dev nD) : W2 m ρ c (Proc.devRef .tc main_arg10) = m ((c : Thread nD τ).loc main_arg10) :=
  calc W2 m ρ c (Proc.devRef .tc main_arg10)
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.Forall, StableHlo.unary_writes, StableHlo.binary_writes, StableHlo.reshape_writes, Finset.mem_singleton]
          repeat' apply And.intro
          all_goals exact StableHlo.devRef_ne_of_ne (by decide)))
    _ = m ((c : Thread nD τ).loc main_arg10) := rfl

theorem W2_arg11 (c : Dev nD) : W2 m ρ c (Proc.devRef .tc main_arg11) = m ((c : Thread nD τ).loc main_arg11) :=
  calc W2 m ρ c (Proc.devRef .tc main_arg11)
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.Forall, StableHlo.unary_writes, StableHlo.binary_writes, StableHlo.reshape_writes, Finset.mem_singleton]
          repeat' apply And.intro
          all_goals exact StableHlo.devRef_ne_of_ne (by decide)))
    _ = m ((c : Thread nD τ).loc main_arg11) := rfl

theorem W2_arg12 (c : Dev nD) : W2 m ρ c (Proc.devRef .tc main_arg12) = m ((c : Thread nD τ).loc main_arg12) :=
  calc W2 m ρ c (Proc.devRef .tc main_arg12)
    _ = W1 m ρ c (Proc.devRef .tc main_arg12) := W2_of_ne m ρ c main_arg12 (by decide)
    _ = W0 m ρ c (Proc.devRef .tc main_arg12) := StableHlo.after_of_forall_not_mem (b := Proc.devRef .tc main_arg12) _ _ (List.forall_iff_forall_mem.mp (by
          simp only [hostOps0, List.Forall, StableHlo.unary_writes, StableHlo.binary_writes, StableHlo.reshape_writes, Finset.mem_singleton]
          repeat' apply And.intro
          all_goals exact StableHlo.devRef_ne_of_ne (by decide)))
    _ = m ((c : Thread nD τ).loc main_arg12) := rfl

/-! ## The reshapes -/

/-- The reshaped features at (b, k) are the distance region's output at (b, 0, k). -/
theorem Ve3_v3 (c : Dev nD) (i : S8x1024.Idx) :
    (Ve3 m ρ c main_v3 : (⟨S8x1024, .f32⟩ : BufTy).Contents (Elt F)) i
      = (W2 m ρ c (Proc.devRef .tc main_v2) : (⟨S8x1x1024, .f32⟩ : BufTy).Contents (Elt F)) (ix3 (i 0) (0 : Fin 1) (i 1)) := by
  have e : (StableHlo.after hostOps1 (W2 m ρ c) (Proc.devRef .tc main_v3) : (⟨S8x1024, .f32⟩ : BufTy).Contents (Elt F))
      = shapeCast S8x1024 (W2 m ρ c (Proc.devRef .tc main_v2) : (⟨S8x1x1024, .f32⟩ : BufTy).Contents (Elt F)) shapeCasts_S8x1x1024_S8x1024 := by
    after_results; rfl
  show (StableHlo.after hostOps1 (W2 m ρ c) (Proc.devRef .tc main_v3) : (⟨S8x1024, .f32⟩ : BufTy).Contents (Elt F)) i = _
  rw [e, eq_ix2 i]
  exact shapeCast_a1b_ab_apply _ shapeCasts_S8x1x1024_S8x1024 (i 0) (i 1)

/-- The reshaped parameter at (u, k) is the parameter at k. -/
theorem Ve3_v4 (c : Dev nD) (i : S1x1024.Idx) :
    (Ve3 m ρ c main_v4 : (⟨S1x1024, .f32⟩ : BufTy).Contents (Elt F)) i
      = (m ((c : Thread nD τ).loc main_arg2) : (⟨S1024, .f32⟩ : BufTy).Contents (Elt F)) (ix1 (i 1)) := by
  have e : (StableHlo.after hostOps1 (W2 m ρ c) (Proc.devRef .tc main_v4) : (⟨S1x1024, .f32⟩ : BufTy).Contents (Elt F))
      = shapeCast S1x1024 (W2 m ρ c (Proc.devRef .tc main_arg2) : (⟨S1024, .f32⟩ : BufTy).Contents (Elt F)) shapeCasts_S1024_S1x1024 := by
    after_results; rfl
  show (StableHlo.after hostOps1 (W2 m ρ c) (Proc.devRef .tc main_v4) : (⟨S1x1024, .f32⟩ : BufTy).Contents (Elt F)) i = _
  rw [e, W2_arg2, eq_ix2 i]
  exact shapeCast_a_1a_apply _ shapeCasts_S1024_S1x1024 (i 0) (i 1)

/-- The reshaped parameter at (u, k) is the parameter at k. -/
theorem Ve3_v5 (c : Dev nD) (i : S1x1024.Idx) :
    (Ve3 m ρ c main_v5 : (⟨S1x1024, .f32⟩ : BufTy).Contents (Elt F)) i
      = (m ((c : Thread nD τ).loc main_arg3) : (⟨S1024, .f32⟩ : BufTy).Contents (Elt F)) (ix1 (i 1)) := by
  have e : (StableHlo.after hostOps1 (W2 m ρ c) (Proc.devRef .tc main_v5) : (⟨S1x1024, .f32⟩ : BufTy).Contents (Elt F))
      = shapeCast S1x1024 (W2 m ρ c (Proc.devRef .tc main_arg3) : (⟨S1024, .f32⟩ : BufTy).Contents (Elt F)) shapeCasts_S1024_S1x1024 := by
    after_results; rfl
  show (StableHlo.after hostOps1 (W2 m ρ c) (Proc.devRef .tc main_v5) : (⟨S1x1024, .f32⟩ : BufTy).Contents (Elt F)) i = _
  rw [e, W2_arg3, eq_ix2 i]
  exact shapeCast_a_1a_apply _ shapeCasts_S1024_S1x1024 (i 0) (i 1)

/-- The reshaped parameter at (u, k) is the parameter at k. -/
theorem Ve3_v6 (c : Dev nD) (i : S1x1024.Idx) :
    (Ve3 m ρ c main_v6 : (⟨S1x1024, .f32⟩ : BufTy).Contents (Elt F)) i
      = (m ((c : Thread nD τ).loc main_arg4) : (⟨S1024, .f32⟩ : BufTy).Contents (Elt F)) (ix1 (i 1)) := by
  have e : (StableHlo.after hostOps1 (W2 m ρ c) (Proc.devRef .tc main_v6) : (⟨S1x1024, .f32⟩ : BufTy).Contents (Elt F))
      = shapeCast S1x1024 (W2 m ρ c (Proc.devRef .tc main_arg4) : (⟨S1024, .f32⟩ : BufTy).Contents (Elt F)) shapeCasts_S1024_S1x1024 := by
    after_results; rfl
  show (StableHlo.after hostOps1 (W2 m ρ c) (Proc.devRef .tc main_v6) : (⟨S1x1024, .f32⟩ : BufTy).Contents (Elt F)) i = _
  rw [e, W2_arg4, eq_ix2 i]
  exact shapeCast_a_1a_apply _ shapeCasts_S1024_S1x1024 (i 0) (i 1)

/-- The reshaped parameter at (u, k) is the parameter at k. -/
theorem Ve3_v7 (c : Dev nD) (i : S1x1024.Idx) :
    (Ve3 m ρ c main_v7 : (⟨S1x1024, .f32⟩ : BufTy).Contents (Elt F)) i
      = (m ((c : Thread nD τ).loc main_arg5) : (⟨S1024, .f32⟩ : BufTy).Contents (Elt F)) (ix1 (i 1)) := by
  have e : (StableHlo.after hostOps1 (W2 m ρ c) (Proc.devRef .tc main_v7) : (⟨S1x1024, .f32⟩ : BufTy).Contents (Elt F))
      = shapeCast S1x1024 (W2 m ρ c (Proc.devRef .tc main_arg5) : (⟨S1024, .f32⟩ : BufTy).Contents (Elt F)) shapeCasts_S1024_S1x1024 := by
    after_results; rfl
  show (StableHlo.after hostOps1 (W2 m ρ c) (Proc.devRef .tc main_v7) : (⟨S1x1024, .f32⟩ : BufTy).Contents (Elt F)) i = _
  rw [e, W2_arg5, eq_ix2 i]
  exact shapeCast_a_1a_apply _ shapeCasts_S1024_S1x1024 (i 0) (i 1)

/-- The reshaped parameter at (u, k) is the parameter at k. -/
theorem Ve3_v8 (c : Dev nD) (i : S1x1024.Idx) :
    (Ve3 m ρ c main_v8 : (⟨S1x1024, .f32⟩ : BufTy).Contents (Elt F)) i
      = (m ((c : Thread nD τ).loc main_arg7) : (⟨S1024, .f32⟩ : BufTy).Contents (Elt F)) (ix1 (i 1)) := by
  have e : (StableHlo.after hostOps1 (W2 m ρ c) (Proc.devRef .tc main_v8) : (⟨S1x1024, .f32⟩ : BufTy).Contents (Elt F))
      = shapeCast S1x1024 (W2 m ρ c (Proc.devRef .tc main_arg7) : (⟨S1024, .f32⟩ : BufTy).Contents (Elt F)) shapeCasts_S1024_S1x1024 := by
    after_results; rfl
  show (StableHlo.after hostOps1 (W2 m ρ c) (Proc.devRef .tc main_v8) : (⟨S1x1024, .f32⟩ : BufTy).Contents (Elt F)) i = _
  rw [e, W2_arg7, eq_ix2 i]
  exact shapeCast_a_1a_apply _ shapeCasts_S1024_S1x1024 (i 0) (i 1)

/-- The reshaped parameter at (u, k) is the parameter at k. -/
theorem Ve3_v9 (c : Dev nD) (i : S1x1024.Idx) :
    (Ve3 m ρ c main_v9 : (⟨S1x1024, .f32⟩ : BufTy).Contents (Elt F)) i
      = (m ((c : Thread nD τ).loc main_arg8) : (⟨S1024, .f32⟩ : BufTy).Contents (Elt F)) (ix1 (i 1)) := by
  have e : (StableHlo.after hostOps1 (W2 m ρ c) (Proc.devRef .tc main_v9) : (⟨S1x1024, .f32⟩ : BufTy).Contents (Elt F))
      = shapeCast S1x1024 (W2 m ρ c (Proc.devRef .tc main_arg8) : (⟨S1024, .f32⟩ : BufTy).Contents (Elt F)) shapeCasts_S1024_S1x1024 := by
    after_results; rfl
  show (StableHlo.after hostOps1 (W2 m ρ c) (Proc.devRef .tc main_v9) : (⟨S1x1024, .f32⟩ : BufTy).Contents (Elt F)) i = _
  rw [e, W2_arg8, eq_ix2 i]
  exact shapeCast_a_1a_apply _ shapeCasts_S1024_S1x1024 (i 0) (i 1)

/-- The reshaped parameter at (u, k) is the parameter at k. -/
theorem Ve3_v10 (c : Dev nD) (i : S1x1024.Idx) :
    (Ve3 m ρ c main_v10 : (⟨S1x1024, .f32⟩ : BufTy).Contents (Elt F)) i
      = (m ((c : Thread nD τ).loc main_arg9) : (⟨S1024, .f32⟩ : BufTy).Contents (Elt F)) (ix1 (i 1)) := by
  have e : (StableHlo.after hostOps1 (W2 m ρ c) (Proc.devRef .tc main_v10) : (⟨S1x1024, .f32⟩ : BufTy).Contents (Elt F))
      = shapeCast S1x1024 (W2 m ρ c (Proc.devRef .tc main_arg9) : (⟨S1024, .f32⟩ : BufTy).Contents (Elt F)) shapeCasts_S1024_S1x1024 := by
    after_results; rfl
  show (StableHlo.after hostOps1 (W2 m ρ c) (Proc.devRef .tc main_v10) : (⟨S1x1024, .f32⟩ : BufTy).Contents (Elt F)) i = _
  rw [e, W2_arg9, eq_ix2 i]
  exact shapeCast_a_1a_apply _ shapeCasts_S1024_S1x1024 (i 0) (i 1)

/-- The reshaped parameter at (u, k) is the parameter at k. -/
theorem Ve3_v11 (c : Dev nD) (i : S1x1024.Idx) :
    (Ve3 m ρ c main_v11 : (⟨S1x1024, .f32⟩ : BufTy).Contents (Elt F)) i
      = (m ((c : Thread nD τ).loc main_arg10) : (⟨S1024, .f32⟩ : BufTy).Contents (Elt F)) (ix1 (i 1)) := by
  have e : (StableHlo.after hostOps1 (W2 m ρ c) (Proc.devRef .tc main_v11) : (⟨S1x1024, .f32⟩ : BufTy).Contents (Elt F))
      = shapeCast S1x1024 (W2 m ρ c (Proc.devRef .tc main_arg10) : (⟨S1024, .f32⟩ : BufTy).Contents (Elt F)) shapeCasts_S1024_S1x1024 := by
    after_results; rfl
  show (StableHlo.after hostOps1 (W2 m ρ c) (Proc.devRef .tc main_v11) : (⟨S1x1024, .f32⟩ : BufTy).Contents (Elt F)) i = _
  rw [e, W2_arg10, eq_ix2 i]
  exact shapeCast_a_1a_apply _ shapeCasts_S1024_S1x1024 (i 0) (i 1)

/-- The reshaped parameter at (u, k) is the parameter at k. -/
theorem Ve3_v12 (c : Dev nD) (i : S1x1024.Idx) :
    (Ve3 m ρ c main_v12 : (⟨S1x1024, .f32⟩ : BufTy).Contents (Elt F)) i
      = (m ((c : Thread nD τ).loc main_arg11) : (⟨S1024, .f32⟩ : BufTy).Contents (Elt F)) (ix1 (i 1)) := by
  have e : (StableHlo.after hostOps1 (W2 m ρ c) (Proc.devRef .tc main_v12) : (⟨S1x1024, .f32⟩ : BufTy).Contents (Elt F))
      = shapeCast S1x1024 (W2 m ρ c (Proc.devRef .tc main_arg11) : (⟨S1024, .f32⟩ : BufTy).Contents (Elt F)) shapeCasts_S1024_S1x1024 := by
    after_results; rfl
  show (StableHlo.after hostOps1 (W2 m ρ c) (Proc.devRef .tc main_v12) : (⟨S1x1024, .f32⟩ : BufTy).Contents (Elt F)) i = _
  rw [e, W2_arg11, eq_ix2 i]
  exact shapeCast_a_1a_apply _ shapeCasts_S1024_S1x1024 (i 0) (i 1)

/-! ## The two weight arrays at the network region's entry are as launched -/

theorem Ve3_arg6 (c : Dev nD) : Ve3 m ρ c main_arg6 = m ((c : Thread nD τ).loc main_arg6) :=
  calc W3 m ρ c (Proc.devRef .tc main_arg6)
    _ = W2 m ρ c (Proc.devRef .tc main_arg6) := StableHlo.after_of_forall_not_mem (b := Proc.devRef .tc main_arg6) _ _ (List.forall_iff_forall_mem.mp (by
          simp only [hostOps1, List.Forall, StableHlo.unary_writes, StableHlo.binary_writes, StableHlo.reshape_writes, Finset.mem_singleton]
          repeat' apply And.intro
          all_goals exact StableHlo.devRef_ne_of_ne (by decide)))
    _ = m ((c : Thread nD τ).loc main_arg6) := W2_arg6 m ρ c

theorem Ve3_arg12 (c : Dev nD) : Ve3 m ρ c main_arg12 = m ((c : Thread nD τ).loc main_arg12) :=
  calc W3 m ρ c (Proc.devRef .tc main_arg12)
    _ = W2 m ρ c (Proc.devRef .tc main_arg12) := StableHlo.after_of_forall_not_mem (b := Proc.devRef .tc main_arg12) _ _ (List.forall_iff_forall_mem.mp (by
          simp only [hostOps1, List.Forall, StableHlo.unary_writes, StableHlo.binary_writes, StableHlo.reshape_writes, Finset.mem_singleton]
          repeat' apply And.intro
          all_goals exact StableHlo.devRef_ne_of_ne (by decide)))
    _ = m ((c : Thread nD τ).loc main_arg12) := W2_arg12 m ρ c

end Cert.KernelIdeal.Hand

end
-- ==== Proof.KernelIdeal.HostReadsB.lean ====
/-
  What the host stretches leave, read at an index.

  The first stretch transposes the point clouds (8 x 3 x 20000 to 8 x 20000 x 3) and the basis (1024 x 3 to 3 x 1024):
  an entry of a transposed array is the entry of the source at the permuted coordinates.  The last stretch adds the
  network's scalar output bias to every entry of the 8 x 1 column the network kernel leaves: the bias, a one-element
  array, is first stretched to 1 x 1 and then to 8 x 1, so every entry of the stretched array is its one element.  That
  one element is still the launch memory's: the bias array is an argument that no host operation writes and that
  neither kernel has a window on.
-/
import proofs.«167137_j12017318494451_2_alg».proof.Proof.KernelIdeal.Run
import Idealize.ShloMosaic.Lib.StableHlo.Run
import Idealize.ShloMosaic.Lib.Pipeline.Value
import Idealize.ShloMosaic.Lib.ValueIdx

set_option maxHeartbeats 4000000
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The first stretch: the two transposes -/

/-- The transposed clouds at `(b, n, k)` hold the launch clouds at `(b, k, n)`. -/
theorem Ve1_v0 (c : Dev nD) (i : S8x20000x3.Idx) :
    Ve1 m ρ c main_v0 i = m ((c : Thread nD τ).loc main_arg0) (fun a => match a with
      | ⟨0, _⟩ => ⟨(i 0).val, (i 0).isLt⟩
      | ⟨1, _⟩ => ⟨(i 2).val, (i 2).isLt⟩
      | ⟨2, _⟩ => ⟨(i 1).val, (i 1).isLt⟩) := by
  have e : (StableHlo.after hostOps0 (W0 m ρ c) (Proc.devRef .tc main_v0) : S8x20000x3.Idx → Elt F .f32)
      = transpose S8x20000x3 [0, 2, 1] (m ((c : Thread nD τ).loc main_arg0)) transposes_S8x3x20000_S8x20000x3_0_2_1 := by
    after_results
  refine (congrFun e i).trans ?_
  exact transpose_apply [0, 2, 1] _ transposes_S8x3x20000_S8x20000x3_0_2_1 i _ (fun b => match b with
    | ⟨0, _⟩ => rfl
    | ⟨1, _⟩ => rfl
    | ⟨2, _⟩ => rfl)

/-- The transposed basis at `(k, j)` holds the launch basis at `(j, k)`. -/
theorem Ve1_v1 (c : Dev nD) (i : S3x1024.Idx) :
    Ve1 m ρ c main_v1 i = m ((c : Thread nD τ).loc main_arg1) (fun a => match a with
      | ⟨0, _⟩ => ⟨(i 1).val, (i 1).isLt⟩
      | ⟨1, _⟩ => ⟨(i 0).val, (i 0).isLt⟩) := by
  have e : (StableHlo.after hostOps0 (W0 m ρ c) (Proc.devRef .tc main_v1) : S3x1024.Idx → Elt F .f32)
      = transpose S3x1024 [1, 0] (m ((c : Thread nD τ).loc main_arg1)) transposes_S1024x3_S3x1024_1_0 := by
    after_results
  refine (congrFun e i).trans ?_
  exact transpose_apply [1, 0] _ transposes_S1024x3_S3x1024_1_0 i _ (fun b => match b with
    | ⟨0, _⟩ => rfl
    | ⟨1, _⟩ => rfl)

/-! ## The last stretch: the bias added to the network kernel's column -/

/-- The bias array at the network region's exit is the launch memory's: it is an argument, neither region has a
    window on it, and no host operation of the first two stretches writes it. -/
theorem W4_bias (c : Dev nD) : W4 m ρ c (Proc.devRef .tc main_arg13) = m ((c : Thread nD τ).loc main_arg13) :=
  calc W4 m ρ c (Proc.devRef .tc main_arg13)
    _ = W3 m ρ c (Proc.devRef .tc main_arg13) := W4_of_ne m ρ c main_arg13 (by decide)
    _ = W2 m ρ c (Proc.devRef .tc main_arg13) := StableHlo.after_of_forall_not_mem (b := Proc.devRef .tc main_arg13) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg13) := W2_of_ne m ρ c main_arg13 (by decide)
    _ = W0 m ρ c (Proc.devRef .tc main_arg13) := StableHlo.after_of_forall_not_mem (b := Proc.devRef .tc main_arg13) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg13) := rfl

/-- The result column at `i`: the network kernel's entry there plus the bias. -/
theorem W5_v16 (c : Dev nD) (i : S8x1.Idx) :
    W5 m ρ c (Proc.devRef .tc main_v16) i
      = FloatOps.addf (W4 m ρ c (Proc.devRef .tc main_v13) i) (m ((c : Thread nD τ).loc main_arg13) (ValueIdx.ix1 (0 : Fin 1))) := by
  have e : (StableHlo.after hostOps2 (W4 m ρ c) (Proc.devRef .tc main_v16) : S8x1.Idx → Elt F .f32)
      = addf (W4 m ρ c (Proc.devRef .tc main_v13))
          (broadcastInDim S8x1 ![0, 1] bcast_S1x1_S8x1_0_1 (broadcastInDim S1x1 ![1] bcast_S1_S1x1_1 (W4 m ρ c (Proc.devRef .tc main_arg13)))) := by
    after_results
  refine (congrFun e i).trans ?_
  show FloatOps.addf _ _ = _
  congr 1
  -- an entry of the 8 x 1 stretch is the 1 x 1 array's one entry,
  refine (broadcastInDim_apply _ bcast_S1x1_S8x1_0_1 _ i (fun a => match a with
      | ⟨0, _⟩ => ⟨0, Nat.one_pos⟩
      | ⟨1, _⟩ => ⟨0, Nat.one_pos⟩) (fun a => match a with
    | ⟨0, _⟩ => by show 0 = if (1 : Nat) = 1 then 0 else (i 0).val; rw [if_pos rfl]
    | ⟨1, _⟩ => by show 0 = if (1 : Nat) = 1 then 0 else (i 1).val; rw [if_pos rfl])).trans ?_
  -- which is the bias array's one entry,
  refine (broadcastInDim_apply _ bcast_S1_S1x1_1 _ _ (ValueIdx.ix1 (0 : Fin 1)) (fun a => match a with
    | ⟨0, _⟩ => by show 0 = if (1 : Nat) = 1 then 0 else _; rw [if_pos rfl])).trans ?_
  -- which is the launch memory's.
  exact congrFun (W4_bias m ρ c) _

end Cert.KernelIdeal.Hand

end
-- ==== Proof.KernelIdeal.PayloadMin.lean ====
/-
  The minimum down the rows of an `[m, N]` array, read at a column.

  A reduction by `min` over axis 0 of an `[m, N]` value, started from the accumulator's value and viewed as the one row of a
  `[1, N]` array, has at column `q` the fold of `min` from that value over the `m` entries of column `q`.  When the
  accumulator's value is the top of the extended reals, the fold is the lattice infimum of the column.
-/
import Idealize.ShloMosaic.PureOps.Ideal.Laws
import Idealize.ShloMosaic.Lib.ValueIdx
import Idealize.ShloMosaic.Lib.ValueLayout

noncomputable section

open scoped BigOperators

namespace Cert.KernelIdeal.PayloadValue

open Idealize.ShloMosaic Idealize.ShloMosaic.ValueIdx

variable {m N : Nat}

/-- The reduced index `q` with row `k` put back is `(k, q)`. -/
theorem lift_row (h : (⟨2, ![m, N]⟩ : Shape).Reduces [0] (⟨1, ![N]⟩ : Shape)) (q : Fin N)
    (k : Fin ((⟨2, ![m, N]⟩ : Shape).size 0)) : h.lift (ix1 q) k = ix2 (⟨k.val, k.isLt⟩ : Fin m) q := by
  funext c; apply Fin.ext
  fin_cases c <;> rfl

/-- The minimum down the rows from the accumulator's value, kept as one row: at column `q` the fold of `min` over
    column `q`'s entries. -/
theorem minRows_apply (V : FVec Ideal ⟨2, ![m, N]⟩ .f32) (acc : BitVec 32) (h : (⟨2, ![m, N]⟩ : Shape).Reduces [0] (⟨1, ![N]⟩ : Shape))
    (hφ : FKind.Formats .f32) (hacc' : acc = FKind.minimumf.neutral .f32 hφ)
    (hs : (⟨1, ![N]⟩ : Shape).ShapeCasts ⟨2, ![1, N]⟩) (u : Fin 1) (q : Fin N) :
    shapeCast ⟨2, ![1, N]⟩ (multiReduction .minimumf [0] ⟨1, ![N]⟩ V acc h hφ hacc') hs (ix2 u q)
      = (Finset.univ : Finset (Fin m)).fold min (Ideal.ofBits .f32 acc) (fun a => V (ix2 a q)) := by
  refine (shapeCast_a_1a_apply _ hs u q).trans ?_
  refine (multiReduction_minimumf_eq_fold V acc h hφ hacc' (ix1 q)).trans ?_
  refine (h.fold_filter_drop_single _ _ V (ix1 q)).trans ?_
  exact congrArg (fun f => Finset.fold min (Ideal.ofBits .f32 acc) f (Finset.univ : Finset (Fin m)))
    (funext fun k => congrArg V (lift_row h q k))

/-- The pattern of positive infinity denotes the top of the extended reals. -/
theorem ofBits_posInf : Ideal.ofBits .f32 0x7F800000#32 = (⊤ : EReal) := by
  simp [Ideal.ofBits, Ideal.ieee]

/-- A fold of `min` from the top over all of a finite index type is the infimum of the family. -/
theorem fold_min_top_eq_iInf {ι : Type} [Fintype ι] (f : ι → EReal) :
    (Finset.univ : Finset ι).fold min (⊤ : EReal) f = ⨅ a, f a :=
  (Finset.inf_univ_eq_iInf f)

/-- So the minimum down the rows from positive infinity is, at column `q`, the infimum of column `q`. -/
theorem minRows_posInf_apply (V : FVec Ideal ⟨2, ![m, N]⟩ .f32) (h : (⟨2, ![m, N]⟩ : Shape).Reduces [0] (⟨1, ![N]⟩ : Shape))
    (hφ : FKind.Formats .f32) (hacc' : (0x7F800000#32 : BitVec 32) = FKind.minimumf.neutral .f32 hφ)
    (hs : (⟨1, ![N]⟩ : Shape).ShapeCasts ⟨2, ![1, N]⟩) (u : Fin 1) (q : Fin N) :
    shapeCast ⟨2, ![1, N]⟩ (multiReduction .minimumf [0] ⟨1, ![N]⟩ V 0x7F800000#32 h hφ hacc') hs (ix2 u q)
      = ⨅ a : Fin m, V (ix2 a q) := by
  rw [minRows_apply, ofBits_posInf]
  exact fold_min_top_eq_iInf _

end Cert.KernelIdeal.PayloadValue

end
-- ==== Proof.LibRowReduce.lean ====
/-
  Reductions down the rows of an `[m, N]` array, read at a column.

  A kernel that keeps the batch on the lanes reduces over the few rows of an `[m, N]` value (axis 0), obtaining a vector of
  length `N`, and views it as the one row of a `[1, N]` array (a sum or a maximum taken with the axis kept).  At the extended
  reals the entry of that row at column `q` is the sum, or the fold of `max` from the accumulator's value, over the `m` entries
  of column `q`.  General in both extents.
-/
import Idealize.ShloMosaic.PureOps.Ideal.Laws
import Idealize.ShloMosaic.Lib.ValueIdx
import Idealize.ShloMosaic.Lib.ValueLayout

noncomputable section

open scoped BigOperators

namespace LibRowReduce

open Idealize.ShloMosaic Idealize.ShloMosaic.ValueIdx

variable {m N : Nat}

/-- The reduced index `q` with row `k` put back is `(k, q)`. -/
theorem lift_rows (h : (⟨2, ![m, N]⟩ : Shape).Reduces [0] (⟨1, ![N]⟩ : Shape)) (q : Fin N)
    (k : Fin ((⟨2, ![m, N]⟩ : Shape).size 0)) : h.lift (ix1 q) k = ix2 (⟨k.val, k.isLt⟩ : Fin m) q := by
  funext c; apply Fin.ext
  fin_cases c <;> rfl

/-- The sum down the rows, kept as one row: at column `q` it is the sum of column `q`'s entries. -/
theorem sumRows_apply (V : FVec Ideal ⟨2, ![m, N]⟩ .f32) (h : (⟨2, ![m, N]⟩ : Shape).Reduces [0] (⟨1, ![N]⟩ : Shape))
    (hφ : FKind.Formats .f32) (hacc : (0x00000000#32 : BitVec 32) = 0x00000000#32)
    (hs : (⟨1, ![N]⟩ : Shape).ShapeCasts ⟨2, ![1, N]⟩) (u : Fin 1) (q : Fin N) :
    shapeCast ⟨2, ![1, N]⟩ (multiReduction .add [0] ⟨1, ![N]⟩ V 0x00000000#32 h hφ hacc) hs (ix2 u q)
      = ∑ a : Fin m, V (ix2 a q) := by
  refine (shapeCast_a_1a_apply _ hs u q).trans ?_
  refine (Ideal.multiReduction_add_single V 0x00000000#32 h hφ hacc (ix1 q)).trans ?_
  exact Finset.sum_congr rfl fun k _ => congrArg V (lift_rows h q k)

/-- The maximum down the rows from the accumulator's value, kept as one row: at column `q` it is the fold of `max` over
    column `q`'s entries. -/
theorem maxRows_apply (V : FVec Ideal ⟨2, ![m, N]⟩ .f32) (acc : BitVec 32) (h : (⟨2, ![m, N]⟩ : Shape).Reduces [0] (⟨1, ![N]⟩ : Shape))
    (hφ : FKind.Formats .f32) (hacc' : acc = FKind.maximumf.neutral .f32 hφ)
    (hs : (⟨1, ![N]⟩ : Shape).ShapeCasts ⟨2, ![1, N]⟩) (u : Fin 1) (q : Fin N) :
    shapeCast ⟨2, ![1, N]⟩ (multiReduction .maximumf [0] ⟨1, ![N]⟩ V acc h hφ hacc') hs (ix2 u q)
      = (Finset.univ : Finset (Fin m)).fold max (Ideal.ofBits .f32 acc) (fun a => V (ix2 a q)) := by
  refine (shapeCast_a_1a_apply _ hs u q).trans ?_
  refine (Ideal.multiReduction_maximumf_single V acc h hφ hacc' (ix1 q)).trans ?_
  exact congrArg (fun f => Finset.fold max (Ideal.ofBits .f32 acc) f (Finset.univ : Finset (Fin m)))
    (funext fun k => congrArg V (lift_rows h q k))

end LibRowReduce

end
-- ==== Proof.LibLaneReduce.lean ====
/-
  Reductions along the lanes of an `[r, n]` block, read at a row.

  A kernel that keeps a quantity's index on the rows reduces over the lanes of an `[r, n]` value (axis 1), obtaining a
  vector of length `r`, and views it as an `[r, 1]` column (a sum or a maximum taken with the axis kept).  At the
  extended reals the entry of that column at row `p` is the sum, or the fold of `max` from the accumulator's value, over
  the `n` entries of row `p`; where the maximum is first taken once more against the accumulator's value broadcast (as
  a lowered softmax does), it is the `max` of that value with the fold.  General in both extents.
-/
import Idealize.ShloMosaic.PureOps.Ideal.Laws
import Idealize.ShloMosaic.Lib.ValueIdx
import Idealize.ShloMosaic.Lib.Pipeline.Value

noncomputable section

open scoped BigOperators

namespace LibLaneReduce

open Idealize.ShloMosaic Idealize.ShloMosaic.ValueIdx

variable {r n : Nat}

/-- The reduced index `p` with lane `k` put back is `(p, k)`. -/
theorem lift_lanes (h : (⟨2, ![r, n]⟩ : Shape).Reduces [1] (⟨1, ![r]⟩ : Shape)) (p : Fin r)
    (k : Fin ((⟨2, ![r, n]⟩ : Shape).size 1)) : h.lift (ix1 p) k = ix2 p (⟨k.val, k.isLt⟩ : Fin n) := by
  funext c; apply Fin.ext
  fin_cases c <;> rfl

/-- A vector of length `r` viewed as a column `[r, 1]` reads, at `(p, 0)`, the vector at `p`: the reshape keeps the
    row-major position `p = p · 1 + 0`. -/
theorem col_apply {α : Type} (x : (⟨1, ![r]⟩ : Shape).Idx → α) (hs : (⟨1, ![r]⟩ : Shape).ShapeCasts ⟨2, ![r, 1]⟩) (p : Fin r) :
    shapeCast ⟨2, ![r, 1]⟩ x hs (ix2 p (0 : Fin 1)) = x (ix1 p) :=
  shapeCast_apply x hs _ _ (by
    rw [Shape.rowMajor_val_one, Shape.rowMajor_val_two]
    show p.val = p.val * 1 + 0
    omega)

/-- A sum along the lanes kept as a column: at row `p` the sum of row `p`. -/
theorem sumLanes_apply (V : FVec Ideal ⟨2, ![r, n]⟩ .f32) (h : (⟨2, ![r, n]⟩ : Shape).Reduces [1] (⟨1, ![r]⟩ : Shape))
    (hφ : FKind.Formats .f32) (hacc : (0x00000000#32 : BitVec 32) = 0x00000000#32)
    (hs : (⟨1, ![r]⟩ : Shape).ShapeCasts ⟨2, ![r, 1]⟩) (p : Fin r) :
    shapeCast ⟨2, ![r, 1]⟩ (multiReduction .add [1] ⟨1, ![r]⟩ V 0x00000000#32 h hφ hacc) hs (ix2 p (0 : Fin 1))
      = ∑ k : Fin n, V (ix2 p k) := by
  refine (col_apply _ hs p).trans ?_
  refine (Ideal.multiReduction_add_single V 0x00000000#32 h hφ hacc (ix1 p)).trans ?_
  exact Finset.sum_congr rfl fun k _ => congrArg V (lift_lanes h p k)

/-- A maximum along the lanes from the accumulator's value, taken once more against that value, kept as a column:
    at row `p` the `max` of that value with the fold of `max` over row `p`. -/
theorem maxLanes_apply (V : FVec Ideal ⟨2, ![r, n]⟩ .f32) (acc : BitVec 32) (h : (⟨2, ![r, n]⟩ : Shape).Reduces [1] (⟨1, ![r]⟩ : Shape))
    (hφ : FKind.Formats .f32) (hacc' : acc = FKind.maximumf.neutral .f32 hφ)
    (hs : (⟨1, ![r]⟩ : Shape).ShapeCasts ⟨2, ![r, 1]⟩) (p : Fin r) :
    shapeCast ⟨2, ![r, 1]⟩ (maximumf (broadcast ⟨1, ![r]⟩ (Scalar.ofBits .f32 acc)) (multiReduction .maximumf [1] ⟨1, ![r]⟩ V acc h hφ hacc')) hs (ix2 p (0 : Fin 1))
      = max (Ideal.ofBits .f32 acc) ((Finset.univ : Finset (Fin n)).fold max (Ideal.ofBits .f32 acc) fun k => V (ix2 p k)) := by
  refine (col_apply _ hs p).trans ?_
  refine congrArg (max (Ideal.ofBits .f32 acc)) ?_
  refine (Ideal.multiReduction_maximumf_single V acc h hφ hacc' (ix1 p)).trans ?_
  exact congrArg (fun f => Finset.fold max (Ideal.ofBits .f32 acc) f (Finset.univ : Finset (Fin n)))
    (funext fun k => congrArg V (lift_lanes h p k))

end LibLaneReduce

end
-- ==== Proof.LibColumnLayout.lean ====
/-
  Two layout operations read at an index, for shapes with unit axes, in the style of the library's
  Lib/ValueLayout.lean (which has the row form [1, b] → [a, b] and the single leading unit axis):
  a COLUMN [a, 1] broadcast along its unit axis to [a, b], and a matrix [a, b] viewed with TWO leading
  unit axes [1, 1, a, b].
-/
import Idealize.ShloMosaic.Lib.Pipeline.Value
import Idealize.ShloMosaic.Lib.ValueIdx

noncomputable section

namespace Idealize.ShloMosaic.ValueIdx

variable {α : Type}

/-- An `[a, 1]` column broadcast to `[a, b]` reads, at `(p, c)`, the column's entry of row `p`: the broadcast
    repeats the one entry of each row along the new lanes. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array cast to `[1, 1, a, b]` reads, at `(u, u', i, j)`, the operand at `(i, j)`: both arrays list the
    same entries in the same row-major order, the two unit coordinates contributing nothing to the position. -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    simp only [hu, hu', Nat.zero_mul, Nat.zero_add, Nat.mul_one, Nat.add_zero])

end Idealize.ShloMosaic.ValueIdx

end
-- ==== Proof.KernelIdeal.Payload0.lean ====
/-
  The distance kernel's arithmetic on the extended reals, read index by index.

  One step of the kernel takes a tile of 2000 points `[1, 2000, 3]`, the transposed basis `[3, 1024]` and the running
  minimum `[1, 1024]`, and returns the running minimum lowered, at each basis point `m`, by the smallest clamped squared
  distance from `m` to a point of the tile.  The squared distance is spelled by the polarisation identity: the two squared
  norms are sums over the three coordinates, the inner product three explicit products added from the left.  On the extended
  reals addition is associative, so the three products are the sum over the coordinates, and the minimum down the tile from
  positive infinity is the lattice infimum.
-/
import proofs.«167137_j12017318494451_2_alg».proof.Proof.Spec
import proofs.«167137_j12017318494451_2_alg».proof.Proof.Gen.KernelIdeal.Skeleton
import proofs.«167137_j12017318494451_2_alg».proof.Proof.KernelIdeal.PayloadMin
import proofs.«167137_j12017318494451_2_alg».proof.Proof.LibRowReduce
import proofs.«167137_j12017318494451_2_alg».proof.Proof.LibLaneReduce
import proofs.«167137_j12017318494451_2_alg».proof.Proof.LibColumnLayout
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayloadValue

open Cert.KernelIdeal Cert.KernelIdeal.Gen Idealize.ShloMosaic Idealize.ShloMosaic.ValueIdx

/-! ## The pieces of one tile, over a points block `P : [2000, 3]` and a basis block `B : [3, 1024]` -/

/-- Coordinate `k` of the points, as a column, broadcast along the lanes: at `(r, m)` it is `P (r, k)`. -/
theorem coordColumn_apply (P : FVec Ideal S2000x3 .f32) (o : Nat) (h : S2000x3.Slices ![0, o] S2000x1)
    (hb : S2000x1.Broadcasts S2000x1024) (r : Fin 2000) (m : Fin 1024) (k : Fin 3) (hk : k.val = o) :
    broadcastTo S2000x1024 (extractStridedSlice S2000x1 ![0, o] P h) hb (ix2 r m) = P (ix2 r k) :=
  (broadcastTo_a1_ab_apply _ hb r m).trans (slice2_axis1_apply o P h r (0 : Fin 1) k (by rw [hk]; rfl))

/-- Coordinate `k` of the basis, as a row, broadcast down the rows: at `(r, m)` it is `B (k, m)`. -/
theorem coordRow_apply (B : FVec Ideal S3x1024 .f32) (o : Nat) (h : S3x1024.Slices ![o, 0] S1x1024)
    (hb : S1x1024.Broadcasts S2000x1024) (r : Fin 2000) (m : Fin 1024) (k : Fin 3) (hk : k.val = o) :
    broadcastTo S2000x1024 (extractStridedSlice S1x1024 ![o, 0] B h) hb (ix2 r m) = B (ix2 k m) :=
  (broadcastTo_1b_ab_apply _ hb r m).trans (slice2_axis0_apply o B h (0 : Fin 1) m k (by rw [hk]; rfl))

/-- The points' squared norms, as a column, broadcast along the lanes: at `(r, m)` the squared norm of point `r`. -/
theorem ptNorms_apply (P : FVec Ideal S2000x3 .f32) (h : S2000x3.Reduces [1] S2000) (hs : S2000.ShapeCasts S2000x1)
    (hb : S2000x1.Broadcasts S2000x1024) (r : Fin 2000) (m : Fin 1024) :
    broadcastTo S2000x1024 (shapeCast S2000x1 (multiReduction .add [1] S2000 (mulf P P) 0x00000000#32 h (.inl rfl) rfl) hs) hb (ix2 r m)
      = ∑ d : Fin 3, P (ix2 r d) * P (ix2 r d) :=
  (broadcastTo_a1_ab_apply _ hb r m).trans (LibLaneReduce.sumLanes_apply (mulf P P) h (.inl rfl) rfl hs r)

/-- The basis points' squared norms, as a row, broadcast down the rows: at `(r, m)` the squared norm of basis point `m`. -/
theorem basisNorms_apply (B : FVec Ideal S3x1024 .f32) (h : S3x1024.Reduces [0] S1024) (hs : S1024.ShapeCasts S1x1024)
    (hb : S1x1024.Broadcasts S2000x1024) (r : Fin 2000) (m : Fin 1024) :
    broadcastTo S2000x1024 (shapeCast S1x1024 (multiReduction .add [0] S1024 (mulf B B) 0x00000000#32 h (.inl rfl) rfl) hs) hb (ix2 r m)
      = ∑ d : Fin 3, B (ix2 d m) * B (ix2 d m) :=
  (broadcastTo_1b_ab_apply _ hb r m).trans (LibRowReduce.sumRows_apply (mulf B B) h (.inl rfl) rfl hs (0 : Fin 1) m)

/-- The tile of clamped squared distances: entry `(r, m)` is the squared distance from point `r` to basis point `m`
    by the polarisation identity, clamped at zero. -/
def distTile (v4 : FVec Ideal S2000x3 .f32) (v6 : FVec Ideal S3x1024 .f32) : FVec Ideal S2000x1024 .f32 :=
  have v7 : FVec Ideal S2000x3 .f32 := mulf v4 v4
  have v8 : FVec Ideal S2000 .f32 := multiReduction .add [1] S2000 v7 0x00000000#32 reduces_S2000x3_S2000 (.inl rfl) rfl
  have v9 : FVec Ideal S2000x1 .f32 := shapeCast S2000x1 v8 shapeCasts_S2000_S2000x1
  have v10 : FVec Ideal S3x1024 .f32 := mulf v6 v6
  have v11 : FVec Ideal S1024 .f32 := multiReduction .add [0] S1024 v10 0x00000000#32 reduces_S3x1024_S1024 (.inl rfl) rfl
  have v12 : FVec Ideal S1x1024 .f32 := shapeCast S1x1024 v11 shapeCasts_S1024_S1x1024
  have v13 : FVec Ideal S2000x1 .f32 := extractStridedSlice S2000x1 ![0, 0] v4 slices_S2000x3_o0_0_S2000x1
  have v14 : FVec Ideal S1x1024 .f32 := extractStridedSlice S1x1024 ![0, 0] v6 slices_S3x1024_o0_0_S1x1024
  have v15 : FVec Ideal S2000x1024 .f32 := broadcastTo S2000x1024 v13 broadcasts_S2000x1_S2000x1024
  have v16 : FVec Ideal S2000x1024 .f32 := broadcastTo S2000x1024 v14 broadcasts_S1x1024_S2000x1024
  have v17 : FVec Ideal S2000x1024 .f32 := mulf v15 v16
  have v18 : FVec Ideal S2000x1 .f32 := extractStridedSlice S2000x1 ![0, 1] v4 slices_S2000x3_o0_1_S2000x1
  have v19 : FVec Ideal S1x1024 .f32 := extractStridedSlice S1x1024 ![1, 0] v6 slices_S3x1024_o1_0_S1x1024
  have v20 : FVec Ideal S2000x1024 .f32 := broadcastTo S2000x1024 v18 broadcasts_S2000x1_S2000x1024
  have v21 : FVec Ideal S2000x1024 .f32 := broadcastTo S2000x1024 v19 broadcasts_S1x1024_S2000x1024
  have v22 : FVec Ideal S2000x1024 .f32 := mulf v20 v21
  have v23 : FVec Ideal S2000x1024 .f32 := addf v17 v22
  have v24 : FVec Ideal S2000x1 .f32 := extractStridedSlice S2000x1 ![0, 2] v4 slices_S2000x3_o0_2_S2000x1
  have v25 : FVec Ideal S1x1024 .f32 := extractStridedSlice S1x1024 ![2, 0] v6 slices_S3x1024_o2_0_S1x1024
  have v26 : FVec Ideal S2000x1024 .f32 := broadcastTo S2000x1024 v24 broadcasts_S2000x1_S2000x1024
  have v27 : FVec Ideal S2000x1024 .f32 := broadcastTo S2000x1024 v25 broadcasts_S1x1024_S2000x1024
  have v28 : FVec Ideal S2000x1024 .f32 := mulf v26 v27
  have v29 : FVec Ideal S2000x1024 .f32 := addf v23 v28
  have v30 : FVec Ideal S2000x1024 .f32 := broadcastTo S2000x1024 v9 broadcasts_S2000x1_S2000x1024
  have v31 : FVec Ideal S2000x1024 .f32 := broadcastTo S2000x1024 v12 broadcasts_S1x1024_S2000x1024
  have v32 : FVec Ideal S2000x1024 .f32 := addf v30 v31
  have cst_6 : Ideal .f32 := Scalar.ofBits .f32 0x40000000#32
  have v33 : FVec Ideal S2000x1024 .f32 := broadcast S2000x1024 cst_6
  have v34 : FVec Ideal S2000x1024 .f32 := mulf v33 v29
  have v35 : FVec Ideal S2000x1024 .f32 := subf v32 v34
  have cst_7 : Ideal .f32 := Scalar.ofBits .f32 0x00000000#32
  have v36 : FVec Ideal S2000x1024 .f32 := broadcast S2000x1024 cst_7
  have v37 : FVec Ideal S2000x1024 .f32 := maximumf v35 v36
  v37

/-- The step's result is the running minimum lowered by the minimum down the tile of clamped squared distances. -/
theorem pay4_eq (v3 : Vec Ideal S1x2000x3 .f32) (v5 : Vec Ideal S3x1024 .f32) (v40 : Vec Ideal S1x1024 .f32) :
    k0_pay4 (F := Ideal) v3 v5 v40
      = minimumf v40 (shapeCast S1x1024 (multiReduction .minimumf [0] S1024
          (distTile (shapeCast S2000x3 v3 shapeCasts_S1x2000x3_S2000x3) (shapeCast S3x1024 v5 shapeCasts_S3x1024_S3x1024))
          0x7F800000#32 reduces_S2000x1024_S1024 (.inl rfl) rfl) shapeCasts_S1024_S1x1024) := rfl

/-- An entry of the tile, index by index. -/
theorem distTile_apply (P : FVec Ideal S2000x3 .f32) (B : FVec Ideal S3x1024 .f32) (r : Fin 2000) (m : Fin 1024) :
    distTile P B (ix2 r m)
      = max (((∑ d : Fin 3, P (ix2 r d) * P (ix2 r d)) + (∑ d : Fin 3, B (ix2 d m) * B (ix2 d m)))
          - Cert.Spec.two * (∑ d : Fin 3, P (ix2 r d) * B (ix2 d m))) 0 := by
  unfold distTile
  simp only [maximumf_apply, subf_apply, addf_apply, mulf_apply, broadcast_apply]
  rw [ptNorms_apply, basisNorms_apply,
    coordColumn_apply P 0 _ _ r m 0 rfl, coordColumn_apply P 1 _ _ r m 1 rfl, coordColumn_apply P 2 _ _ r m 2 rfl,
    coordRow_apply B 0 _ _ r m 0 rfl, coordRow_apply B 1 _ _ r m 1 rfl, coordRow_apply B 2 _ _ r m 2 rfl,
    Fin.sum_univ_three (fun d : Fin 3 => P (ix2 r d) * B (ix2 d m))]
  show max (_ - Ideal.ofBits .f32 0x40000000#32 * _) (Ideal.ofBits .f32 0x00000000#32) = _
  rw [Ideal.ofBits_zero_f32]
  rfl

/-- (a) One step of the running minimum at basis point `m`: the old value against the infimum over the tile's points of
    the clamped squared distance to `m`. -/
theorem pay4_apply (v3 : Vec Ideal S1x2000x3 .f32) (v5 : Vec Ideal S3x1024 .f32) (v40 : Vec Ideal S1x1024 .f32) (m : Fin 1024) :
    k0_pay4 (F := Ideal) v3 v5 v40 (ix2 (0 : Fin 1) m)
      = min (v40 (ix2 0 m)) (⨅ r : Fin 2000,
          max (((∑ d : Fin 3, v3 (ix3 0 r d) * v3 (ix3 0 r d)) + (∑ d : Fin 3, v5 (ix2 d m) * v5 (ix2 d m)))
            - Cert.Spec.two * (∑ d : Fin 3, v3 (ix3 0 r d) * v5 (ix2 d m))) 0) := by
  rw [pay4_eq]
  refine congrArg (min (v40 (ix2 0 m))) ?_
  refine (minRows_posInf_apply _ reduces_S2000x1024_S1024 (.inl rfl) rfl shapeCasts_S1024_S1x1024 (0 : Fin 1) m).trans ?_
  refine iInf_congr fun r => ?_
  rw [distTile_apply, shapeCast_self]
  simp only [shapeCast_1ab_ab_apply]

/-- (b) The fill of the running minimum is positive infinity everywhere. -/
theorem pay3_apply (j : S1x1024.Idx) : k0_pay3 (F := Ideal) j = ⊤ :=
  ofBits_posInf

/-- (c) A shape cast onto the same shape is the identity. -/
theorem pay1_eq (v41 : FVec Ideal S1x1024 .f32) : k0_pay1 (F := Ideal) v41 = v41 :=
  shapeCast_self v41 _

/-- (d) The stored feature is the square root of the running minimum, viewed with one more unit axis. -/
theorem pay2_apply (v48 : Vec Ideal S1x1024 .f32) (m : Fin 1024) :
    k0_pay2 (F := Ideal) v48 (ix3 (0 : Fin 1) (0 : Fin 1) m) = Ideal.sqrt (v48 (ix2 0 m)) := by
  unfold k0_pay2
  exact shapeCast_ab_1ab_apply (sqrt (F := Ideal) v48) shapeCasts_S1x1024_S1x1x1024 (0 : Fin 1) (0 : Fin 1) m

end Cert.KernelIdeal.PayloadValue

end
-- ==== Proof.MinChain.lean ====
/-
  A running minimum over consecutive tiles is the minimum over all of them.

  * A sequence that starts at the minimum of the top element and the first tile's value, and at each step takes the
    minimum of its previous value and the next tile's value, holds after n steps the infimum of tiles 0..n.
  * The infimum over ten tiles of the infimum over each tile's 2000 points is the infimum over the 20000 points:
    point n lies in tile n / 2000 at offset n % 2000.
-/
import Mathlib.Data.EReal.Basic
import Mathlib.Order.CompleteLattice.Basic

namespace Cert.MinChain

/-- The running minimum after n steps is the infimum of the first n + 1 tile values. -/
theorem chain_eq (tile a : ℕ → EReal) (h0 : a 0 = min ⊤ (tile 0)) (hs : ∀ j, a (j + 1) = min (a j) (tile (j + 1)))
    (n : ℕ) : a n = ⨅ j : Fin (n + 1), tile j.val := by
  induction n with
  | zero =>
    rw [h0, min_eq_right le_top]
    refine le_antisymm (le_iInf fun j => le_of_eq ?_) (iInf_le (fun j : Fin (0 + 1) => tile j.val) ⟨0, by omega⟩)
    have : j.val = 0 := by have := j.isLt; omega
    rw [this]
  | succ n ih =>
    rw [hs, ih]
    refine le_antisymm (le_iInf fun j => ?_) (le_min (le_iInf fun j => ?_) ?_)
    · by_cases h : j.val < n + 1
      · exact (min_le_left _ _).trans (iInf_le (fun j : Fin (n + 1) => tile j.val) ⟨j.val, h⟩)
      · have e : j.val = n + 1 := by have := j.isLt; omega
        rw [e]
        exact min_le_right _ _
    · exact iInf_le (fun j : Fin (n + 1 + 1) => tile j.val) ⟨j.val, by have := j.isLt; omega⟩
    · exact iInf_le (fun j : Fin (n + 1 + 1) => tile j.val) ⟨n + 1, by omega⟩

/-- The same, for a chain given only on its first N + 1 terms. -/
theorem chain_eq_of_lt (N : ℕ) (tile a : ℕ → EReal) (h0 : a 0 = min ⊤ (tile 0))
    (hs : ∀ j, j + 1 ≤ N → a (j + 1) = min (a j) (tile (j + 1))) (n : ℕ) (hn : n ≤ N) :
    a n = ⨅ j : Fin (n + 1), tile j.val := by
  induction n with
  | zero =>
    rw [h0, min_eq_right le_top]
    refine le_antisymm (le_iInf fun j => le_of_eq ?_) (iInf_le (fun j : Fin (0 + 1) => tile j.val) ⟨0, by omega⟩)
    have : j.val = 0 := by have := j.isLt; omega
    rw [this]
  | succ n ih =>
    rw [hs n hn, ih (by omega)]
    refine le_antisymm (le_iInf fun j => ?_) (le_min (le_iInf fun j => ?_) ?_)
    · by_cases h : j.val < n + 1
      · exact (min_le_left _ _).trans (iInf_le (fun j : Fin (n + 1) => tile j.val) ⟨j.val, h⟩)
      · have e : j.val = n + 1 := by have := j.isLt; omega
        rw [e]
        exact min_le_right _ _
    · exact iInf_le (fun j : Fin (n + 1 + 1) => tile j.val) ⟨j.val, by have := j.isLt; omega⟩
    · exact iInf_le (fun j : Fin (n + 1 + 1) => tile j.val) ⟨n + 1, by omega⟩

/-- The infimum over ten tiles of 2000 points each is the infimum over the 20000 points. -/
theorem iInf_tiles (f : Fin 20000 → EReal) :
    (⨅ j : Fin 10, ⨅ r : Fin 2000, f ⟨2000 * j.val + r.val, by have := j.isLt; have := r.isLt; omega⟩)
      = ⨅ n : Fin 20000, f n := by
  refine le_antisymm (le_iInf fun n => ?_) (le_iInf fun j => le_iInf fun r => iInf_le f _)
  have hq : n.val / 2000 < 10 := by have := n.isLt; omega
  have hr : n.val % 2000 < 2000 := by omega
  refine (iInf_le (fun j : Fin 10 => ⨅ r : Fin 2000, f ⟨2000 * j.val + r.val, by have := j.isLt; have := r.isLt; omega⟩)
    ⟨n.val / 2000, hq⟩).trans ?_
  refine (iInf_le (fun r : Fin 2000 => f ⟨2000 * (n.val / 2000) + r.val, by have := r.isLt; omega⟩) ⟨n.val % 2000, hr⟩).trans ?_
  exact le_of_eq (congrArg f (Fin.ext (by show 2000 * (n.val / 2000) + n.val % 2000 = n.val; omega)))

end Cert.MinChain
-- ==== Proof.KernelIdeal.Value0.lean ====
/-
  The distance kernel's region on the extended reals: what the result array holds, index by index.

  Along a cloud's ten tiles the scratch row's entry of basis point `k` is a running minimum: the first tile folds its
  column minimum into positive infinity, each later tile folds its own into what the tile before left.  A tile's column
  minimum at `k` is the infimum over the tile's 2000 points of the clamped squared distance to basis point `k`, and the
  tile at position `10 b + j` holds points `2000 j … 2000 j + 1999` of cloud `b`.  So after the cloud's last tile the entry is
  the infimum over all 20000 points of the cloud, and the result row stores its square root.
-/
import proofs.«167137_j12017318494451_2_alg».proof.Proof.KernelIdeal.Final0
import proofs.«167137_j12017318494451_2_alg».proof.Proof.KernelIdeal.R0Pieces
import proofs.«167137_j12017318494451_2_alg».proof.Proof.KernelIdeal.Payload0
import proofs.«167137_j12017318494451_2_alg».proof.Proof.MinChain

set_option maxRecDepth 16384

noncomputable section

open scoped BigOperators

namespace Cert.KernelIdeal.Hand

open Cert.KernelIdeal Cert.KernelIdeal.Gen Cert.KernelIdeal.PayloadValue
open Idealize.ShloMosaic Idealize.ShloMosaic.TcCoe Idealize.ShloMosaic.ValueIdx
open Idealize.SL Idealize.SL.Sem
open Idealize.ShloMosaic.Pipeline (Dat Cfg Window BodyObligation cellOf)

/-- An infimum over `n + 1` indices is the infimum over the first `n` against the last. -/
theorem iInf_fin_succ_last {n : Nat} (f : Fin (n + 1) → EReal) :
    (⨅ s, f s) = min (⨅ s : Fin n, f s.castSucc) (f (Fin.last n)) := by
  apply le_antisymm
  · exact le_min (le_iInf fun s => iInf_le _ s.castSucc) (iInf_le _ (Fin.last n))
  · refine le_iInf fun s => ?_
    cases s using Fin.lastCases with
    | last => exact min_le_right _ _
    | cast s => exact (min_le_left _ _).trans (iInf_le (fun s : Fin n => f s.castSucc) s)

section
variable (V : (c : Dev nD) → (b : Ref sig .tc) → Buf (Elt Ideal) ((c : Thread nD τ).loc b))

/-- The transposed cloud `[8, 20000, 3]` and the transposed basis `[3, 1024]` as the region finds them: arrays of extended reals. -/
abbrev cloudAt (c : Dev nD) : Vec Ideal S8x20000x3 .f32 := V c main_v0
abbrev basisAt (c : Dev nD) : Vec Ideal S3x1024 .f32 := V c main_v1

/-- The clamped squared distance from point `n` of cloud `b` to basis point `k`, over the arrays the region finds. -/
def distAt (c : Dev nD) (b : Fin 8) (n : Fin 20000) (k : Fin 1024) : EReal :=
  max (((∑ d : Fin 3, cloudAt V c (ix3 b n d) * cloudAt V c (ix3 b n d)) + (∑ d : Fin 3, basisAt V c (ix2 d k) * basisAt V c (ix2 d k)))
    - Cert.Spec.two * (∑ d : Fin 3, cloudAt V c (ix3 b n d) * basisAt V c (ix2 d k))) 0

/-- The tile at a grid position, and the basis block there. -/
def tileX (c : Dev nD) (t : Fin cfg0.N) : Vec Ideal S1x2000x3 .f32 := iblk0 V c 0 t
def tileB (c : Dev nD) (t : Fin cfg0.N) : Vec Ideal S3x1024 .f32 := iblk0 V c 1 t

/-- A position's column minimum at basis point `k`: the infimum over the tile's points of the clamped squared distance. -/
def tileMin (c : Dev nD) (t : Fin cfg0.N) (k : Fin 1024) : EReal :=
  ⨅ r : Fin 2000,
    max (((∑ d : Fin 3, tileX V c t (ix3 0 r d) * tileX V c t (ix3 0 r d)) + (∑ d : Fin 3, tileB V c t (ix2 d k) * tileB V c t (ix2 d k)))
      - Cert.Spec.two * (∑ d : Fin 3, tileX V c t (ix3 0 r d) * tileB V c t (ix2 d k))) 0

/-- One position's effect on the scratch row at basis point `k`: the position's column minimum folded into positive
    infinity at a cloud's first tile, into what the position before left elsewhere. -/
theorem accStep_apply (c : Dev nD) (t : Fin cfg0.N) (prev : Vec Ideal S1x1024 .f32) (k : Fin 1024) :
    accStep V c t prev (ix2 (0 : Fin 1) k) = min (if t.val % 10 = 0 then ⊤ else prev (ix2 0 k)) (tileMin V c t k) := by
  unfold accStep
  by_cases h0 : t.val % 10 = 0
  · rw [dif_pos h0, if_pos h0, accFirst_eq, pay1_eq, pay4_apply, pay3_apply]
    rfl
  · rw [dif_neg h0, if_neg h0]
    by_cases h9 : t.val % 10 = 9
    · rw [dif_pos h9, accLast_eq, pay1_eq, pay4_apply]
      rfl
    · rw [dif_neg h9, accMid_eq, pay1_eq, pay4_apply]
      rfl

/-! ## A tile's points as points of its cloud -/

/-- The grid position of tile `j` of cloud `b`. -/
def pos (b j : ℕ) (hb : b < 8) (hj : j < 10) : Fin cfg0.N := ⟨10 * b + j, by rw [show cfg0.N = 80 from N_0]; omega⟩

/-- The column minimum of tile `j` of cloud `b` is the infimum of the clamped squared distances over points
    `2000 j … 2000 j + 1999` of the cloud. -/
theorem tileMin_pos (c : Dev nD) (b : Fin 8) (j : ℕ) (hj : j < 10) (k : Fin 1024) :
    tileMin V c (pos b.val j b.isLt hj) k
      = ⨅ r : Fin 2000, distAt V c b ⟨2000 * j + r.val, by have := r.isLt; omega⟩ k := by
  unfold tileMin distAt
  refine iInf_congr fun r => ?_
  have hX : ∀ d : Fin 3, tileX V c (pos b.val j b.isLt hj) (ix3 (0 : Fin 1) r d)
      = cloudAt V c (ix3 b (⟨2000 * j + r.val, by have := r.isLt; omega⟩ : Fin 20000) d) := fun d =>
    cloudBlk_apply V c (pos b.val j b.isLt hj) (ix3 (0 : Fin 1) r d) (ix3 b (⟨2000 * j + r.val, by have := r.isLt; omega⟩ : Fin 20000) d)
      (by show b.val = (10 * b.val + j) / 10; omega)
      (by show 2000 * j + r.val = 2000 * ((10 * b.val + j) % 10) + r.val; omega) rfl
  have hB : ∀ y : S3x1024.Idx, tileB V c (pos b.val j b.isLt hj) y = basisAt V c y := fun y =>
    basisBlk_apply V c (pos b.val j b.isLt hj) y
  simp only [hX, hB]

/-! ## The running minimum along a cloud -/

theorem accAt_congr (c : Dev nD) {n n' : ℕ} (e : n = n') (h : n < cfg0.N) (h' : n' < cfg0.N) :
    accAt V c n h = accAt V c n' h' := by
  subst e; rfl

/-- After tile `j` of cloud `b` the scratch row's entry of basis point `k` is the infimum of the column minima of the
    cloud's tiles `0 … j`. -/
theorem accAt_pos (c : Dev nD) (b : ℕ) (hb : b < 8) (k : Fin 1024) : ∀ (j : ℕ) (hj : j < 10),
    accAt V c (10 * b + j) (pos b j hb hj).isLt (ix2 (0 : Fin 1) k)
      = ⨅ s : Fin (j + 1), tileMin V c (pos b s.val hb (by have := s.isLt; omega)) k
  | 0, hj => by
    refine (congrFun (accAt_eq V c (pos b 0 hb hj)) (ix2 (0 : Fin 1) k)).trans ?_
    rw [accStep_apply, if_pos (show (pos b 0 hb hj).val % 10 = 0 by show (10 * b + 0) % 10 = 0; omega), min_eq_right le_top]
    refine le_antisymm (le_iInf fun s => le_of_eq ?_)
      (iInf_le (fun s : Fin (0 + 1) => tileMin V c (pos b s.val hb (by have := s.isLt; omega)) k) ⟨0, by omega⟩)
    have hs : s.val = 0 := by have := s.isLt; omega
    exact congrArg (fun t => tileMin V c t k) (Fin.ext (by show 10 * b + 0 = 10 * b + s.val; rw [hs]))
  | j + 1, hj => by
    refine (congrFun (accAt_eq V c (pos b (j + 1) hb hj)) (ix2 (0 : Fin 1) k)).trans ?_
    rw [accStep_apply, if_neg (show ¬(pos b (j + 1) hb hj).val % 10 = 0 by show ¬(10 * b + (j + 1)) % 10 = 0; omega)]
    have hprev : accBefore V c (pos b (j + 1) hb hj) (ix2 (0 : Fin 1) k)
        = ⨅ s : Fin (j + 1), tileMin V c (pos b s.val hb (by have := s.isLt; omega)) k := by
      unfold accBefore
      rw [dif_neg (show ¬(pos b (j + 1) hb hj).val = 0 by show ¬10 * b + (j + 1) = 0; omega)]
      refine (congrFun (accAt_congr V c (show (pos b (j + 1) hb hj).val - 1 = 10 * b + j by show 10 * b + (j + 1) - 1 = 10 * b + j; omega)
        _ (pos b j hb (by omega)).isLt) (ix2 (0 : Fin 1) k)).trans ?_
      exact accAt_pos c b hb k j (by omega)
    rw [hprev]
    exact (iInf_fin_succ_last (fun s : Fin (j + 1 + 1) => tileMin V c (pos b s.val hb (by have := s.isLt; omega)) k)).symm

/-! ## The result array -/

/-- At a cloud's last tile the result row is the square root of the scratch row the tile leaves. -/
theorem outAt_last (c : Dev nD) (t : Fin cfg0.N) (h9 : t.val % 10 = 9) :
    outAt V c t = k0_pay2 (accAt V c t.val t.isLt) := by
  rw [accAt_eq]
  unfold outAt accStep
  rw [dif_pos h9, dif_neg (show ¬t.val % 10 = 0 by omega), dif_pos h9, outLast_eq_of_accLast]

/-- The row index of an entry `(b, 0, k)` of the result array is `(0, 0, k)`. -/
theorem rowIdx_ix3 (b : Fin 8) (k : Fin 1024) : rowIdx (ix3 b (0 : Fin 1) k) = ix3 (0 : Fin 1) (0 : Fin 1) k := by
  funext a; apply Fin.ext
  match a with
  | ⟨0, _⟩ => rfl
  | ⟨1, _⟩ => rfl
  | ⟨2, _⟩ => rfl

/-- What the region leaves in the result array: at `(b, 0, k)` the square root of the infimum over the cloud's 20000
    points of the clamped squared distance to basis point `k`. -/
theorem featArr_apply (c : Dev nD) (b : Fin 8) (k : Fin 1024) :
    featArr V c (ix3 b (0 : Fin 1) k)
      = Ideal.sqrt (⨅ n : Fin 20000,
          max (((∑ d : Fin 3, cloudAt V c (ix3 b n d) * cloudAt V c (ix3 b n d)) + (∑ d : Fin 3, basisAt V c (ix2 d k) * basisAt V c (ix2 d k)))
            - Cert.Spec.two * (∑ d : Fin 3, cloudAt V c (ix3 b n d) * basisAt V c (ix2 d k))) 0) := by
  show outAt V c (lastPos b.val b.isLt) (rowIdx (ix3 b (0 : Fin 1) k)) = _
  rw [rowIdx_ix3, outAt_last V c (lastPos b.val b.isLt) (by show (10 * b.val + 9) % 10 = 9; omega), pay2_apply]
  refine congrArg Ideal.sqrt ?_
  refine (accAt_pos V c b.val b.isLt k 9 (by omega)).trans ?_
  refine Eq.trans ?_ (Cert.MinChain.iInf_tiles (fun n : Fin 20000 => distAt V c b n k))
  refine iInf_congr fun s => ?_
  exact tileMin_pos V c b s.val s.isLt k

end

end Cert.KernelIdeal.Hand

end
-- ==== Proof.KernelIdeal.Value0Spec.lean ====
/-
  The distance kernel's features against the specification.

  The region reads the cloud with its last two axes exchanged, `[8, 20000, 3]`, and the basis transposed, `[3, 1024]`.  When
  those two arrays are the exchanges of a cloud `X` and a basis `B`, the entry `(b, 0, k)` the region leaves in the result array
  is the specification's feature of cloud `b` at basis point `k`: the sums over the three coordinates and the infimum over the
  points are the same once each entry is read through its exchange.
-/
import proofs.«167137_j12017318494451_2_alg».proof.Proof.KernelIdeal.Value0
import proofs.«167137_j12017318494451_2_alg».proof.Proof.Spec

set_option maxRecDepth 16384

noncomputable section

open scoped BigOperators

namespace Cert.KernelIdeal.Hand

open Cert.KernelIdeal Cert.KernelIdeal.Gen Cert.KernelIdeal.PayloadValue
open Idealize.ShloMosaic Idealize.ShloMosaic.TcCoe Idealize.ShloMosaic.ValueIdx
open Idealize.SL Idealize.SL.Sem

section
variable (V : (c : Dev nD) → (b : Ref sig .tc) → Buf (Elt Ideal) ((c : Thread nD τ).loc b))

/-- The features the region leaves are the specification's, when the arrays it reads are the exchanged cloud and basis. -/
theorem featArr_spec (c : Dev nD) (X : Cert.Spec.Cloud) (B : Cert.Spec.Basis)
    (hX : ∀ (b : Fin 8) (n : Fin 20000) (d : Fin 3), cloudAt V c (ix3 b n d) = X (ix3 b d n))
    (hB : ∀ (d : Fin 3) (k : Fin 1024), basisAt V c (ix2 d k) = B (ix2 k d)) (b : Fin 8) (k : Fin 1024) :
    featArr V c (ix3 b (0 : Fin 1) k) = Cert.Spec.feat X B b k := by
  rw [featArr_apply]
  unfold Cert.Spec.feat Cert.Spec.dist2 Cert.Spec.ptSq Cert.Spec.basisSq Cert.Spec.inner
  refine congrArg Ideal.sqrt (iInf_congr fun n => ?_)
  simp only [hX, hB]

end

end Cert.KernelIdeal.Hand

end
-- ==== Proof.KernelIdeal.Result.lean ====
/-
  The kernel program's result on the extended reals.  Read backwards from the end: the result is the network region's
  array plus the broadcast output bias; the network region's array is the body's stored value of the feature array and the
  reshaped parameters; the feature array is the distance region's result array, reshaped; row b of that is the square root
  of the running minimum after cloud b's last tile, which is the infimum over all 20000 points of the clamped squared
  distance, the cloud and the basis entering through their transposes.  Altogether: Cert.Spec.result of the arguments.
-/
import proofs.«167137_j12017318494451_2_alg».proof.Proof.KernelIdeal.Run
import proofs.«167137_j12017318494451_2_alg».proof.Proof.KernelIdeal.Final0
import proofs.«167137_j12017318494451_2_alg».proof.Proof.KernelIdeal.Final1
import proofs.«167137_j12017318494451_2_alg».proof.Proof.KernelIdeal.MlpValue
import proofs.«167137_j12017318494451_2_alg».proof.Proof.KernelIdeal.HostReads
import proofs.«167137_j12017318494451_2_alg».proof.Proof.KernelIdeal.HostReadsB
import proofs.«167137_j12017318494451_2_alg».proof.Proof.KernelIdeal.Value0Spec

set_option maxRecDepth 16384

noncomputable section

namespace Cert.KernelIdeal.Hand

open Cert.KernelIdeal Cert.KernelIdeal.Gen Cert.KernelIdeal.PayloadValue
open Idealize.ShloMosaic Idealize.ShloMosaic.TcCoe Idealize.ShloMosaic.ValueIdx Idealize.SL.Sem

variable (m : (ℓ : Loc nD τ sig) → Buf (Elt Ideal) ℓ) (ρ : Dev nD → PrngReg)

/-- The network region's feature operand is the specification's feature array. -/
theorem feat_eq (c : Dev nD) (b : Fin 8) (k : Fin 1024) :
    (Ve3 m ρ c main_v3 : Vec Ideal S8x1024 .f32) (ix2 b k) = Cert.Spec.feat (m ((c : Thread nD τ).loc main_arg0)) (m ((c : Thread nD τ).loc main_arg1)) b k := by
  rw [Ve3_v3, show W2 m ρ c (Proc.devRef .tc main_v2) = featArr (Ve1 m ρ) c from (W2_arr m ρ c 2).trans (final0 (Ve1 m ρ) c)]
  exact featArr_spec (Ve1 m ρ) c _ _
    (fun b n d => (Ve1_v0 m ρ c (ix3 b n d)).trans (congrArg _ (funext fun a => by
      match a with
      | ⟨0, _⟩ => rfl
      | ⟨1, _⟩ => rfl
      | ⟨2, _⟩ => rfl)))
    (fun d k => (Ve1_v1 m ρ c (ix2 d k)).trans (congrArg _ (funext fun a => by
      match a with
      | ⟨0, _⟩ => rfl
      | ⟨1, _⟩ => rfl)))
    b k

/-- The two normalisations' parameter rows are the arguments, reshaped. -/
theorem norm1_eq (c : Dev nD) (k : Fin 1024) (x : EReal) :
    normRow (Ve3 m ρ c main_v4) (Ve3 m ρ c main_v5) (Ve3 m ρ c main_v6) (Ve3 m ρ c main_v7) k x
      = Cert.Spec.norm (m ((c : Thread nD τ).loc main_arg2)) (m ((c : Thread nD τ).loc main_arg3)) (m ((c : Thread nD τ).loc main_arg4)) (m ((c : Thread nD τ).loc main_arg5)) k x :=
  normRow_eq_norm _ _ _ _ _ _ _ _ (fun k => Ve3_v4 m ρ c (ix2 0 k)) (fun k => Ve3_v5 m ρ c (ix2 0 k))
    (fun k => Ve3_v6 m ρ c (ix2 0 k)) (fun k => Ve3_v7 m ρ c (ix2 0 k)) k x
theorem norm2_eq (c : Dev nD) (k : Fin 1024) (x : EReal) :
    normRow (Ve3 m ρ c main_v9) (Ve3 m ρ c main_v10) (Ve3 m ρ c main_v11) (Ve3 m ρ c main_v12) k x
      = Cert.Spec.norm (m ((c : Thread nD τ).loc main_arg8)) (m ((c : Thread nD τ).loc main_arg9)) (m ((c : Thread nD τ).loc main_arg10)) (m ((c : Thread nD τ).loc main_arg11)) k x :=
  normRow_eq_norm _ _ _ _ _ _ _ _ (fun k => Ve3_v9 m ρ c (ix2 0 k)) (fun k => Ve3_v10 m ρ c (ix2 0 k))
    (fun k => Ve3_v11 m ρ c (ix2 0 k)) (fun k => Ve3_v12 m ρ c (ix2 0 k)) k x

/-- The kernel program's result array is the specification's function of the arguments. -/
theorem result_value (c : Dev nD) :
    W5 m ρ c (Proc.devRef .tc main_v16) = Cert.Spec.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  funext i
  obtain ⟨b, z, rfl⟩ : ∃ (b : Fin 8) (z : Fin 1), i = ix2 b z := ⟨i 0, i 1, eq_ix2 i⟩
  obtain rfl : z = 0 := Subsingleton.elim _ _
  rw [W5_v16, show W4 m ρ c (Proc.devRef .tc main_v13) = mlpArr (Ve3 m ρ) c from (W4_arr m ρ c 12).trans (final1 (Ve3 m ρ) c)]
  unfold mlpArr
  rw [out1_12_apply]
  have hin : ∀ j : Fin 1024,
      (∑ k : Fin 1024, normRow (Ve3 m ρ c main_v4) (Ve3 m ρ c main_v5) (Ve3 m ρ c main_v6) (Ve3 m ρ c main_v7) k
          ((Ve3 m ρ c main_v3 : Vec Ideal S8x1024 .f32) (ix2 b k)) * (Ve3 m ρ c main_arg6 : Vec Ideal S1024x1024 .f32) (ix2 j k))
        = ∑ k : Fin 1024, Cert.Spec.norm (m ((c : Thread nD τ).loc main_arg2)) (m ((c : Thread nD τ).loc main_arg3)) (m ((c : Thread nD τ).loc main_arg4)) (m ((c : Thread nD τ).loc main_arg5)) k (Cert.Spec.feat (m ((c : Thread nD τ).loc main_arg0)) (m ((c : Thread nD τ).loc main_arg1)) b k) * (m ((c : Thread nD τ).loc main_arg6)) (ix2 j k) :=
    fun j => Finset.sum_congr rfl fun k _ => by rw [norm1_eq, feat_eq, Ve3_arg6]
  have hout : ∀ j : Fin 1024,
      normRow (Ve3 m ρ c main_v9) (Ve3 m ρ c main_v10) (Ve3 m ρ c main_v11) (Ve3 m ρ c main_v12) j
          (max ((∑ k : Fin 1024, normRow (Ve3 m ρ c main_v4) (Ve3 m ρ c main_v5) (Ve3 m ρ c main_v6) (Ve3 m ρ c main_v7) k
              ((Ve3 m ρ c main_v3 : Vec Ideal S8x1024 .f32) (ix2 b k)) * (Ve3 m ρ c main_arg6 : Vec Ideal S1024x1024 .f32) (ix2 j k))
            + (Ve3 m ρ c main_v8 : Vec Ideal S1x1024 .f32) (ix2 0 j)) 0) * (Ve3 m ρ c main_arg12 : Vec Ideal S1x1024 .f32) (ix2 0 j)
        = Cert.Spec.norm (m ((c : Thread nD τ).loc main_arg8)) (m ((c : Thread nD τ).loc main_arg9)) (m ((c : Thread nD τ).loc main_arg10)) (m ((c : Thread nD τ).loc main_arg11)) j
            (Cert.Spec.hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) b j) * (m ((c : Thread nD τ).loc main_arg12)) (ix2 0 j) :=
    fun j => by rw [norm2_eq, hin j, Ve3_v8, Ve3_arg12]; rfl
  exact congrArg (· + (m ((c : Thread nD τ).loc main_arg13)) (ix1 0)) (Finset.sum_congr rfl fun j _ => hout j)

end Cert.KernelIdeal.Hand

end
-- ==== Proof.KernelIdeal.ArgsKept.lean ====
/-
  The arguments end as launched.  No host operation writes an argument's buffer, and no region does: the distance
  region's arrays are the two transposed copies and its output; the network region reads the first weight matrix and
  the last weight row through input windows, whose arrays are never written back, and every other argument is none of
  its arrays.  So the last boundary's contents at an argument's buffer walk back, boundary by boundary, to the launch
  memory.
-/
import proofs.«167137_j12017318494451_2_alg».proof.Proof.KernelIdeal.Run

set_option maxHeartbeats 4000000
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

theorem W5_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_forall_not_mem (b := Proc.devRef .tc main_arg0) _ _ (List.forall_iff_forall_mem.mp (by
          simp only [hostOps2, List.Forall, StableHlo.unary_writes, StableHlo.binary_writes, StableHlo.reshape_writes, Finset.mem_singleton]
          repeat' apply And.intro
          all_goals exact StableHlo.devRef_ne_of_ne (by decide)))
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.Forall, StableHlo.unary_writes, StableHlo.binary_writes, StableHlo.reshape_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.Forall, StableHlo.unary_writes, StableHlo.binary_writes, StableHlo.reshape_writes, Finset.mem_singleton]
          repeat' apply And.intro
          all_goals exact StableHlo.devRef_ne_of_ne (by decide)))
    _ = m ((c : Thread nD τ).loc main_arg0) := rfl

theorem W5_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_forall_not_mem (b := Proc.devRef .tc main_arg1) _ _ (List.forall_iff_forall_mem.mp (by
          simp only [hostOps2, List.Forall, StableHlo.unary_writes, StableHlo.binary_writes, StableHlo.reshape_writes, Finset.mem_singleton]
          repeat' apply And.intro
          all_goals exact StableHlo.devRef_ne_of_ne (by decide)))
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.Forall, StableHlo.unary_writes, StableHlo.binary_writes, StableHlo.reshape_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.Forall, StableHlo.unary_writes, StableHlo.binary_writes, StableHlo.reshape_writes, Finset.mem_singleton]
          repeat' apply And.intro
          all_goals exact StableHlo.devRef_ne_of_ne (by decide)))
    _ = m ((c : Thread nD τ).loc main_arg1) := rfl

theorem W5_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_forall_not_mem (b := Proc.devRef .tc main_arg2) _ _ (List.forall_iff_forall_mem.mp (by
          simp only [hostOps2, List.Forall, StableHlo.unary_writes, StableHlo.binary_writes, StableHlo.reshape_writes, Finset.mem_singleton]
          repeat' apply And.intro
          all_goals exact StableHlo.devRef_ne_of_ne (by decide)))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.Forall, StableHlo.unary_writes, StableHlo.binary_writes, StableHlo.reshape_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.Forall, StableHlo.unary_writes, StableHlo.binary_writes, StableHlo.reshape_writes, Finset.mem_singleton]
          repeat' apply And.intro
          all_goals exact StableHlo.devRef_ne_of_ne (by decide)))
    _ = m ((c : Thread nD τ).loc main_arg2) := rfl

theorem W5_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_forall_not_mem (b := Proc.devRef .tc main_arg3) _ _ (List.forall_iff_forall_mem.mp (by
          simp only [hostOps2, List.Forall, StableHlo.unary_writes, StableHlo.binary_writes, StableHlo.reshape_writes, Finset.mem_singleton]
          repeat' apply And.intro
          all_goals exact StableHlo.devRef_ne_of_ne (by decide)))
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.Forall, StableHlo.unary_writes, StableHlo.binary_writes, StableHlo.reshape_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.Forall, StableHlo.unary_writes, StableHlo.binary_writes, StableHlo.reshape_writes, Finset.mem_singleton]
          repeat' apply And.intro
          all_goals exact StableHlo.devRef_ne_of_ne (by decide)))
    _ = m ((c : Thread nD τ).loc main_arg3) := rfl

theorem W5_arg4 (c : Dev nD) : W5 m ρ c (Proc.devRef .tc main_arg4) = m ((c : Thread nD τ).loc main_arg4) :=
  calc W5 m ρ c (Proc.devRef .tc main_arg4)
    _ = W4 m ρ c (Proc.devRef .tc main_arg4) := StableHlo.after_of_forall_not_mem (b := Proc.devRef .tc main_arg4) _ _ (List.forall_iff_forall_mem.mp (by
          simp only [hostOps2, List.Forall, StableHlo.unary_writes, StableHlo.binary_writes, StableHlo.reshape_writes, Finset.mem_singleton]
          repeat' apply And.intro
          all_goals exact StableHlo.devRef_ne_of_ne (by decide)))
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.Forall, StableHlo.unary_writes, StableHlo.binary_writes, StableHlo.reshape_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.Forall, StableHlo.unary_writes, StableHlo.binary_writes, StableHlo.reshape_writes, Finset.mem_singleton]
          repeat' apply And.intro
          all_goals exact StableHlo.devRef_ne_of_ne (by decide)))
    _ = m ((c : Thread nD τ).loc main_arg4) := rfl

theorem W5_arg5 (c : Dev nD) : W5 m ρ c (Proc.devRef .tc main_arg5) = m ((c : Thread nD τ).loc main_arg5) :=
  calc W5 m ρ c (Proc.devRef .tc main_arg5)
    _ = W4 m ρ c (Proc.devRef .tc main_arg5) := StableHlo.after_of_forall_not_mem (b := Proc.devRef .tc main_arg5) _ _ (List.forall_iff_forall_mem.mp (by
          simp only [hostOps2, List.Forall, StableHlo.unary_writes, StableHlo.binary_writes, StableHlo.reshape_writes, Finset.mem_singleton]
          repeat' apply And.intro
          all_goals exact StableHlo.devRef_ne_of_ne (by decide)))
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps1, List.Forall, StableHlo.unary_writes, StableHlo.binary_writes, StableHlo.reshape_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.Forall, StableHlo.unary_writes, StableHlo.binary_writes, StableHlo.reshape_writes, Finset.mem_singleton]
          repeat' apply And.intro
          all_goals exact StableHlo.devRef_ne_of_ne (by decide)))
    _ = m ((c : Thread nD τ).loc main_arg5) := rfl

theorem W5_arg6 (c : Dev nD) : W5 m ρ c (Proc.devRef .tc main_arg6) = m ((c : Thread nD τ).loc main_arg6) :=
  calc W5 m ρ c (Proc.devRef .tc main_arg6)
    _ = W4 m ρ c (Proc.devRef .tc main_arg6) := StableHlo.after_of_forall_not_mem (b := Proc.devRef .tc main_arg6) _ _ (List.forall_iff_forall_mem.mp (by
          simp only [hostOps2, List.Forall, StableHlo.unary_writes, StableHlo.binary_writes, StableHlo.reshape_writes, Finset.mem_singleton]
          repeat' apply And.intro
          all_goals exact StableHlo.devRef_ne_of_ne (by decide)))
    _ = W3 m ρ c (Proc.devRef .tc main_arg6) := (W4_arr m ρ c 5).trans (((dat1 (Ve3 m ρ) c).arrAt_in 5 rfl _).trans (A_eq1 (Ve3 m ρ) c 5))
    _ = W2 m ρ c (Proc.devRef .tc main_arg6) := StableHlo.after_of_forall_not_mem (b := Proc.devRef .tc main_arg6) _ _ (List.forall_iff_forall_mem.mp (by
          simp only [hostOps1, List.Forall, StableHlo.unary_writes, StableHlo.binary_writes, StableHlo.reshape_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.Forall, StableHlo.unary_writes, StableHlo.binary_writes, StableHlo.reshape_writes, Finset.mem_singleton]
          repeat' apply And.intro
          all_goals exact StableHlo.devRef_ne_of_ne (by decide)))
    _ = m ((c : Thread nD τ).loc main_arg6) := rfl

theorem W5_arg7 (c : Dev nD) : W5 m ρ c (Proc.devRef .tc main_arg7) = m ((c : Thread nD τ).loc main_arg7) :=
  calc W5 m ρ c (Proc.devRef .tc main_arg7)
    _ = W4 m ρ c (Proc.devRef .tc main_arg7) := StableHlo.after_of_forall_not_mem (b := Proc.devRef .tc main_arg7) _ _ (List.forall_iff_forall_mem.mp (by
          simp only [hostOps2, List.Forall, StableHlo.unary_writes, StableHlo.binary_writes, StableHlo.reshape_writes, Finset.mem_singleton]
          repeat' apply And.intro
          all_goals exact StableHlo.devRef_ne_of_ne (by decide)))
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps1, List.Forall, StableHlo.unary_writes, StableHlo.binary_writes, StableHlo.reshape_writes, Finset.mem_singleton]
          repeat' apply And.intro
          all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.Forall, StableHlo.unary_writes, StableHlo.binary_writes, StableHlo.reshape_writes, Finset.mem_singleton]
          repeat' apply And.intro
          all_goals exact StableHlo.devRef_ne_of_ne (by decide)))
    _ = m ((c : Thread nD τ).loc main_arg7) := rfl

theorem W5_arg8 (c : Dev nD) : W5 m ρ c (Proc.devRef .tc main_arg8) = m ((c : Thread nD τ).loc main_arg8) :=
  calc W5 m ρ c (Proc.devRef .tc main_arg8)
    _ = W4 m ρ c (Proc.devRef .tc main_arg8) := StableHlo.after_of_forall_not_mem (b := Proc.devRef .tc main_arg8) _ _ (List.forall_iff_forall_mem.mp (by
          simp only [hostOps2, List.Forall, StableHlo.unary_writes, StableHlo.binary_writes, StableHlo.reshape_writes, Finset.mem_singleton]
          repeat' apply And.intro
          all_goals exact StableHlo.devRef_ne_of_ne (by decide)))
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps1, List.Forall, StableHlo.unary_writes, StableHlo.binary_writes, StableHlo.reshape_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.Forall, StableHlo.unary_writes, StableHlo.binary_writes, StableHlo.reshape_writes, Finset.mem_singleton]
          repeat' apply And.intro
          all_goals exact StableHlo.devRef_ne_of_ne (by decide)))
    _ = m ((c : Thread nD τ).loc main_arg8) := rfl

theorem W5_arg9 (c : Dev nD) : W5 m ρ c (Proc.devRef .tc main_arg9) = m ((c : Thread nD τ).loc main_arg9) :=
  calc W5 m ρ c (Proc.devRef .tc main_arg9)
    _ = W4 m ρ c (Proc.devRef .tc main_arg9) := StableHlo.after_of_forall_not_mem (b := Proc.devRef .tc main_arg9) _ _ (List.forall_iff_forall_mem.mp (by
          simp only [hostOps2, List.Forall, StableHlo.unary_writes, StableHlo.binary_writes, StableHlo.reshape_writes, Finset.mem_singleton]
          repeat' apply And.intro
          all_goals exact StableHlo.devRef_ne_of_ne (by decide)))
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
          simp only [hostOps1, List.Forall, StableHlo.unary_writes, StableHlo.binary_writes, StableHlo.reshape_writes, Finset.mem_singleton]
          repeat' apply And.intro
          all_goals exact StableHlo.devRef_ne_of_ne (by decide)))
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.Forall, StableHlo.unary_writes, StableHlo.binary_writes, StableHlo.reshape_writes, Finset.mem_singleton]
          repeat' apply And.intro
          all_goals exact StableHlo.devRef_ne_of_ne (by decide)))
    _ = m ((c : Thread nD τ).loc main_arg9) := rfl

theorem W5_arg10 (c : Dev nD) : W5 m ρ c (Proc.devRef .tc main_arg10) = m ((c : Thread nD τ).loc main_arg10) :=
  calc W5 m ρ c (Proc.devRef .tc main_arg10)
    _ = W4 m ρ c (Proc.devRef .tc main_arg10) := StableHlo.after_of_forall_not_mem (b := Proc.devRef .tc main_arg10) _ _ (List.forall_iff_forall_mem.mp (by
          simp only [hostOps2, List.Forall, StableHlo.unary_writes, StableHlo.binary_writes, StableHlo.reshape_writes, Finset.mem_singleton]
          repeat' apply And.intro
          all_goals exact StableHlo.devRef_ne_of_ne (by decide)))
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
          simp only [hostOps1, List.Forall, StableHlo.unary_writes, StableHlo.binary_writes, StableHlo.reshape_writes, Finset.mem_singleton]
          repeat' apply And.intro
          all_goals exact StableHlo.devRef_ne_of_ne (by decide)))
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.Forall, StableHlo.unary_writes, StableHlo.binary_writes, StableHlo.reshape_writes, Finset.mem_singleton]
          repeat' apply And.intro
          all_goals exact StableHlo.devRef_ne_of_ne (by decide)))
    _ = m ((c : Thread nD τ).loc main_arg10) := rfl

theorem W5_arg11 (c : Dev nD) : W5 m ρ c (Proc.devRef .tc main_arg11) = m ((c : Thread nD τ).loc main_arg11) :=
  calc W5 m ρ c (Proc.devRef .tc main_arg11)
    _ = W4 m ρ c (Proc.devRef .tc main_arg11) := StableHlo.after_of_forall_not_mem (b := Proc.devRef .tc main_arg11) _ _ (List.forall_iff_forall_mem.mp (by
          simp only [hostOps2, List.Forall, StableHlo.unary_writes, StableHlo.binary_writes, StableHlo.reshape_writes, Finset.mem_singleton]
          repeat' apply And.intro
          all_goals exact StableHlo.devRef_ne_of_ne (by decide)))
    _ = W3 m ρ c (Proc.devRef .tc main_arg11) := W4_of_ne m ρ c main_arg11 (by decide)
    _ = W2 m ρ c (Proc.devRef .tc main_arg11) := StableHlo.after_of_forall_not_mem (b := Proc.devRef .tc main_arg11) _ _ (List.forall_iff_forall_mem.mp (by
          simp only [hostOps1, List.Forall, StableHlo.unary_writes, StableHlo.binary_writes, StableHlo.reshape_writes, Finset.mem_singleton]
          repeat' apply And.intro
          all_goals exact StableHlo.devRef_ne_of_ne (by decide)))
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.Forall, StableHlo.unary_writes, StableHlo.binary_writes, StableHlo.reshape_writes, Finset.mem_singleton]
          repeat' apply And.intro
          all_goals exact StableHlo.devRef_ne_of_ne (by decide)))
    _ = m ((c : Thread nD τ).loc main_arg11) := rfl

theorem W5_arg12 (c : Dev nD) : W5 m ρ c (Proc.devRef .tc main_arg12) = m ((c : Thread nD τ).loc main_arg12) :=
  calc W5 m ρ c (Proc.devRef .tc main_arg12)
    _ = W4 m ρ c (Proc.devRef .tc main_arg12) := StableHlo.after_of_forall_not_mem (b := Proc.devRef .tc main_arg12) _ _ (List.forall_iff_forall_mem.mp (by
          simp only [hostOps2, List.Forall, StableHlo.unary_writes, StableHlo.binary_writes, StableHlo.reshape_writes, Finset.mem_singleton]
          repeat' apply And.intro
          all_goals exact StableHlo.devRef_ne_of_ne (by decide)))
    _ = W3 m ρ c (Proc.devRef .tc main_arg12) := (W4_arr m ρ c 11).trans (((dat1 (Ve3 m ρ) c).arrAt_in 11 rfl _).trans (A_eq1 (Ve3 m ρ) c 11))
    _ = W2 m ρ c (Proc.devRef .tc main_arg12) := StableHlo.after_of_forall_not_mem (b := Proc.devRef .tc main_arg12) _ _ (List.forall_iff_forall_mem.mp (by
          simp only [hostOps1, List.Forall, StableHlo.unary_writes, StableHlo.binary_writes, StableHlo.reshape_writes, Finset.mem_singleton]
          repeat' apply And.intro
          all_goals exact StableHlo.devRef_ne_of_ne (by decide)))
    _ = W1 m ρ c (Proc.devRef .tc main_arg12) := W2_of_ne m ρ c main_arg12 (by decide)
    _ = W0 m ρ c (Proc.devRef .tc main_arg12) := StableHlo.after_of_forall_not_mem (b := Proc.devRef .tc main_arg12) _ _ (List.forall_iff_forall_mem.mp (by
          simp only [hostOps0, List.Forall, StableHlo.unary_writes, StableHlo.binary_writes, StableHlo.reshape_writes, Finset.mem_singleton]
          repeat' apply And.intro
          all_goals exact StableHlo.devRef_ne_of_ne (by decide)))
    _ = m ((c : Thread nD τ).loc main_arg12) := rfl

theorem W5_arg13 (c : Dev nD) : W5 m ρ c (Proc.devRef .tc main_arg13) = m ((c : Thread nD τ).loc main_arg13) :=
  calc W5 m ρ c (Proc.devRef .tc main_arg13)
    _ = W4 m ρ c (Proc.devRef .tc main_arg13) := StableHlo.after_of_forall_not_mem (b := Proc.devRef .tc main_arg13) _ _ (List.forall_iff_forall_mem.mp (by
          simp only [hostOps2, List.Forall, StableHlo.unary_writes, StableHlo.binary_writes, StableHlo.reshape_writes, Finset.mem_singleton]
          repeat' apply And.intro
          all_goals exact StableHlo.devRef_ne_of_ne (by decide)))
    _ = W3 m ρ c (Proc.devRef .tc main_arg13) := W4_of_ne m ρ c main_arg13 (by decide)
    _ = W2 m ρ c (Proc.devRef .tc main_arg13) := StableHlo.after_of_forall_not_mem (b := Proc.devRef .tc main_arg13) _ _ (List.forall_iff_forall_mem.mp (by
          simp only [hostOps1, List.Forall, StableHlo.unary_writes, StableHlo.binary_writes, StableHlo.reshape_writes, Finset.mem_singleton]
          repeat' apply And.intro
          all_goals exact StableHlo.devRef_ne_of_ne (by decide)))
    _ = W1 m ρ c (Proc.devRef .tc main_arg13) := W2_of_ne m ρ c main_arg13 (by decide)
    _ = W0 m ρ c (Proc.devRef .tc main_arg13) := StableHlo.after_of_forall_not_mem (b := Proc.devRef .tc main_arg13) _ _ (List.forall_iff_forall_mem.mp (by
          simp only [hostOps0, List.Forall, StableHlo.unary_writes, StableHlo.binary_writes, StableHlo.reshape_writes, Finset.mem_singleton]
          repeat' apply And.intro
          all_goals exact StableHlo.devRef_ne_of_ne (by decide)))
    _ = m ((c : Thread nD τ).loc main_arg13) := rfl

end Cert.KernelIdeal.Hand

end
-- ==== Proof.Kernel.R0Base.lean ====
/-
  The distance kernel's region (the first of the program's two kernel regions): the names its frame is stated over.

  The region runs the kernel body over a grid of 8 clouds by 10 tiles of 2000 points.  The body sees a tile of the
  cloud (window 0), the transposed basis (window 1, fetched once), the cloud's row of the result (window 2) and a
  scratch row carrying the running minimum from tile to tile.  At a cloud's first tile the scratch is reset to
  +infinity; at every tile the tile's column minima are folded into it; at the cloud's last tile its square root is
  stored into the result row, which is written back only there and is idle at the other tiles.

  Here: a window's block read off the array the region finds; the two branch conditions of the body in closed form
  over the grid (first tile: position = 0 mod 10; last tile: position = 9 mod 10); where the result window is idle
  and where it is written back; the staging memrefs and the scratch as the pipeline passes them.
-/
import proofs.«167137_j12017318494451_2_alg».proof.Proof.Gen.Kernel.Launch
import proofs.«167137_j12017318494451_2_alg».proof.Proof.Gen.Kernel.Skeleton
import proofs.«167137_j12017318494451_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at grid position `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The cloud window's staging buffer holds the position's tile whenever the body runs, for any proof data over the
    entry contents whose body leaves the tile in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The basis window's staging buffer holds the basis whenever the body runs: fetched once, its block never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
end

/-! ## The body's two branch conditions over the grid -/

/-- "This is the cloud's first tile": the reset of the running minimum. -/
abbrev isFirst (i : grid0.Coords) : Prop :=
  (Scalar.cmpi .ne (Scalar.extui (Scalar.cmpi .eq (BitVec.ofNat 32 (i 1).val) 0#32)) 0#32) = 1#1
theorem isFirst_iff : ∀ t : Fin cfg0.N, isFirst (grid0.coords t) ↔ t.val % 10 = 0 :=
  (by decide +kernel : ∀ t : Fin grid0.N, isFirst (grid0.coords t) ↔ t.val % 10 = 0)

/-- "This is the cloud's last tile": the square root is stored into the result row. -/
abbrev isLast (i : grid0.Coords) : Prop := k0_cond2 i = 1#1
theorem isLast_iff : ∀ t : Fin cfg0.N, isLast (grid0.coords t) ↔ t.val % 10 = 9 :=
  (by decide +kernel : ∀ t : Fin grid0.N, isLast (grid0.coords t) ↔ t.val % 10 = 9)

/-! ## Where the result window is idle, and where it is written back -/

theorem idle_out_of_not_last : ∀ t : Fin cfg0.N, ¬isLast (grid0.coords t) → cfg0.idle 2 (grid0.coords t) = true := by decide +kernel
theorem noFlush_out_of_not_last : ∀ t : Fin cfg0.N, ¬isLast (grid0.coords t) → (cfg0.win 2).flush t = false := by decide +kernel
theorem live_out_of_last : ∀ t : Fin cfg0.N, isLast (grid0.coords t) → cfg0.idle 2 (grid0.coords t) = false := by decide +kernel
theorem live_in0 : ∀ t : Fin cfg0.N, cfg0.idle 0 (grid0.coords t) = false := by decide +kernel
theorem live_in1 : ∀ t : Fin cfg0.N, cfg0.idle 1 (grid0.coords t) = false := by decide +kernel

/-! ## The memrefs the body is called with -/

abbrev mX (t : Fin cfg0.N) : Memref sig .tc .vmem S1x2000x3 .f32 := win0_0.stage (cfg0.slots t 0)
abbrev hX (t : Fin cfg0.N) : (mX t).IsWhole := hstage0_0 ((cfg0.slots t 0).cast nbuf0_0)
abbrev mB (t : Fin cfg0.N) : Memref sig .tc .vmem S3x1024 .f32 := win0_1.stage (cfg0.slots t 1)
abbrev hB (t : Fin cfg0.N) : (mB t).IsWhole := hstage0_1 ((cfg0.slots t 1).cast nbuf0_1)
abbrev mO (t : Fin cfg0.N) : Memref sig .tc .vmem S1x1x1024 .f32 := win0_2.stage (cfg0.slots t 2)
abbrev hO (t : Fin cfg0.N) : (mO t).IsWhole := hstage0_2 ((cfg0.slots t 2).cast nbuf0_2)
/-- The scratch row: a whole scoped buffer of the kernel's own. -/
abbrev mS : Memref sig .tc .vmem S1x1024 .f32 := Memref.whole cc0_scratch0
/-- The views through which the scratch's and the result row's contents are stated. -/
abbrev vS : View sig .tc .vmem S1x1024 .f32 := mS.view
abbrev vO : View sig .tc .vmem S1x1x1024 .f32 := (Memref.whole cc0_stg2_0 : Memref sig .tc .vmem S1x1x1024 .f32).view

/-- The second region's staging buffers, which this region never touches: each whole at some contents. -/
def otherStaging (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg9_0), ((c : Thread nD τ).loc cc1_stg9_0) ↦{fullShare} f) ∗ (∃ f : Buf (Elt F) ((c : Thread nD τ).loc cc1_stg10_0), ((c : Thread nD τ).loc cc1_stg10_0) ↦{fullShare} f) ∗ (∃ f : Buf (Elt F) ((c : Thread nD τ).loc cc1_stg11_0), ((c : Thread nD τ).loc cc1_stg11_0) ↦{fullShare} f) ∗ (∃ f : Buf (Elt F) ((c : Thread nD τ).loc cc1_stg12_0), ((c : Thread nD τ).loc cc1_stg12_0) ↦{fullShare} f))

/-- The class invariant of this region: the scratch row at some contents, the second region's staging buffers at
    some contents, and the generator register at some state. -/
theorem PhiA0_eq (c : Dev nD) :
    (Pipeline.ΦA spec0 c : sProp 𝕄)
      = iprop(iprop((∃ d, owns (c : Thread nD τ) mS fullShare d) ∗ otherStaging (F := F) c) ∗ (∃ r, prngReg c r)) := by
  unfold Pipeline.ΦA otherStaging; rw [scopedRest0_eq]; simp only [mS, owns_whole]; try rfl

end Cert.Kernel.Hand

end
-- ==== Proof.Kernel.R0RunFirst.lean ====
/-
  The distance kernel's body, run once at a cloud's first tile (the running minimum is reset, the result row left alone): on whole staging memrefs holding a tile of the cloud, the basis and the
  result row, and the scratch row, every step of the body goes through and the continuation is reached with the inputs as
  they were and each buffer the body stored into at its stores written over what it held, last store first.  The list of
  stores is found by running the body; what matters of it later is only that it covers the buffer.
-/
import proofs.«167137_j12017318494451_2_alg».proof.Proof.Kernel.R0Base

set_option maxHeartbeats 4000000
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body at a first tile: the scratch, at anything, ends at the stores `LS` (the reset, then the fold of the tile's
    minima); the result row `xo` is handed back untouched. -/
noncomputable def runFirst (c : Dev nD) (i : grid0.Coords) (arg2 : Memref sig .tc .vmem S1x2000x3 .f32) (harg2 : arg2.IsWhole) (arg3 : Memref sig .tc .vmem S3x1024 .f32) (harg3 : arg3.IsWhole) (arg4 : Memref sig .tc .vmem S1x1x1024 .f32) (harg4 : arg4.IsWhole) (arg5 : Memref sig .tc .vmem S1x1024 .f32) (harg5 : arg5.IsWhole) (hf : isFirst i) (hl : ¬isLast i)
    (x0 : Vec F S1x2000x3 .f32) (x1 : Vec F S3x1024 .f32) :
    { LS : List (View.Piece (Elt F) S1x1024 .f32) //
      ∀ (xo : Vec F S1x1x1024 .f32) (E : Set ℕ) (K : PUnit → sProp 𝕄),
        iprop(owns (c : Thread nD τ) arg2 fullShare x0 ∗ owns (c : Thread nD τ) arg3 fullShare x1 ∗ owns (c : Thread nD τ) arg4 fullShare xo ∗ (∃ d, owns (c : Thread nD τ) arg5 fullShare d)
            ∗ (iprop(owns (c : Thread nD τ) arg2 fullShare x0 ∗ owns (c : Thread nD τ) arg3 fullShare x1 ∗ owns (c : Thread nD τ) arg4 fullShare xo ∗ (∃ f, arg5.view.loc (c : Thread nD τ) ↦[arg5.view.set]{fullShare} arg5.view.writes (Elt F) f LS)) -∗ K ⟨⟩))
          ⊢ wp frame (wpE (defs₀ (F := F)) Variants.none c none) E (cc0__bps_kernel i arg2 harg2 arg3 harg3 arg4 harg4 arg5 harg5) K } := by
  refine ⟨?_, fun xo E K => ?run⟩
  case run =>
    simp only [cc0__bps_kernel_eq_skeleton]; unfold cc0__bps_kernel_skel
    simp only [k0_part1_eq_skeleton]
    unfold owns
    iintro ⟨⟨%f0, %hf0, H0⟩, ⟨%f1, %hf1, H1⟩, ⟨%fo, %hfo, HO⟩, ⟨%ds, %fs, -, HS⟩, Hk⟩
    obtain rfl := harg2.eq_unread hf0; obtain rfl := harg3.eq_unread hf1; obtain rfl := harg4.eq_unread hfo
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [HO]
    · iexists _; isplitr; · ipureintro; exact harg4.read_unread _
      iexact HO
    iexists _; iexact HS

end Cert.Kernel.Hand

end
-- ==== Proof.Kernel.R0RunMid.lean ====
/-
  The distance kernel's body, run once at a tile that is neither a cloud's first nor its last (the tile's minima folded into the running minimum): on whole staging memrefs holding a tile of the cloud, the basis and the
  result row, and the scratch row, every step of the body goes through and the continuation is reached with the inputs as
  they were and each buffer the body stored into at its stores written over what it held, last store first.  The list of
  stores is found by running the body; what matters of it later is only that it covers the buffer.
-/
import proofs.«167137_j12017318494451_2_alg».proof.Proof.Kernel.R0Base

set_option maxHeartbeats 4000000
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body at a middle tile: the scratch, at the running minimum `xs` so far, ends at the store `LS`; the result row
    `xo` is handed back untouched. -/
noncomputable def runMid (c : Dev nD) (i : grid0.Coords) (arg2 : Memref sig .tc .vmem S1x2000x3 .f32) (harg2 : arg2.IsWhole) (arg3 : Memref sig .tc .vmem S3x1024 .f32) (harg3 : arg3.IsWhole) (arg4 : Memref sig .tc .vmem S1x1x1024 .f32) (harg4 : arg4.IsWhole) (arg5 : Memref sig .tc .vmem S1x1024 .f32) (harg5 : arg5.IsWhole) (hf : ¬isFirst i) (hl : ¬isLast i)
    (x0 : Vec F S1x2000x3 .f32) (x1 : Vec F S3x1024 .f32) (xs : Vec F S1x1024 .f32) :
    { LS : List (View.Piece (Elt F) S1x1024 .f32) //
      ∀ (xo : Vec F S1x1x1024 .f32) (E : Set ℕ) (K : PUnit → sProp 𝕄),
        iprop(owns (c : Thread nD τ) arg2 fullShare x0 ∗ owns (c : Thread nD τ) arg3 fullShare x1 ∗ owns (c : Thread nD τ) arg4 fullShare xo ∗ owns (c : Thread nD τ) arg5 fullShare xs
            ∗ (iprop(owns (c : Thread nD τ) arg2 fullShare x0 ∗ owns (c : Thread nD τ) arg3 fullShare x1 ∗ owns (c : Thread nD τ) arg4 fullShare xo ∗ (∃ f, arg5.view.loc (c : Thread nD τ) ↦[arg5.view.set]{fullShare} arg5.view.writes (Elt F) f LS)) -∗ K ⟨⟩))
          ⊢ wp frame (wpE (defs₀ (F := F)) Variants.none c none) E (cc0__bps_kernel i arg2 harg2 arg3 harg3 arg4 harg4 arg5 harg5) K } := by
  refine ⟨?_, fun xo E K => ?run⟩
  case run =>
    simp only [cc0__bps_kernel_eq_skeleton]; unfold cc0__bps_kernel_skel
    simp only [k0_part1_eq_skeleton]
    unfold owns
    iintro ⟨⟨%f0, %hf0, H0⟩, ⟨%f1, %hf1, H1⟩, ⟨%fo, %hfo, HO⟩, ⟨%fs, %hfs, HS⟩, Hk⟩
    obtain rfl := harg2.eq_unread hf0; obtain rfl := harg3.eq_unread hf1; obtain rfl := harg4.eq_unread hfo; obtain rfl := harg5.eq_unread hfs
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [HO]
    · iexists _; isplitr; · ipureintro; exact harg4.read_unread _
      iexact HO
    iexists _; iexact HS

end Cert.Kernel.Hand

end
-- ==== Proof.Kernel.R0RunLast.lean ====
/-
  The distance kernel's body, run once at a cloud's last tile (the tile's minima folded in, then the square root stored into the result row): on whole staging memrefs holding a tile of the cloud, the basis and the
  result row, and the scratch row, every step of the body goes through and the continuation is reached with the inputs as
  they were and each buffer the body stored into at its stores written over what it held, last store first.  The list of
  stores is found by running the body; what matters of it later is only that it covers the buffer.
-/
import proofs.«167137_j12017318494451_2_alg».proof.Proof.Kernel.R0Base

set_option maxHeartbeats 4000000
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body at a last tile: the scratch, at the running minimum `xs` so far, ends at the store `LS`; the result row, at
    anything, ends at the store `LO`. -/
noncomputable def runLast (c : Dev nD) (i : grid0.Coords) (arg2 : Memref sig .tc .vmem S1x2000x3 .f32) (harg2 : arg2.IsWhole) (arg3 : Memref sig .tc .vmem S3x1024 .f32) (harg3 : arg3.IsWhole) (arg4 : Memref sig .tc .vmem S1x1x1024 .f32) (harg4 : arg4.IsWhole) (arg5 : Memref sig .tc .vmem S1x1024 .f32) (harg5 : arg5.IsWhole) (hf : ¬isFirst i) (hl : isLast i)
    (x0 : Vec F S1x2000x3 .f32) (x1 : Vec F S3x1024 .f32) (xs : Vec F S1x1024 .f32) :
    Σ' (LO : List (View.Piece (Elt F) S1x1x1024 .f32)), { LS : List (View.Piece (Elt F) S1x1024 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LS)) -∗ K ⟨⟩))
          ⊢ wp frame (wpE (defs₀ (F := F)) Variants.none c none) E (cc0__bps_kernel i arg2 harg2 arg3 harg3 arg4 harg4 arg5 harg5) K } := by
  refine ⟨?_, ?_, fun E K => ?run⟩
  case run =>
    simp only [cc0__bps_kernel_eq_skeleton]; unfold cc0__bps_kernel_skel
    simp only [k0_part1_eq_skeleton]
    unfold owns
    iintro ⟨⟨%f0, %hf0, H0⟩, ⟨%f1, %hf1, H1⟩, ⟨%dO, %fo, -, HO⟩, ⟨%fs, %hfs, HS⟩, Hk⟩
    obtain rfl := harg2.eq_unread hf0; obtain rfl := harg3.eq_unread hf1; obtain rfl := harg5.eq_unread hfs
    sl_exec (disch := first | exact hf | exact hl)
    sl_step
    iapply Hk
    isplitl [H0]
    · iexists _; isplitr; · ipureintro; exact harg2.read_unread _
      iexact H0
    isplitl [H1]
    · iexists _; isplitr; · ipureintro; exact harg3.read_unread _
      iexact H1
    isplitl [HO]
    · iexists _; iexact HO
    iexists _; iexact HS

end Cert.Kernel.Hand

end
-- ==== Proof.Kernel.R0Frame.lean ====
/-
  The distance kernel's region: what its scratch row and its result row hold after each grid position, the region's
  invariant, its proof data over the contents the region is entered with, and the body obligation at every position.

  Along a cloud's ten tiles the scratch row holds the running minimum: after the first tile, the fold of that tile's
  column minima into +infinity; after each later tile, the fold of the tile's minima into what the tile before left.
  The result row is stored only at the last tile, from the running minimum the tile before left.  The region's
  invariant says so position by position: before the first position the scratch is at anything; after position n it is at
  the running minimum of n.  The second region's staging buffers and the generator register ride along untouched.
-/
import proofs.«167137_j12017318494451_2_alg».proof.Proof.Kernel.R0RunFirst
import proofs.«167137_j12017318494451_2_alg».proof.Proof.Kernel.R0RunMid
import proofs.«167137_j12017318494451_2_alg».proof.Proof.Kernel.R0RunLast

set_option maxHeartbeats 4000000
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case's stores leave -/

/-- The first tile's stores into the scratch row cover it. -/
theorem coverFirst (c : Dev nD) (i : grid0.Coords) (arg2 : Memref sig .tc .vmem S1x2000x3 .f32) (harg2 : arg2.IsWhole) (arg3 : Memref sig .tc .vmem S3x1024 .f32) (harg3 : arg3.IsWhole) (arg4 : Memref sig .tc .vmem S1x1x1024 .f32) (harg4 : arg4.IsWhole) (arg5 : Memref sig .tc .vmem S1x1024 .f32) (harg5 : arg5.IsWhole) (hf : isFirst i) (hl : ¬isLast i) (x0 : Vec F S1x2000x3 .f32) (x1 : Vec F S3x1024 .f32) (y : S1x1024.Idx) :
    ∃ pc ∈ (runFirst c i arg2 harg2 arg3 harg3 arg4 harg4 arg5 harg5 hf hl x0 x1).1, y ∈ pc.1.set :=
  View.cover_of_tiledL (runFirst c i arg2 harg2 arg3 harg3 arg4 harg4 arg5 harg5 hf hl x0 x1).1 S1x1024.size (by sl_kernel_rfl) y
/-- The running minimum after a first tile. -/
def accFirst (c : Dev nD) (i : grid0.Coords) (arg2 : Memref sig .tc .vmem S1x2000x3 .f32) (harg2 : arg2.IsWhole) (arg3 : Memref sig .tc .vmem S3x1024 .f32) (harg3 : arg3.IsWhole) (arg4 : Memref sig .tc .vmem S1x1x1024 .f32) (harg4 : arg4.IsWhole) (arg5 : Memref sig .tc .vmem S1x1024 .f32) (harg5 : arg5.IsWhole) (hf : isFirst i) (hl : ¬isLast i) (x0 : Vec F S1x2000x3 .f32) (x1 : Vec F S3x1024 .f32) : Vec F S1x1024 .f32 :=
  vS.read (Elt F) (vS.writes (Elt F) vS.junk (runFirst c i arg2 harg2 arg3 harg3 arg4 harg4 arg5 harg5 hf hl x0 x1).1)

/-- A middle tile's store into the scratch row covers it. -/
theorem coverMid (c : Dev nD) (i : grid0.Coords) (arg2 : Memref sig .tc .vmem S1x2000x3 .f32) (harg2 : arg2.IsWhole) (arg3 : Memref sig .tc .vmem S3x1024 .f32) (harg3 : arg3.IsWhole) (arg4 : Memref sig .tc .vmem S1x1x1024 .f32) (harg4 : arg4.IsWhole) (arg5 : Memref sig .tc .vmem S1x1024 .f32) (harg5 : arg5.IsWhole) (hf : ¬isFirst i) (hl : ¬isLast i) (x0 : Vec F S1x2000x3 .f32) (x1 : Vec F S3x1024 .f32) (xs : Vec F S1x1024 .f32) (y : S1x1024.Idx) :
    ∃ pc ∈ (runMid c i arg2 harg2 arg3 harg3 arg4 harg4 arg5 harg5 hf hl x0 x1 xs).1, y ∈ pc.1.set :=
  View.cover_of_tiledL (runMid c i arg2 harg2 arg3 harg3 arg4 harg4 arg5 harg5 hf hl x0 x1 xs).1 S1x1024.size (by sl_kernel_rfl) y
/-- The running minimum after a middle tile, from the one before it. -/
def accMid (c : Dev nD) (i : grid0.Coords) (arg2 : Memref sig .tc .vmem S1x2000x3 .f32) (harg2 : arg2.IsWhole) (arg3 : Memref sig .tc .vmem S3x1024 .f32) (harg3 : arg3.IsWhole) (arg4 : Memref sig .tc .vmem S1x1x1024 .f32) (harg4 : arg4.IsWhole) (arg5 : Memref sig .tc .vmem S1x1024 .f32) (harg5 : arg5.IsWhole) (hf : ¬isFirst i) (hl : ¬isLast i) (x0 : Vec F S1x2000x3 .f32) (x1 : Vec F S3x1024 .f32) (xs : Vec F S1x1024 .f32) : Vec F S1x1024 .f32 :=
  vS.read (Elt F) (vS.writes (Elt F) vS.junk (runMid c i arg2 harg2 arg3 harg3 arg4 harg4 arg5 harg5 hf hl x0 x1 xs).1)

/-- A last tile's store into the scratch row covers it, and its store into the result row covers that. -/
theorem coverLastS (c : Dev nD) (i : grid0.Coords) (arg2 : Memref sig .tc .vmem S1x2000x3 .f32) (harg2 : arg2.IsWhole) (arg3 : Memref sig .tc .vmem S3x1024 .f32) (harg3 : arg3.IsWhole) (arg4 : Memref sig .tc .vmem S1x1x1024 .f32) (harg4 : arg4.IsWhole) (arg5 : Memref sig .tc .vmem S1x1024 .f32) (harg5 : arg5.IsWhole) (hf : ¬isFirst i) (hl : isLast i) (x0 : Vec F S1x2000x3 .f32) (x1 : Vec F S3x1024 .f32) (xs : Vec F S1x1024 .f32) (y : S1x1024.Idx) :
    ∃ pc ∈ (runLast c i arg2 harg2 arg3 harg3 arg4 harg4 arg5 harg5 hf hl x0 x1 xs).2.1, y ∈ pc.1.set :=
  View.cover_of_tiledL (runLast c i arg2 harg2 arg3 harg3 arg4 harg4 arg5 harg5 hf hl x0 x1 xs).2.1 S1x1024.size (by sl_kernel_rfl) y
theorem coverLastO (c : Dev nD) (i : grid0.Coords) (arg2 : Memref sig .tc .vmem S1x2000x3 .f32) (harg2 : arg2.IsWhole) (arg3 : Memref sig .tc .vmem S3x1024 .f32) (harg3 : arg3.IsWhole) (arg4 : Memref sig .tc .vmem S1x1x1024 .f32) (harg4 : arg4.IsWhole) (arg5 : Memref sig .tc .vmem S1x1024 .f32) (harg5 : arg5.IsWhole) (hf : ¬isFirst i) (hl : isLast i) (x0 : Vec F S1x2000x3 .f32) (x1 : Vec F S3x1024 .f32) (xs : Vec F S1x1024 .f32) (y : S1x1x1024.Idx) :
    ∃ pc ∈ (runLast c i arg2 harg2 arg3 harg3 arg4 harg4 arg5 harg5 hf hl x0 x1 xs).1, y ∈ pc.1.set :=
  View.cover_of_tiledL (runLast c i arg2 harg2 arg3 harg3 arg4 harg4 arg5 harg5 hf hl x0 x1 xs).1 S1x1x1024.size (by sl_kernel_rfl) y
/-- The running minimum after a last tile, and the result row it stores, from the running minimum before it. -/
def accLast (c : Dev nD) (i : grid0.Coords) (arg2 : Memref sig .tc .vmem S1x2000x3 .f32) (harg2 : arg2.IsWhole) (arg3 : Memref sig .tc .vmem S3x1024 .f32) (harg3 : arg3.IsWhole) (arg4 : Memref sig .tc .vmem S1x1x1024 .f32) (harg4 : arg4.IsWhole) (arg5 : Memref sig .tc .vmem S1x1024 .f32) (harg5 : arg5.IsWhole) (hf : ¬isFirst i) (hl : isLast i) (x0 : Vec F S1x2000x3 .f32) (x1 : Vec F S3x1024 .f32) (xs : Vec F S1x1024 .f32) : Vec F S1x1024 .f32 :=
  vS.read (Elt F) (vS.writes (Elt F) vS.junk (runLast c i arg2 harg2 arg3 harg3 arg4 harg4 arg5 harg5 hf hl x0 x1 xs).2.1)
def outLast (c : Dev nD) (i : grid0.Coords) (arg2 : Memref sig .tc .vmem S1x2000x3 .f32) (harg2 : arg2.IsWhole) (arg3 : Memref sig .tc .vmem S3x1024 .f32) (harg3 : arg3.IsWhole) (arg4 : Memref sig .tc .vmem S1x1x1024 .f32) (harg4 : arg4.IsWhole) (arg5 : Memref sig .tc .vmem S1x1024 .f32) (harg5 : arg5.IsWhole) (hf : ¬isFirst i) (hl : isLast i) (x0 : Vec F S1x2000x3 .f32) (x1 : Vec F S3x1024 .f32) (xs : Vec F S1x1024 .f32) : Vec F S1x1x1024 .f32 :=
  vO.read (Elt F) (vO.writes (Elt F) vO.junk (runLast c i arg2 harg2 arg3 harg3 arg4 harg4 arg5 harg5 hf hl x0 x1 xs).1)

section
variable (V : (c : Dev nD) → (b : Ref sig .tc) → Buf (Elt F) ((c : Thread nD τ).loc b))

/-! ## The running minimum, position by position -/

theorem not_last_of_first (t : Fin cfg0.N) (h0 : t.val % 10 = 0) : ¬isLast (grid0.coords t) :=
  fun h => by have := (isLast_iff t).mp h; omega
theorem not_first_of (t : Fin cfg0.N) (h0 : ¬t.val % 10 = 0) : ¬isFirst (grid0.coords t) :=
  fun h => h0 ((isFirst_iff t).mp h)
theorem not_last_of (t : Fin cfg0.N) (h9 : ¬t.val % 10 = 9) : ¬isLast (grid0.coords t) :=
  fun h => h9 ((isLast_iff t).mp h)

/-- One position's effect on the scratch row, given what the position before left in it. -/
def accStep (c : Dev nD) (t : Fin cfg0.N) (prev : Vec F S1x1024 .f32) : Vec F S1x1024 .f32 :=
  if h0 : t.val % 10 = 0 then
    accFirst c (grid0.coords t) (mX t) (hX t) (mB t) (hB t) (mO t) (hO t) mS (Memref.isWhole_whole _) ((isFirst_iff t).mpr h0) (not_last_of_first t h0) (iblk0 V c 0 t) (iblk0 V c 1 t)
  else if h9 : t.val % 10 = 9 then
    accLast c (grid0.coords t) (mX t) (hX t) (mB t) (hB t) (mO t) (hO t) mS (Memref.isWhole_whole _) (not_first_of t h0) ((isLast_iff t).mpr h9) (iblk0 V c 0 t) (iblk0 V c 1 t) prev
  else
    accMid c (grid0.coords t) (mX t) (hX t) (mB t) (hB t) (mO t) (hO t) mS (Memref.isWhole_whole _) (not_first_of t h0) (not_last_of t h9) (iblk0 V c 0 t) (iblk0 V c 1 t) prev

/-- What the scratch row holds after position `n`. -/
def accAt (c : Dev nD) : (n : ℕ) → n < cfg0.N → Vec F S1x1024 .f32
  | 0, hn => accStep V c ⟨0, hn⟩ (vS.read (Elt F) vS.junk)
  | n + 1, hn => accStep V c ⟨n + 1, hn⟩ (accAt c n (Nat.lt_of_succ_lt hn))

/-- What the scratch row holds before position `t` (at the very first position, anything: it is then reset). -/
def accBefore (c : Dev nD) (t : Fin cfg0.N) : Vec F S1x1024 .f32 :=
  if h : t.val = 0 then vS.read (Elt F) vS.junk else accAt V c (t.val - 1) (by have := t.isLt; omega)

theorem accAt_eq (c : Dev nD) (t : Fin cfg0.N) : accAt V c t.val t.isLt = accStep V c t (accBefore V c t) := by
  obtain ⟨n, hn⟩ := t
  cases n with
  | zero => rfl
  | succ n => rfl

/-- What the result row's staging buffer holds after position `t`: at a last tile the square root of the running
    minimum; elsewhere the window is idle and this value is never consulted. -/
def outAt (c : Dev nD) (t : Fin cfg0.N) : Vec F S1x1x1024 .f32 :=
  if h9 : t.val % 10 = 9 then
    outLast c (grid0.coords t) (mX t) (hX t) (mB t) (hB t) (mO t) (hO t) mS (Memref.isWhole_whole _) (not_first_of t (by omega)) ((isLast_iff t).mpr h9) (iblk0 V c 0 t) (iblk0 V c 1 t) (accBefore V c t)
  else vO.read (Elt F) vO.junk

/-! ## The region's invariant -/

/-- Before position `n`: at the start the class invariant (the scratch at anything); afterwards the scratch at the
    running minimum of position `n - 1`, the second region's staging buffers and the generator register as they are. -/
def PhiS (c : Dev nD) : (n : ℕ) → n ≤ cfg0.N → sProp 𝕄
  | 0, _ => Pipeline.ΦA spec0 c
  | n + 1, hn => iprop(iprop(owns (c : Thread nD τ) mS fullShare (accAt V c n hn) ∗ otherStaging (F := F) c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) mS fullShare (accAt V c n hn) ∗ otherStaging (F := F) c) ∗ (∃ r, prngReg c r)) := rfl
theorem PhiS_pos (c : Dev nD) (n : ℕ) (h : n ≤ cfg0.N) (hz : n ≠ 0) :
    PhiS V c n h = iprop(iprop(owns (c : Thread nD τ) mS fullShare (accAt V c (n - 1) (by omega)) ∗ otherStaging (F := F) c) ∗ (∃ r, prngReg c r)) := by
  cases n with
  | zero => exact absurd rfl hz
  | succ n => rfl

/-! ## The proof data -/

/-- The region's proof data on core `c`: the arrays as the region finds them; after the body at position `t` each
    input's buffer at its block and the result row's at `outAt`; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => outAt V c t
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = outAt V c t := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

end

end Cert.Kernel.Hand

end
-- ==== Proof.Kernel.R0Body.lean ====
/-
  The distance kernel's region: the body obligation.  At every grid position the body, called with the region's invariant,
  the tile of the cloud, the basis and the result row's buffer, runs to the invariant of the next position: the closed
  forms of the two branch conditions say which of the three cases the position is in (a cloud's first tile, a middle tile,
  its last tile), the invariant hands the body the scratch row at the running minimum so far (at anything before the very
  first position), and takes it back at the running minimum of this position.  The result row's buffer is handed back as
  found except at a last tile, where it holds the stored square root.
-/
import proofs.«167137_j12017318494451_2_alg».proof.Proof.Kernel.R0Frame

set_option maxHeartbeats 8000000
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- What the body is called with at position `t`, -/
def bodyPre0 (c : Dev nD) (t : Fin cfg0.N) : sProp 𝕄 :=
  iprop((dat0 V c).Φ t.castSucc ∗ (dat0 V c).owesAt () t.castSucc
    ∗ (∃ d, owns (c : Thread nD τ) (mX t) fullShare ((dat0 V c).before 0 t d))
    ∗ (∃ d, owns (c : Thread nD τ) (mB t) fullShare ((dat0 V c).before 1 t d))
    ∗ (∃ d, owns (c : Thread nD τ) (mO t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (mX t) fullShare ((dat0 V c).after 0 t) from by
    unfold Dat.leavesExact; rw [live_in0 t], after0_0]
  rw [show (dat0 V c).leavesExact 1 t = owns (c : Thread nD τ) (mB t) fullShare ((dat0 V c).after 1 t) from by
    unfold Dat.leavesExact; rw [live_in1 t], after0_1]
  rw [accAt_eq V c t]
  by_cases h0 : t.val % 10 = 0
  · have hl := not_last_of_first t h0
    rw [Dat.leavesExact_idle (dat0 V c) 2 t (idle_out_of_not_last t hl) (noFlush_out_of_not_last t hl)]
    rw [show accStep V c t (accBefore V c t) = accFirst c (grid0.coords t) (mX t) (hX t) (mB t) (hB t) (mO t) (hO t) mS (Memref.isWhole_whole _) ((isFirst_iff t).mpr h0) (not_last_of_first t h0) (iblk0 V c 0 t) (iblk0 V c 1 t) from dif_pos h0]
    unfold accFirst
    by_cases hz : t.val = 0
    · rw [PhiS_castSucc V c t, PhiS_zero V c _ _ hz, PhiA0_eq]
      iintro ⟨⟨⟨HS, Hother⟩, Hg⟩, Ho, ⟨%d0, H0⟩, ⟨%d1, H1⟩, ⟨%d2, H2⟩⟩
      iapply ((runFirst c (grid0.coords t) (mX t) (hX t) (mB t) (hB t) (mO t) (hO t) mS (Memref.isWhole_whole _) ((isFirst_iff t).mpr h0) (not_last_of_first t h0) (iblk0 V c 0 t) (iblk0 V c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HS Hother Hg]
      · isplitl [HS Hother]
        · isplitl [HS]
          · unfold owns; iexists _; isplitr
            swap; · iexact HS
            ipureintro; exact View.read_writes_of_cover _ _ _ _ _ (coverFirst c _ _ _ _ _ _ _ _ _ _ _ _ _)
          iexact Hother
        iexact Hg
      isplitl [Ho]; · iexact Ho
      isplitl [H0]; · iexact H0
      isplitl [H1]; · iexact H1
      iexists _; iexact H2
    · rw [PhiS_castSucc V c t, PhiS_pos V c _ _ hz]
      iintro ⟨⟨⟨HS, Hother⟩, Hg⟩, Ho, ⟨%d0, H0⟩, ⟨%d1, H1⟩, ⟨%d2, H2⟩⟩
      iapply ((runFirst c (grid0.coords t) (mX t) (hX t) (mB t) (hB t) (mO t) (hO t) mS (Memref.isWhole_whole _) ((isFirst_iff t).mpr h0) (not_last_of_first t h0) (iblk0 V c 0 t) (iblk0 V c 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS Hother Hg]
      · isplitl [HS Hother]
        · isplitl [HS]
          · unfold owns; iexists _; isplitr
            swap; · iexact HS
            ipureintro; exact View.read_writes_of_cover _ _ _ _ _ (coverFirst c _ _ _ _ _ _ _ _ _ _ _ _ _)
          iexact Hother
        iexact Hg
      isplitl [Ho]; · iexact Ho
      isplitl [H0]; · iexact H0
      isplitl [H1]; · iexact H1
      iexists _; iexact H2
  · have hz : t.val ≠ 0 := fun h => h0 (by rw [h])
    have hprev : accBefore V c t = accAt V c (t.val - 1) (by have := t.isLt; omega) := dif_neg hz
    by_cases h9 : t.val % 10 = 9
    · have hl := (isLast_iff t).mpr h9
      rw [show (dat0 V c).leavesExact 2 t = owns (c : Thread nD τ) (mO t) fullShare ((dat0 V c).after 2 t) from by
        unfold Dat.leavesExact; rw [live_out_of_last t hl], after0_2]
      rw [show outAt V c t = outLast c (grid0.coords t) (mX t) (hX t) (mB t) (hB t) (mO t) (hO t) mS (Memref.isWhole_whole _) (not_first_of t h0) hl (iblk0 V c 0 t) (iblk0 V c 1 t) (accBefore V c t) from dif_pos h9]
      rw [show accStep V c t (accBefore V c t) = accLast c (grid0.coords t) (mX t) (hX t) (mB t) (hB t) (mO t) (hO t) mS (Memref.isWhole_whole _) (not_first_of t h0) hl (iblk0 V c 0 t) (iblk0 V c 1 t) (accBefore V c t) from (dif_neg h0).trans (dif_pos h9)]
      rw [hprev]
      unfold accLast outLast
      rw [PhiS_castSucc V c t, PhiS_pos V c _ _ hz]
      iintro ⟨⟨⟨HS, Hother⟩, Hg⟩, Ho, ⟨%d0, H0⟩, ⟨%d1, H1⟩, ⟨%d2, H2⟩⟩
      iapply ((runLast c (grid0.coords t) (mX t) (hX t) (mB t) (hB t) (mO t) (hO t) mS (Memref.isWhole_whole _) (not_first_of t h0) hl (iblk0 V c 0 t) (iblk0 V c 1 t) _).2.2 Set.univ _)
      isplitl [H0]; · iexact H0
      isplitl [H1]; · iexact H1
      isplitl [H2]; · iexists _; iexact H2
      isplitl [HS]; · iexact HS
      iintro ⟨H0, H1, ⟨%eo, H2⟩, ⟨%es, HS⟩⟩
      isplitl [HS Hother Hg]
      · isplitl [HS Hother]
        · isplitl [HS]
          · unfold owns; iexists _; isplitr
            swap; · iexact HS
            ipureintro; exact View.read_writes_of_cover _ _ _ _ _ (coverLastS c _ _ _ _ _ _ _ _ _ _ _ _ _ _)
          iexact Hother
        iexact Hg
      isplitl [Ho]; · iexact Ho
      isplitl [H0]; · iexact H0
      isplitl [H1]; · iexact H1
      unfold owns; iexists _; isplitr
      swap; · iexact H2
      ipureintro; exact View.read_writes_of_cover _ _ _ _ _ (coverLastO c _ _ _ _ _ _ _ _ _ _ _ _ _ _)
    · have hl := not_last_of t h9
      rw [Dat.leavesExact_idle (dat0 V c) 2 t (idle_out_of_not_last t hl) (noFlush_out_of_not_last t hl)]
      rw [show accStep V c t (accBefore V c t) = accMid c (grid0.coords t) (mX t) (hX t) (mB t) (hB t) (mO t) (hO t) mS (Memref.isWhole_whole _) (not_first_of t h0) hl (iblk0 V c 0 t) (iblk0 V c 1 t) (accBefore V c t) from (dif_neg h0).trans (dif_neg h9)]
      rw [hprev]
      unfold accMid
      rw [PhiS_castSucc V c t, PhiS_pos V c _ _ hz]
      iintro ⟨⟨⟨HS, Hother⟩, Hg⟩, Ho, ⟨%d0, H0⟩, ⟨%d1, H1⟩, ⟨%d2, H2⟩⟩
      iapply ((runMid c (grid0.coords t) (mX t) (hX t) (mB t) (hB t) (mO t) (hO t) mS (Memref.isWhole_whole _) (not_first_of t h0) hl (iblk0 V c 0 t) (iblk0 V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS Hother Hg]
      · isplitl [HS Hother]
        · isplitl [HS]
          · unfold owns; iexists _; isplitr
            swap; · iexact HS
            ipureintro; exact View.read_writes_of_cover _ _ _ _ _ (coverMid c _ _ _ _ _ _ _ _ _ _ _ _ _ _)
          iexact Hother
        iexact Hg
      isplitl [Ho]; · iexact Ho
      isplitl [H0]; · iexact H0
      isplitl [H1]; · iexact H1
      iexists _; iexact H2

/-- The library's body obligation, at every position. -/
theorem body_obligation0 (c : Dev nD) : BodyObligation (dat0 (F := F) V c) (defs₀ (F := F)) Variants.none () Set.univ := fun t => by
  rw [bigSep_W0, bigSep_W0]
  exact sound_body0 V c t

/-- The class invariant is the region's invariant before the first position. -/
theorem phi_in0 (c : Dev nD) : Pipeline.ΦA spec0 c ⊢ (dat0 V c).Φ 0 := by
  rw [show (dat0 V c).Φ 0 = Pipeline.ΦA spec0 c from rfl]

/-- After the last position the region's invariant gives the class invariant back: the scratch at what it then holds. -/
theorem phi_out0 (c : Dev nD) : (dat0 V c).Φ (Fin.last cfg0.N) ⊢ Pipeline.ΦA spec0 c := by
  rw [show (dat0 V c).Φ (Fin.last cfg0.N) = PhiS V c cfg0.N (Nat.le_refl _) from rfl,
    PhiS_pos V c _ _ (by rw [show cfg0.N = 80 from N_0]; decide), PhiA0_eq]
  iintro ⟨⟨HS, Hother⟩, Hg⟩
  isplitl [HS Hother]
  · isplitl [HS]; · iexists _; iexact HS
    iexact Hother
  iexact Hg

end

end Cert.Kernel.Hand

end
-- ==== Proof.Kernel.Region1.lean ====
import proofs.«167137_j12017318494451_2_alg».proof.Proof.Gen.Kernel.Launch
import proofs.«167137_j12017318494451_2_alg».proof.Proof.Gen.Kernel.Skeleton
import proofs.«167137_j12017318494451_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The second kernel launch (the MLP kernel): its frame half

The kernel runs at a grid of one point.  Its body reads each of its twelve input windows whole, computes,
and writes its one output window (window 12, an 8x1 block) whole.  Everything below is stated at a
parameter `V`: the contents of the TensorCore's buffers when the region is entered. -/

-- membership in a rectangle with a 1024-long axis is decided by a structural recursion, one step per coordinate
set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the contents of the TensorCore's buffers when the region is entered
variable (V : (c : Dev nD) → (b : Ref sig .tc) → Buf (Elt F) ((c : Thread nD τ).loc b))

/-! ## The windows' blocks -/

/-- The block of window `w` at grid point `t`: the window's view of its array, read at the entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0: its staging buffer holds the window's block at every point, for any proof data whose array is
    the entry contents and whose body leaves the block where it is (the window is whole and never idle). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1: its staging buffer holds the window's block at every point, for any proof data whose array is
    the entry contents and whose body leaves the block where it is (the window is whole and never idle). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2: its staging buffer holds the window's block at every point, for any proof data whose array is
    the entry contents and whose body leaves the block where it is (the window is whole and never idle). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3: its staging buffer holds the window's block at every point, for any proof data whose array is
    the entry contents and whose body leaves the block where it is (the window is whole and never idle). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4: its staging buffer holds the window's block at every point, for any proof data whose array is
    the entry contents and whose body leaves the block where it is (the window is whole and never idle). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5: its staging buffer holds the window's block at every point, for any proof data whose array is
    the entry contents and whose body leaves the block where it is (the window is whole and never idle). -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6: its staging buffer holds the window's block at every point, for any proof data whose array is
    the entry contents and whose body leaves the block where it is (the window is whole and never idle). -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7: its staging buffer holds the window's block at every point, for any proof data whose array is
    the entry contents and whose body leaves the block where it is (the window is whole and never idle). -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8: its staging buffer holds the window's block at every point, for any proof data whose array is
    the entry contents and whose body leaves the block where it is (the window is whole and never idle). -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-- Input window 9: its staging buffer holds the window's block at every point, for any proof data whose array is
    the entry contents and whose body leaves the block where it is (the window is whole and never idle). -/
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

/-- Input window 10: its staging buffer holds the window's block at every point, for any proof data whose array is
    the entry contents and whose body leaves the block where it is (the window is whole and never idle). -/
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)

/-- Input window 11: its staging buffer holds the window's block at every point, for any proof data whose array is
    the entry contents and whose body leaves the block where it is (the window is whole and never idle). -/
theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body reads and writes: each is a whole buffer -/

abbrev whole8x1024 : Rect S8x1024 := Rect.unit (s := S8x1024) ![0, 0] S8x1024.size inb_S8x1024_S8x1024_0_0
abbrev whole1x1024 : Rect S1x1024 := Rect.unit (s := S1x1024) ![0, 0] S1x1024.size inb_S1x1024_S1x1024_0_0
abbrev whole1024x1024 : Rect S1024x1024 := Rect.unit (s := S1024x1024) ![0, 0] S1024x1024.size inb_S1024x1024_S1024x1024_0_0
abbrev whole8x1 : Rect S8x1 := Rect.unit (s := S8x1) ![0, 0] S8x1.size inb_S8x1_S8x1_0_0

/-! ## What the body leaves in the output window -/

/-- The output window's buffer after the body, as a function of the twelve input blocks `x0 … x11` (numbered by
    window): the body's single store, which writes the whole 8x1 buffer.  The stored value is the last payload
    applied to the hidden activations (a function of windows 0, 3, 1, 4, 2, 5, 6, 9), to the recast rows of
    windows 7 and 10, and to the rows of windows 8 and 11. -/
def out1_12 (x0 : Vec F S8x1024 .f32) (x1 x2 x3 x4 : Vec F S1x1024 .f32) (x5 : Vec F S1024x1024 .f32) (x6 x7 x8 x9 x10 x11 : Vec F S1x1024 .f32) : Vec F S8x1 .f32 :=
  View.canon [⟨whole8x1, k1_pay1 (k1_pay2 (View.ld x0 whole8x1024) (View.ld x3 whole1x1024) (View.ld x1 whole1x1024) (View.ld x4 whole1x1024) (View.ld x2 whole1x1024) (View.ld x5 whole1024x1024) (View.ld x6 whole1x1024) (View.ld x9 whole1x1024)) (k1_pay3 (View.ld x7 whole1x1024)) (k1_pay4 (View.ld x10 whole1x1024)) (View.ld x8 whole1x1024) (View.ld x11 whole1x1024)⟩]

/-- The single store's rectangle is the whole 8x1 buffer, so every index lies in it. -/
theorem cover1_12 (p0 : Vec F S8x1 .f32) (y : S8x1.Idx) :
    ∃ pc ∈ ([⟨whole8x1, p0⟩] : List (View.Piece (Elt F) S8x1 .f32)), y ∈ pc.1.set :=
  View.cover_of_tiled [⟨whole8x1, p0⟩] S8x1.size (by rfl) y

/-! ## The body's triple -/

set_option maxHeartbeats 4000000 in
/-- The kernel body on whole staging buffers, the twelve inputs at contents `x0 … x11` and the output at anything,
    runs to a continuation that holds the inputs unchanged and the output at `out1_12` of the inputs. -/
theorem sound_kernel1 (c : Dev nD) (E : Set ℕ) (i : grid1.Coords) (arg1 : Memref sig .tc .vmem S8x1024 .f32) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S8x1 .f32) (harg13 : arg13.IsWhole)
    (x0 : Vec F S8x1024 .f32) (x1 x2 x3 x4 : Vec F S1x1024 .f32) (x5 : Vec F S1024x1024 .f32) (x6 x7 x8 x9 x10 x11 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (out1_12 x0 x1 x2 x3 x4 x5 x6 x7 x8 x9 x10 x11)) -∗ K ⟨⟩))
      ⊢ wp frame (wpE (defs₀ (F := F)) Variants.none c none) E (cc1__mlp_kernel i arg1 harg1 arg2 harg2 arg3 harg3 arg4 harg4 arg5 harg5 arg6 harg6 arg7 harg7 arg8 harg8 arg9 harg9 arg10 harg10 arg11 harg11 arg12 harg12 arg13 harg13) K := by
  simp only [cc1__mlp_kernel_eq_skeleton]; unfold cc1__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, Hk⟩
  subst hf0
  subst hf1
  subst hf2
  subst hf3
  subst hf4
  subst hf5
  subst hf6
  subst hf7
  subst hf8
  subst hf9
  subst hf10
  subst hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  iexists _; isplitr
  swap; · iexact H12
  ipureintro
  exact View.read_writes_eq_canon _ _ _ (cover1_12 _)

/-! ## The proof data of the pipeline -/

/-- The proof data on core `c`: each window's array at the entry contents; after the body at point `t` every input
    buffer still holds its block and the output buffer holds `out1_12` of the input blocks; the invariant is the
    untouched rest of the core's state; all shares are full and nothing is owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => out1_12 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t)
  Φ _ := Pipeline.ΦA spec1 c
  q _ := fullShare
  owed _ := 0

/-- The proof data's arrays are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = out1_12 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) := by dsimp only [dat1]

/-- Every input's staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d

/-! ## The body obligation -/

/-- What the body is given at point `t`: the invariant, the core's debt, and every window's staging buffer. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d)))

/-- What the body hands back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t))

set_option maxHeartbeats 4000000 in
/-- The body at any point: the inputs' buffers hold their blocks, so the body's triple applies; the invariant and the
    debt pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel1 c Set.univ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.Kernel.Run.lean ====
/-
  The whole program's run.  @main is five stretches: host operations (the two transposes), the distance kernel's region,
  host operations (the reshapes of the features and of the network's parameters), the network kernel's region, host
  operations (the bias broadcast and the final add).  The contents of the TensorCore's buffers at each of the six
  boundaries are a fold from the launch memory: a host stretch applies its operations; a region leaves its windows' arrays
  at what its write-backs leave and every other buffer as it was.  Every weakly fair execution of @main terminates without
  a fault in a memory that holds, at every unscoped buffer, the last boundary's contents.
-/
import proofs.«167137_j12017318494451_2_alg».proof.Proof.Kernel.R0Body
import proofs.«167137_j12017318494451_2_alg».proof.Proof.Kernel.Region1

set_option maxHeartbeats 4000000
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the six boundaries -/

/-- At launch. -/
abbrev W0 : Dev nD → Valuation τ sig (Elt F) := fun c b => (s₀ m ρ).mem ((c : Dev nD), b)
/-- After the first host stretch: the distance region's entry. -/
abbrev W1 : Dev nD → Valuation τ sig (Elt F) := fun c => StableHlo.after hostOps0 (W0 m ρ c)
abbrev Ve1 : (c : Dev nD) → (b : Ref sig .tc) → Buf (Elt F) ((c : Thread nD τ).loc b) := fun c b => W1 m ρ c b
/-- At the distance region's exit: its arrays at what the pipeline leaves, every other buffer as entered. -/
def W2 (c : Dev nD) : Valuation τ sig (Elt F) :=
  Pipeline.withArrays spec0 c (W1 m ρ c) fun w => (dat0 (Ve1 m ρ) c).arrAt w cfg0.N
theorem W2_arr (c : Dev nD) (w : Fin cfg0.W) :
    W2 m ρ c (Proc.devRef .tc (Pipeline.arrRef spec0 w)) = (dat0 (Ve1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev Ve2 : (c : Dev nD) → (b : Ref sig .tc) → Buf (Elt F) ((c : Thread nD τ).loc b) := fun c b => W2 m ρ c b
theorem hF0 (c : Dev nD) (w : Fin cfg0.W) : (dat0 (Ve1 m ρ) c).arrAt w cfg0.N = Ve2 m ρ c (Pipeline.arrRef spec0 w) :=
  (W2_arr m ρ c w).symm
theorem hrest0 (c : Dev nD) : ∀ b, b ∉ Finset.univ.image (Pipeline.arrRef spec0) → Ve2 m ρ c b = Ve1 m ρ c b :=
  fun b hb => W2_of_ne m ρ c b fun w e => hb (Finset.mem_image.mpr ⟨w, Finset.mem_univ _, e⟩)
/-- After the second host stretch: the network region's entry. -/
abbrev W3 : Dev nD → Valuation τ sig (Elt F) := fun c => StableHlo.after hostOps1 (W2 m ρ c)
abbrev Ve3 : (c : Dev nD) → (b : Ref sig .tc) → Buf (Elt F) ((c : Thread nD τ).loc b) := fun c b => W3 m ρ c b
/-- At the network region's exit. -/
def W4 (c : Dev nD) : Valuation τ sig (Elt F) :=
  Pipeline.withArrays spec1 c (W3 m ρ c) fun w => (dat1 (Ve3 m ρ) c).arrAt w cfg1.N
theorem W4_arr (c : Dev nD) (w : Fin cfg1.W) :
    W4 m ρ c (Proc.devRef .tc (Pipeline.arrRef spec1 w)) = (dat1 (Ve3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev Ve4 : (c : Dev nD) → (b : Ref sig .tc) → Buf (Elt F) ((c : Thread nD τ).loc b) := fun c b => W4 m ρ c b
theorem hF1 (c : Dev nD) (w : Fin cfg1.W) : (dat1 (Ve3 m ρ) c).arrAt w cfg1.N = Ve4 m ρ c (Pipeline.arrRef spec1 w) :=
  (W4_arr m ρ c w).symm
theorem hrest1 (c : Dev nD) : ∀ b, b ∉ Finset.univ.image (Pipeline.arrRef spec1) → Ve4 m ρ c b = Ve3 m ρ c b :=
  fun b hb => W4_of_ne m ρ c b fun w e => hb (Finset.mem_image.mpr ⟨w, Finset.mem_univ _, e⟩)
/-- After the last host stretch: the end. -/
abbrev W5 : Dev nD → Valuation τ sig (Elt F) := fun c => StableHlo.after hostOps2 (W4 m ρ c)

/-! ## The proof data family and the thread state -/

abbrev admT : (p : Fin 2) → (pcfgs (F := F) p).Adm := fun p => (cfgs p).toPCfg_adm
/-- Each region's proof data at its entry contents. -/
def pdat : (p : Fin 2) → (c : Dev nD) → Dat τ (Elt F) Unit ℕ (UR sig nD τ) ℕ (Pipeline.pin (pcfgs (F := F)) admT p) c
  | ⟨0, _⟩ => fun c => dat0 (Ve1 m ρ) c
  | ⟨1, _⟩ => fun c => dat1 (Ve3 m ρ) c
abbrev 𝒱ₙ : Variants := Variants.none
abbrev Lₙ : GSem nD τ sig → Finset Unit := fun _ => ∅
abbrev lvₙ : GSem nD τ sig → Unit → ℕ := fun _ _ => 0
/-- What rides beside the buffers through every stretch: the generator register at some state and the core owing nothing. -/
abbrev Rest (c : Dev nD) : sProp 𝕄 := iprop((∃ r, prngReg c r) ∗ ∃ W, owes (c : Thread nD τ) (0 : CellTallies nD τ sig Unit) W)
/-- A host stretch as a segment from the contents `W`. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱ₙ Lₙ lvₙ :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest
theorem fresh0 : (hostOps0 : List (HloOp τ sig (Elt F))).Forall fun op => op.fresh = ∅ := by
  simp only [List.Forall]; repeat' constructor
theorem fresh1 : (hostOps1 : List (HloOp τ sig (Elt F))).Forall fun op => op.fresh = ∅ := by
  simp only [List.Forall]; repeat' constructor
theorem fresh2 : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the core's `owes`. -/
abbrev Tend (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- The distance kernel's region over the thread state: entered from every unscoped buffer at `W1`, left at `W2`.
    Its arrays are split out of the unscoped buffers and put back at their exit contents; the generator register goes into
    the region's invariant and comes out; nothing is owed; the kernel has no semaphore of its own. -/
def reg0 : Pipeline.RegionSeg (pcfgs (F := F)) admT (pdat m ρ) () defs₀ 𝒱ₙ Lₙ lvₙ 0 where
  win := launch0.win.to₀
  block_pos := launch0.block_pos
  stage_whole := launch0.stage_whole
  K := PEmpty
  osem k := k.elim
  ho := Pipeline.OwnSemFacts.none _
  hbody c := (body_obligation0 (Ve1 m ρ) c).loose
  hwaits := Pipeline.hwaits_of_owed_zero _ _ _ _ Lₙ lvₙ 0 fun _ _ => rfl
  pre c := iprop(StableHlo.held (c : Thread nD τ) (Pipeline.ucRefs τ sig) (W1 m ρ c) ∗ Rest c)
  post c := iprop(StableHlo.held (c : Thread nD τ) (Pipeline.ucRefs τ sig) (W2 m ρ c) ∗ Rest c)
  X c := iprop(∃ r, prngReg c r)
  Y c := iprop(∃ r, prngReg c r)
  Z c := Pipeline.unscopedRest (Ix := Unit) (Name := ℕ) (U := UR sig nD τ) (Lvl := ℕ) spec0 c (Ve1 m ρ c)
  hentry c := by
    rw [Pipeline.ownSems0_none]
    have hsplit := Pipeline.arrays_of_unscopedBufs (p := 0) (pcfgs (F := F)) admT (pdat m ρ) launch0.win launch0.arr_whole c
      ((pdat m ρ 0 c).share_full fun _ => rfl) (Ve1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdat m ρ 0 c).Φ (Fin.last _) = (dat0 (Ve1 m ρ) c).Φ (Fin.last cfg0.N) from rfl]
    have hback := phi_out0 (Ve1 m ρ) c
    unfold Pipeline.ΦA at hback
    iintro HPhi
    ihave H := hback $$ HPhi
    icases H with ⟨Hr, Hp⟩
    isplitl [Hp]; · iexact Hp
    isplitr; · iempintro
    iexact Hr
  hexit c := by
    have hjoin := Pipeline.unscopedBufs_of_arrays (p := 0) (pcfgs (F := F)) admT (Ix := Unit) (Name := ℕ) (U := UR sig nD τ) (Lvl := ℕ)
      launch0.win launch0.arr_whole c (pdat m ρ) ((pdat m ρ 0 c).share_full fun _ => rfl)
      (Ve1 m ρ c) (Ve2 m ρ c) ((pdat m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The network kernel's region over the thread state: entered from every unscoped buffer at `W3`, left at `W4`.
    Its arrays are split out of the unscoped buffers and put back at their exit contents; the generator register goes into
    the region's invariant and comes out; nothing is owed; the kernel has no semaphore of its own. -/
def reg1 : Pipeline.RegionSeg (pcfgs (F := F)) admT (pdat m ρ) () defs₀ 𝒱ₙ Lₙ lvₙ 1 where
  win := launch1.win.to₀
  block_pos := launch1.block_pos
  stage_whole := launch1.stage_whole
  K := PEmpty
  osem k := k.elim
  ho := Pipeline.OwnSemFacts.none _
  hbody c := (body_obligation1 (Ve3 m ρ) c).loose
  hwaits := Pipeline.hwaits_of_owed_zero _ _ _ _ Lₙ lvₙ 1 fun _ _ => rfl
  pre c := iprop(StableHlo.held (c : Thread nD τ) (Pipeline.ucRefs τ sig) (W3 m ρ c) ∗ Rest c)
  post c := iprop(StableHlo.held (c : Thread nD τ) (Pipeline.ucRefs τ sig) (W4 m ρ c) ∗ Rest c)
  X c := iprop(∃ r, prngReg c r)
  Y c := iprop(∃ r, prngReg c r)
  Z c := Pipeline.unscopedRest (Ix := Unit) (Name := ℕ) (U := UR sig nD τ) (Lvl := ℕ) spec1 c (Ve3 m ρ c)
  hentry c := by
    rw [Pipeline.ownSems0_none]
    have hsplit := Pipeline.arrays_of_unscopedBufs (p := 1) (pcfgs (F := F)) admT (pdat m ρ) launch1.win launch1.arr_whole c
      ((pdat m ρ 1 c).share_full fun _ => rfl) (Ve3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdat m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdat m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admT (Ix := Unit) (Name := ℕ) (U := UR sig nD τ) (Lvl := ℕ)
      launch1.win launch1.arr_whole c (pdat m ρ) ((pdat m ρ 1 c).share_full fun _ => rfl)
      (Ve3 m ρ c) (Ve4 m ρ c) ((pdat m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segments : List (Pipeline.Seg (pcfgs (F := F)) admT (pdat m ρ) () defs₀ 𝒱ₙ Lₙ lvₙ) :=
  [ .host (hostSeg hostOps0 hostOps0_sub fresh0 (W0 m ρ)),
    .region (reg0 m ρ),
    .host (hostSeg hostOps1 hostOps1_sub fresh1 (W2 m ρ)),
    .region (reg1 m ρ),
    .host (hostSeg hostOps2 hostOps2_sub fresh2 (W4 m ρ)) ]
theorem main_is_segments (c : Dev nD) : main (F := F) c = Pipeline.Seg.run (segments m ρ) := (main_chain c).trans (by chain_rfl)

set_option backward.isDefEq.respectTransparency.types false in
/-- Every weakly fair execution of @main from memory `m` with zero counters terminates, nothing faulting, in a memory that
    holds the last boundary's contents at every unscoped buffer of every core. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) admT (pdat m ρ) () cellOf_inj emb₁ defs₀ 𝒱ₙ Lₙ lvₙ m ρ main (segments m ρ)
    (fun c Q => by rw [main_is_segments m ρ c])
    (by simp only [segments, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rest c)) (Tₙ := Tend m ρ)
    (hch := ⟨fun _ => .rfl, fun _ => .rfl, fun _ => .rfl, fun _ => .rfl, fun _ => .rfl, fun c => by
      change iprop(StableHlo.held (c : Thread nD τ) (Pipeline.ucRefs τ sig) (W5 m ρ c) ∗ Rest c)
        ⊢ iprop(Tend m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach Lₙ lvₙ fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

end Cert.Kernel.Hand

end
-- ==== Proof.Kernel.ArgsKept.lean ====
/-
  The arguments end as launched.  No host operation writes an argument's buffer, and no region does: the distance
  region's arrays are the two transposed copies and its output; the network region reads the first weight matrix and
  the last weight row through input windows, whose arrays are never written back, and every other argument is none of
  its arrays.  So the last boundary's contents at an argument's buffer walk back, boundary by boundary, to the launch
  memory.
-/
import proofs.«167137_j12017318494451_2_alg».proof.Proof.Kernel.Run

set_option maxHeartbeats 4000000
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

theorem W5_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_forall_not_mem (b := Proc.devRef .tc main_arg0) _ _ (List.forall_iff_forall_mem.mp (by
          simp only [hostOps2, List.Forall, StableHlo.unary_writes, StableHlo.binary_writes, StableHlo.reshape_writes, Finset.mem_singleton]
          repeat' apply And.intro
          all_goals exact StableHlo.devRef_ne_of_ne (by decide)))
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.Forall, StableHlo.unary_writes, StableHlo.binary_writes, StableHlo.reshape_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.Forall, StableHlo.unary_writes, StableHlo.binary_writes, StableHlo.reshape_writes, Finset.mem_singleton]
          repeat' apply And.intro
          all_goals exact StableHlo.devRef_ne_of_ne (by decide)))
    _ = m ((c : Thread nD τ).loc main_arg0) := rfl

theorem W5_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_forall_not_mem (b := Proc.devRef .tc main_arg1) _ _ (List.forall_iff_forall_mem.mp (by
          simp only [hostOps2, List.Forall, StableHlo.unary_writes, StableHlo.binary_writes, StableHlo.reshape_writes, Finset.mem_singleton]
          repeat' apply And.intro
          all_goals exact StableHlo.devRef_ne_of_ne (by decide)))
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.Forall, StableHlo.unary_writes, StableHlo.binary_writes, StableHlo.reshape_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.Forall, StableHlo.unary_writes, StableHlo.binary_writes, StableHlo.reshape_writes, Finset.mem_singleton]
          repeat' apply And.intro
          all_goals exact StableHlo.devRef_ne_of_ne (by decide)))
    _ = m ((c : Thread nD τ).loc main_arg1) := rfl

theorem W5_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_forall_not_mem (b := Proc.devRef .tc main_arg2) _ _ (List.forall_iff_forall_mem.mp (by
          simp only [hostOps2, List.Forall, StableHlo.unary_writes, StableHlo.binary_writes, StableHlo.reshape_writes, Finset.mem_singleton]
          repeat' apply And.intro
          all_goals exact StableHlo.devRef_ne_of_ne (by decide)))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.Forall, StableHlo.unary_writes, StableHlo.binary_writes, StableHlo.reshape_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.Forall, StableHlo.unary_writes, StableHlo.binary_writes, StableHlo.reshape_writes, Finset.mem_singleton]
          repeat' apply And.intro
          all_goals exact StableHlo.devRef_ne_of_ne (by decide)))
    _ = m ((c : Thread nD τ).loc main_arg2) := rfl

theorem W5_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_forall_not_mem (b := Proc.devRef .tc main_arg3) _ _ (List.forall_iff_forall_mem.mp (by
          simp only [hostOps2, List.Forall, StableHlo.unary_writes, StableHlo.binary_writes, StableHlo.reshape_writes, Finset.mem_singleton]
          repeat' apply And.intro
          all_goals exact StableHlo.devRef_ne_of_ne (by decide)))
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.Forall, StableHlo.unary_writes, StableHlo.binary_writes, StableHlo.reshape_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.Forall, StableHlo.unary_writes, StableHlo.binary_writes, StableHlo.reshape_writes, Finset.mem_singleton]
          repeat' apply And.intro
          all_goals exact StableHlo.devRef_ne_of_ne (by decide)))
    _ = m ((c : Thread nD τ).loc main_arg3) := rfl

theorem W5_arg4 (c : Dev nD) : W5 m ρ c (Proc.devRef .tc main_arg4) = m ((c : Thread nD τ).loc main_arg4) :=
  calc W5 m ρ c (Proc.devRef .tc main_arg4)
    _ = W4 m ρ c (Proc.devRef .tc main_arg4) := StableHlo.after_of_forall_not_mem (b := Proc.devRef .tc main_arg4) _ _ (List.forall_iff_forall_mem.mp (by
          simp only [hostOps2, List.Forall, StableHlo.unary_writes, StableHlo.binary_writes, StableHlo.reshape_writes, Finset.mem_singleton]
          repeat' apply And.intro
          all_goals exact StableHlo.devRef_ne_of_ne (by decide)))
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.Forall, StableHlo.unary_writes, StableHlo.binary_writes, StableHlo.reshape_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.Forall, StableHlo.unary_writes, StableHlo.binary_writes, StableHlo.reshape_writes, Finset.mem_singleton]
          repeat' apply And.intro
          all_goals exact StableHlo.devRef_ne_of_ne (by decide)))
    _ = m ((c : Thread nD τ).loc main_arg4) := rfl

theorem W5_arg5 (c : Dev nD) : W5 m ρ c (Proc.devRef .tc main_arg5) = m ((c : Thread nD τ).loc main_arg5) :=
  calc W5 m ρ c (Proc.devRef .tc main_arg5)
    _ = W4 m ρ c (Proc.devRef .tc main_arg5) := StableHlo.after_of_forall_not_mem (b := Proc.devRef .tc main_arg5) _ _ (List.forall_iff_forall_mem.mp (by
          simp only [hostOps2, List.Forall, StableHlo.unary_writes, StableHlo.binary_writes, StableHlo.reshape_writes, Finset.mem_singleton]
          repeat' apply And.intro
          all_goals exact StableHlo.devRef_ne_of_ne (by decide)))
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps1, List.Forall, StableHlo.unary_writes, StableHlo.binary_writes, StableHlo.reshape_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.Forall, StableHlo.unary_writes, StableHlo.binary_writes, StableHlo.reshape_writes, Finset.mem_singleton]
          repeat' apply And.intro
          all_goals exact StableHlo.devRef_ne_of_ne (by decide)))
    _ = m ((c : Thread nD τ).loc main_arg5) := rfl

theorem W5_arg6 (c : Dev nD) : W5 m ρ c (Proc.devRef .tc main_arg6) = m ((c : Thread nD τ).loc main_arg6) :=
  calc W5 m ρ c (Proc.devRef .tc main_arg6)
    _ = W4 m ρ c (Proc.devRef .tc main_arg6) := StableHlo.after_of_forall_not_mem (b := Proc.devRef .tc main_arg6) _ _ (List.forall_iff_forall_mem.mp (by
          simp only [hostOps2, List.Forall, StableHlo.unary_writes, StableHlo.binary_writes, StableHlo.reshape_writes, Finset.mem_singleton]
          repeat' apply And.intro
          all_goals exact StableHlo.devRef_ne_of_ne (by decide)))
    _ = W3 m ρ c (Proc.devRef .tc main_arg6) := (W4_arr m ρ c 5).trans (((dat1 (Ve3 m ρ) c).arrAt_in 5 rfl _).trans (A_eq1 (Ve3 m ρ) c 5))
    _ = W2 m ρ c (Proc.devRef .tc main_arg6) := StableHlo.after_of_forall_not_mem (b := Proc.devRef .tc main_arg6) _ _ (List.forall_iff_forall_mem.mp (by
          simp only [hostOps1, List.Forall, StableHlo.unary_writes, StableHlo.binary_writes, StableHlo.reshape_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.Forall, StableHlo.unary_writes, StableHlo.binary_writes, StableHlo.reshape_writes, Finset.mem_singleton]
          repeat' apply And.intro
          all_goals exact StableHlo.devRef_ne_of_ne (by decide)))
    _ = m ((c : Thread nD τ).loc main_arg6) := rfl

theorem W5_arg7 (c : Dev nD) : W5 m ρ c (Proc.devRef .tc main_arg7) = m ((c : Thread nD τ).loc main_arg7) :=
  calc W5 m ρ c (Proc.devRef .tc main_arg7)
    _ = W4 m ρ c (Proc.devRef .tc main_arg7) := StableHlo.after_of_forall_not_mem (b := Proc.devRef .tc main_arg7) _ _ (List.forall_iff_forall_mem.mp (by
          simp only [hostOps2, List.Forall, StableHlo.unary_writes, StableHlo.binary_writes, StableHlo.reshape_writes, Finset.mem_singleton]
          repeat' apply And.intro
          all_goals exact StableHlo.devRef_ne_of_ne (by decide)))
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps1, List.Forall, StableHlo.unary_writes, StableHlo.binary_writes, StableHlo.reshape_writes, Finset.mem_singleton]
          repeat' apply And.intro
          all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.Forall, StableHlo.unary_writes, StableHlo.binary_writes, StableHlo.reshape_writes, Finset.mem_singleton]
          repeat' apply And.intro
          all_goals exact StableHlo.devRef_ne_of_ne (by decide)))
    _ = m ((c : Thread nD τ).loc main_arg7) := rfl

theorem W5_arg8 (c : Dev nD) : W5 m ρ c (Proc.devRef .tc main_arg8) = m ((c : Thread nD τ).loc main_arg8) :=
  calc W5 m ρ c (Proc.devRef .tc main_arg8)
    _ = W4 m ρ c (Proc.devRef .tc main_arg8) := StableHlo.after_of_forall_not_mem (b := Proc.devRef .tc main_arg8) _ _ (List.forall_iff_forall_mem.mp (by
          simp only [hostOps2, List.Forall, StableHlo.unary_writes, StableHlo.binary_writes, StableHlo.reshape_writes, Finset.mem_singleton]
          repeat' apply And.intro
          all_goals exact StableHlo.devRef_ne_of_ne (by decide)))
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps1, List.Forall, StableHlo.unary_writes, StableHlo.binary_writes, StableHlo.reshape_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.Forall, StableHlo.unary_writes, StableHlo.binary_writes, StableHlo.reshape_writes, Finset.mem_singleton]
          repeat' apply And.intro
          all_goals exact StableHlo.devRef_ne_of_ne (by decide)))
    _ = m ((c : Thread nD τ).loc main_arg8) := rfl

theorem W5_arg9 (c : Dev nD) : W5 m ρ c (Proc.devRef .tc main_arg9) = m ((c : Thread nD τ).loc main_arg9) :=
  calc W5 m ρ c (Proc.devRef .tc main_arg9)
    _ = W4 m ρ c (Proc.devRef .tc main_arg9) := StableHlo.after_of_forall_not_mem (b := Proc.devRef .tc main_arg9) _ _ (List.forall_iff_forall_mem.mp (by
          simp only [hostOps2, List.Forall, StableHlo.unary_writes, StableHlo.binary_writes, StableHlo.reshape_writes, Finset.mem_singleton]
          repeat' apply And.intro
          all_goals exact StableHlo.devRef_ne_of_ne (by decide)))
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
          simp only [hostOps1, List.Forall, StableHlo.unary_writes, StableHlo.binary_writes, StableHlo.reshape_writes, Finset.mem_singleton]
          repeat' apply And.intro
          all_goals exact StableHlo.devRef_ne_of_ne (by decide)))
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.Forall, StableHlo.unary_writes, StableHlo.binary_writes, StableHlo.reshape_writes, Finset.mem_singleton]
          repeat' apply And.intro
          all_goals exact StableHlo.devRef_ne_of_ne (by decide)))
    _ = m ((c : Thread nD τ).loc main_arg9) := rfl

theorem W5_arg10 (c : Dev nD) : W5 m ρ c (Proc.devRef .tc main_arg10) = m ((c : Thread nD τ).loc main_arg10) :=
  calc W5 m ρ c (Proc.devRef .tc main_arg10)
    _ = W4 m ρ c (Proc.devRef .tc main_arg10) := StableHlo.after_of_forall_not_mem (b := Proc.devRef .tc main_arg10) _ _ (List.forall_iff_forall_mem.mp (by
          simp only [hostOps2, List.Forall, StableHlo.unary_writes, StableHlo.binary_writes, StableHlo.reshape_writes, Finset.mem_singleton]
          repeat' apply And.intro
          all_goals exact StableHlo.devRef_ne_of_ne (by decide)))
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
          simp only [hostOps1, List.Forall, StableHlo.unary_writes, StableHlo.binary_writes, StableHlo.reshape_writes, Finset.mem_singleton]
          repeat' apply And.intro
          all_goals exact StableHlo.devRef_ne_of_ne (by decide)))
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.Forall, StableHlo.unary_writes, StableHlo.binary_writes, StableHlo.reshape_writes, Finset.mem_singleton]
          repeat' apply And.intro
          all_goals exact StableHlo.devRef_ne_of_ne (by decide)))
    _ = m ((c : Thread nD τ).loc main_arg10) := rfl

theorem W5_arg11 (c : Dev nD) : W5 m ρ c (Proc.devRef .tc main_arg11) = m ((c : Thread nD τ).loc main_arg11) :=
  calc W5 m ρ c (Proc.devRef .tc main_arg11)
    _ = W4 m ρ c (Proc.devRef .tc main_arg11) := StableHlo.after_of_forall_not_mem (b := Proc.devRef .tc main_arg11) _ _ (List.forall_iff_forall_mem.mp (by
          simp only [hostOps2, List.Forall, StableHlo.unary_writes, StableHlo.binary_writes, StableHlo.reshape_writes, Finset.mem_singleton]
          repeat' apply And.intro
          all_goals exact StableHlo.devRef_ne_of_ne (by decide)))
    _ = W3 m ρ c (Proc.devRef .tc main_arg11) := W4_of_ne m ρ c main_arg11 (by decide)
    _ = W2 m ρ c (Proc.devRef .tc main_arg11) := StableHlo.after_of_forall_not_mem (b := Proc.devRef .tc main_arg11) _ _ (List.forall_iff_forall_mem.mp (by
          simp only [hostOps1, List.Forall, StableHlo.unary_writes, StableHlo.binary_writes, StableHlo.reshape_writes, Finset.mem_singleton]
          repeat' apply And.intro
          all_goals exact StableHlo.devRef_ne_of_ne (by decide)))
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.Forall, StableHlo.unary_writes, StableHlo.binary_writes, StableHlo.reshape_writes, Finset.mem_singleton]
          repeat' apply And.intro
          all_goals exact StableHlo.devRef_ne_of_ne (by decide)))
    _ = m ((c : Thread nD τ).loc main_arg11) := rfl

theorem W5_arg12 (c : Dev nD) : W5 m ρ c (Proc.devRef .tc main_arg12) = m ((c : Thread nD τ).loc main_arg12) :=
  calc W5 m ρ c (Proc.devRef .tc main_arg12)
    _ = W4 m ρ c (Proc.devRef .tc main_arg12) := StableHlo.after_of_forall_not_mem (b := Proc.devRef .tc main_arg12) _ _ (List.forall_iff_forall_mem.mp (by
          simp only [hostOps2, List.Forall, StableHlo.unary_writes, StableHlo.binary_writes, StableHlo.reshape_writes, Finset.mem_singleton]
          repeat' apply And.intro
          all_goals exact StableHlo.devRef_ne_of_ne (by decide)))
    _ = W3 m ρ c (Proc.devRef .tc main_arg12) := (W4_arr m ρ c 11).trans (((dat1 (Ve3 m ρ) c).arrAt_in 11 rfl _).trans (A_eq1 (Ve3 m ρ) c 11))
    _ = W2 m ρ c (Proc.devRef .tc main_arg12) := StableHlo.after_of_forall_not_mem (b := Proc.devRef .tc main_arg12) _ _ (List.forall_iff_forall_mem.mp (by
          simp only [hostOps1, List.Forall, StableHlo.unary_writes, StableHlo.binary_writes, StableHlo.reshape_writes, Finset.mem_singleton]
          repeat' apply And.intro
          all_goals exact StableHlo.devRef_ne_of_ne (by decide)))
    _ = W1 m ρ c (Proc.devRef .tc main_arg12) := W2_of_ne m ρ c main_arg12 (by decide)
    _ = W0 m ρ c (Proc.devRef .tc main_arg12) := StableHlo.after_of_forall_not_mem (b := Proc.devRef .tc main_arg12) _ _ (List.forall_iff_forall_mem.mp (by
          simp only [hostOps0, List.Forall, StableHlo.unary_writes, StableHlo.binary_writes, StableHlo.reshape_writes, Finset.mem_singleton]
          repeat' apply And.intro
          all_goals exact StableHlo.devRef_ne_of_ne (by decide)))
    _ = m ((c : Thread nD τ).loc main_arg12) := rfl

theorem W5_arg13 (c : Dev nD) : W5 m ρ c (Proc.devRef .tc main_arg13) = m ((c : Thread nD τ).loc main_arg13) :=
  calc W5 m ρ c (Proc.devRef .tc main_arg13)
    _ = W4 m ρ c (Proc.devRef .tc main_arg13) := StableHlo.after_of_forall_not_mem (b := Proc.devRef .tc main_arg13) _ _ (List.forall_iff_forall_mem.mp (by
          simp only [hostOps2, List.Forall, StableHlo.unary_writes, StableHlo.binary_writes, StableHlo.reshape_writes, Finset.mem_singleton]
          repeat' apply And.intro
          all_goals exact StableHlo.devRef_ne_of_ne (by decide)))
    _ = W3 m ρ c (Proc.devRef .tc main_arg13) := W4_of_ne m ρ c main_arg13 (by decide)
    _ = W2 m ρ c (Proc.devRef .tc main_arg13) := StableHlo.after_of_forall_not_mem (b := Proc.devRef .tc main_arg13) _ _ (List.forall_iff_forall_mem.mp (by
          simp only [hostOps1, List.Forall, StableHlo.unary_writes, StableHlo.binary_writes, StableHlo.reshape_writes, Finset.mem_singleton]
          repeat' apply And.intro
          all_goals exact StableHlo.devRef_ne_of_ne (by decide)))
    _ = W1 m ρ c (Proc.devRef .tc main_arg13) := W2_of_ne m ρ c main_arg13 (by decide)
    _ = W0 m ρ c (Proc.devRef .tc main_arg13) := StableHlo.after_of_forall_not_mem (b := Proc.devRef .tc main_arg13) _ _ (List.forall_iff_forall_mem.mp (by
          simp only [hostOps0, List.Forall, StableHlo.unary_writes, StableHlo.binary_writes, StableHlo.reshape_writes, Finset.mem_singleton]
          repeat' apply And.intro
          all_goals exact StableHlo.devRef_ne_of_ne (by decide)))
    _ = m ((c : Thread nD τ).loc main_arg13) := rfl

end Cert.Kernel.Hand

end
-- ==== Proof.RefLaws.lean ====
/-
  Laws of the extended reals used to read the reference program's stages.

  * The normalisation's epsilon is a positive real, and the pattern of plus infinity denotes the top element.
  * A quotient by the square root of a positive real is the product with the reciprocal square root of that real:
    for real y > 0 both sides are g times the real number 1 / sqrt y, whatever extended real g is.
  * The fold of binary minima from the top element over a finite family is the family's infimum.
-/
import proofs.«167137_j12017318494451_2_alg».proof.Proof.Spec
import Idealize.ShloMosaic.PureOps.Ideal.Laws

noncomputable section

namespace Cert.ReferenceIdeal.RefValue

open Idealize.ShloMosaic

/-- The epsilon's pattern denotes the positive real 10995116 / 2^40. -/
theorem eps_pos : ∃ e : ℝ, 0 < e ∧ Ideal.ofBits .f32 0x3727C5AC#32 = (e : EReal) := by
  refine ⟨10995116 * (2 ^ 40)⁻¹, by positivity, ?_⟩
  simp [Ideal.ofBits, Ideal.ieee]

/-- The pattern of plus infinity denotes the top element. -/
theorem top_f32 : Ideal.ofBits .f32 0x7F800000#32 = (⊤ : EReal) := by
  simp [Ideal.ofBits, Ideal.ieee]

/-- For a positive real y, g / sqrt y = g * (1 / sqrt y), for every extended real g. -/
theorem div_sqrt_eq_mul_rsqrt (g : EReal) {y : ℝ} (hy : 0 < y) :
    Ideal.div g (Ideal.sqrt (y : EReal)) = g * Ideal.rsqrt (y : EReal) := by
  have hs : 0 < Real.sqrt y := Real.sqrt_pos.2 hy
  rw [Ideal.sqrt_coe, Ideal.rsqrt_coe, if_neg (not_lt.2 hy.le), if_neg (not_lt.2 hy.le), if_neg hy.ne',
    Ideal.div_coe hs.ne', one_div]

/-- The same law at a variance that is a nonnegative real, with the epsilon added: the sum is a positive real. -/
theorem div_sqrt_add_eps (g rv : EReal) (h : ∃ r : ℝ, 0 ≤ r ∧ rv = (r : EReal)) :
    Ideal.div g (Ideal.sqrt (rv + Ideal.ofBits .f32 0x3727C5AC#32))
      = g * Ideal.rsqrt (rv + Ideal.ofBits .f32 0x3727C5AC#32) := by
  obtain ⟨r, hr, rfl⟩ := h
  obtain ⟨e, he, hE⟩ := eps_pos
  rw [hE, ← EReal.coe_add]
  exact div_sqrt_eq_mul_rsqrt g (by linarith)

/-- The fold of binary minima from the top over a finite family is its infimum. -/
theorem fold_min_top {ι : Type*} [Fintype ι] (f : ι → EReal) :
    (Finset.univ : Finset ι).fold min ⊤ f = ⨅ n, f n := by
  rw [← Finset.inf_univ_eq_iInf]; rfl

end Cert.ReferenceIdeal.RefValue

end
-- ==== Proof.RefFeat.lean ====
/-
  The reference program's feature stage, read index by index: the stage that holds the square root of the minimum
  over the points is, at (b, m), the specification's distance from basis point m to the nearest point of cloud b.

  Each lemma reads one stage at a coordinate index: the transposed cloud, the squared norms (sums over the three
  coordinates, from a zero initial value), the inner product, the clamped polarisation expression, the minimum over
  the points (a fold of binary minima from plus infinity over the 20000 coordinates of the reduced axis, hence the
  infimum), and the square root.
-/
import proofs.«167137_j12017318494451_2_alg».proof.Proof.RefLaws
import proofs.«167137_j12017318494451_2_alg».proof.Proof.Gen.ReferenceIdeal.Read

noncomputable section

namespace Cert.ReferenceIdeal.RefValue

open Cert.ReferenceIdeal Cert.ReferenceIdeal.Gen Cert.ReferenceIdeal.Read Idealize.ShloMosaic Idealize.ShloMosaic.ValueIdx

/-- The transposed cloud at (b, n, d) is the cloud at (b, d, n). -/
theorem v0_at (x0 : (⟨S8x3x20000, .f32⟩ : BufTy).Contents (Elt Ideal)) (b : Fin 8) (n : Fin 20000) (d : Fin 3) :
    val_main_v0 (F := Ideal) x0 (ix3 b n d) = x0 (ix3 b d n) := by
  rw [val_main_v0_apply]
  exact congrArg x0 (funext fun a => Fin.ext (by match a with | ⟨0, _⟩ => rfl | ⟨1, _⟩ => rfl | ⟨2, _⟩ => rfl))

/-- The squared norm of point n of cloud b. -/
theorem v2_at (x0 : (⟨S8x3x20000, .f32⟩ : BufTy).Contents (Elt Ideal)) (b : Fin 8) (n : Fin 20000) :
    val_main_v2 (F := Ideal) x0 (ix2 b n) = Cert.Spec.ptSq x0 b n := by
  rw [val_main_v2_apply, val_main_cst_apply, Ideal.ofBits_def, Ideal.ofBits_zero_f32, zero_add]
  unfold Cert.Spec.ptSq
  refine Finset.sum_congr rfl fun d _ => ?_
  have e : idx_main_v2 (ix2 b n) d = ix3 b n d :=
    funext fun a => Fin.ext (by match a with | ⟨0, _⟩ => rfl | ⟨1, _⟩ => rfl | ⟨2, _⟩ => rfl)
  rw [val_main_v1_apply, e, v0_at, Ideal.mulf_def]

/-- The squared norm of basis point m. -/
theorem v4_at (x1 : (⟨S1024x3, .f32⟩ : BufTy).Contents (Elt Ideal)) (m : Fin 1024) :
    val_main_v4 (F := Ideal) x1 (ix1 m) = Cert.Spec.basisSq x1 m := by
  rw [val_main_v4_apply, val_main_cst_0_apply, Ideal.ofBits_def, Ideal.ofBits_zero_f32, zero_add]
  unfold Cert.Spec.basisSq
  refine Finset.sum_congr rfl fun d _ => ?_
  have e : idx_main_v4 (ix1 m) d = ix2 m d :=
    funext fun a => Fin.ext (by match a with | ⟨0, _⟩ => rfl | ⟨1, _⟩ => rfl)
  rw [val_main_v3_apply, e, Ideal.mulf_def]

/-- The inner product of point n of cloud b with basis point m. -/
theorem v5_at (x0 : (⟨S8x3x20000, .f32⟩ : BufTy).Contents (Elt Ideal)) (x1 : (⟨S1024x3, .f32⟩ : BufTy).Contents (Elt Ideal))
    (b : Fin 8) (n : Fin 20000) (m : Fin 1024) :
    val_main_v5 (F := Ideal) x0 x1 (ix3 b n m) = Cert.Spec.inner x0 x1 b n m := by
  rw [val_main_v5_apply]
  unfold Cert.Spec.inner
  refine Finset.sum_congr rfl fun d _ => ?_
  have el : lidx_main_v5 (ix3 b n m) d = ix3 b n d :=
    funext fun a => Fin.ext (by match a with | ⟨0, _⟩ => rfl | ⟨1, _⟩ => rfl | ⟨2, _⟩ => rfl)
  have er : ridx_main_v5 (ix3 b n m) d = ix2 m d :=
    funext fun a => Fin.ext (by match a with | ⟨0, _⟩ => rfl | ⟨1, _⟩ => rfl)
  rw [el, er, v0_at]

/-- The clamped squared distance from point n of cloud b to basis point m. -/
theorem v14_at (x0 : (⟨S8x3x20000, .f32⟩ : BufTy).Contents (Elt Ideal)) (x1 : (⟨S1024x3, .f32⟩ : BufTy).Contents (Elt Ideal))
    (b : Fin 8) (n : Fin 20000) (m : Fin 1024) :
    val_main_v14 (F := Ideal) x0 x1 (ix3 b n m) = Cert.Spec.dist2 x0 x1 b n m := by
  have e8 : idx_main_v6 (idx_main_v8 (ix3 b n m)) = ix2 b n :=
    funext fun a => Fin.ext (by match a with | ⟨0, _⟩ => rfl | ⟨1, _⟩ => rfl)
  have e9 : idx_main_v7 (idx_main_v9 (ix3 b n m)) = ix1 m :=
    funext fun a => Fin.ext (by match a with | ⟨0, _⟩ => rfl)
  rw [val_main_v14_apply, val_main_call0_v1_apply, val_main_call0_v0_apply, val_main_cst_2_apply, val_main_v13_apply,
    val_main_v10_apply, val_main_v8_apply, val_main_v6_apply, val_main_v9_apply, val_main_v7_apply, val_main_v12_apply,
    val_main_v11_apply, val_main_cst_1_apply, e8, e9, v2_at, v4_at, v5_at]
  simp only [Ideal.ofBits_def, Ideal.addf_def, Ideal.subf_def, Ideal.mulf_def, Ideal.maximumf_def, Ideal.ofBits_zero_f32]
  unfold Cert.Spec.dist2 Cert.Spec.two
  exact max_comm _ _

/-- The reduced index (b, m) with coordinate k put back on the points' axis is (b, k, m). -/
theorem lift_points (h : S8x20000x1024.Reduces [1] S8x1024) (b : Fin 8) (m : Fin 1024) (k : Fin (S8x20000x1024.size 1)) :
    h.lift (ix2 b m) k = ix3 b (⟨k.val, k.isLt⟩ : Fin 20000) m := by
  funext c; apply Fin.ext
  fin_cases c <;> rfl

/-- The minimum over the points, from plus infinity, is the infimum of the clamped squared distances. -/
theorem v15_at (x0 : (⟨S8x3x20000, .f32⟩ : BufTy).Contents (Elt Ideal)) (x1 : (⟨S1024x3, .f32⟩ : BufTy).Contents (Elt Ideal))
    (b : Fin 8) (m : Fin 1024) :
    val_main_v15 (F := Ideal) x0 x1 (ix2 b m) = ⨅ n : Fin 20000, Cert.Spec.dist2 x0 x1 b n m := by
  have h : S8x20000x1024.Reduces [1] S8x1024 := by decide
  unfold val_main_v15
  rw [Host.reduce_eq_fold_single FloatOps.minimumf _ _ reducesTo_S8x20000x1024_S8x1024_d1 h h_S_,
    val_main_cst_3_apply, Ideal.ofBits_def, top_f32]
  have hf : (val_main_v14 (F := Ideal) x0 x1 ∘ h.lift (ix2 b m)) = fun k : Fin 20000 => Cert.Spec.dist2 x0 x1 b k m :=
    funext fun k => by
      show val_main_v14 (F := Ideal) x0 x1 (h.lift (ix2 b m) k) = _
      rw [lift_points, v14_at]
      rfl
  rw [hf]
  exact fold_min_top fun k : Fin 20000 => Cert.Spec.dist2 x0 x1 b k m

/-- The feature stage at (b, m) is the specification's feature. -/
theorem v16_at (x0 : (⟨S8x3x20000, .f32⟩ : BufTy).Contents (Elt Ideal)) (x1 : (⟨S1024x3, .f32⟩ : BufTy).Contents (Elt Ideal))
    (b : Fin 8) (m : Fin 1024) :
    val_main_v16 (F := Ideal) x0 x1 (ix2 b m) = Cert.Spec.feat x0 x1 b m := by
  rw [val_main_v16_apply, Ideal.hostUnary_sqrt_def, v15_at]
  rfl

end Cert.ReferenceIdeal.RefValue

end
-- ==== Proof.RefSpec.lean ====
/-
  The reference program computes the specification: its last stage, as a function of the fourteen argument arrays,
  is the specification's result, provided the two running variances are nonnegative reals.

  The stages after the feature stage are read at a coordinate index one at a time: the first normalisation, the first
  dense layer with its rectifier, the second normalisation, the final dense layer.  A normalisation in the reference
  divides the gain by the square root of the variance plus epsilon, where the specification multiplies the gain by the
  reciprocal square root; for a nonnegative real variance the two multipliers are the same extended real.  The dense
  layers contract against the transposed weights, so the weight read at (k, j) of the transposed array is the weight
  at (j, k); a maximum with zero is taken with the operands in either order.
-/
import proofs.«167137_j12017318494451_2_alg».proof.Proof.RefFeat

noncomputable section

namespace Cert.ReferenceIdeal.RefValue

open Cert.ReferenceIdeal Cert.ReferenceIdeal.Gen Cert.ReferenceIdeal.Read Idealize.ShloMosaic Idealize.ShloMosaic.ValueIdx

/-- The first normalisation at (b, k): the specification's, applied to the feature. -/
theorem v29_at (x0 : (⟨S8x3x20000, .f32⟩ : BufTy).Contents (Elt Ideal)) (x1 : (⟨S1024x3, .f32⟩ : BufTy).Contents (Elt Ideal))
    (x2 x3 x4 x5 : (⟨S1024, .f32⟩ : BufTy).Contents (Elt Ideal)) (hrv1 : ∀ i, ∃ r : ℝ, 0 ≤ r ∧ x5 i = (r : EReal)) (b : Fin 8) (k : Fin 1024) :
    val_main_v29 (F := Ideal) x0 x1 x2 x3 x4 x5 (ix2 b k)
      = Cert.Spec.norm x2 x3 x4 x5 k (Cert.Spec.feat x0 x1 b k) := by
  have e18 : idx_main_v17 (idx_main_v18 (ix2 b k)) = ix1 k := funext fun a => Fin.ext (by match a with | ⟨0, _⟩ => rfl)
  have e25 : idx_main_v24 (idx_main_v25 (ix2 b k)) = ix1 k := funext fun a => Fin.ext (by match a with | ⟨0, _⟩ => rfl)
  have e28 : idx_main_v27 (idx_main_v28 (ix2 b k)) = ix1 k := funext fun a => Fin.ext (by match a with | ⟨0, _⟩ => rfl)
  rw [val_main_v29_apply, val_main_v26_apply, val_main_v19_apply, val_main_v18_apply, val_main_v17_apply,
    val_main_v25_apply, val_main_v24_apply, val_main_v23_apply, val_main_v22_apply, val_main_v21_apply,
    val_main_v20_apply, val_main_cst_4_apply, val_main_v28_apply, val_main_v27_apply, e18, e25, e28, v16_at]
  simp only [Ideal.ofBits_def, Ideal.addf_def, Ideal.subf_def, Ideal.mulf_def, Ideal.hostDivf_def,
    Ideal.hostUnary_sqrt_def]
  rw [div_sqrt_add_eps _ _ (hrv1 (ix1 k))]
  rfl

/-- The first dense layer with its rectifier at (b, j). -/
theorem v35_at (x0 : (⟨S8x3x20000, .f32⟩ : BufTy).Contents (Elt Ideal)) (x1 : (⟨S1024x3, .f32⟩ : BufTy).Contents (Elt Ideal))
    (x2 x3 x4 x5 : (⟨S1024, .f32⟩ : BufTy).Contents (Elt Ideal)) (x6 : (⟨S1024x1024, .f32⟩ : BufTy).Contents (Elt Ideal))
    (x7 : (⟨S1024, .f32⟩ : BufTy).Contents (Elt Ideal)) (hrv1 : ∀ i, ∃ r : ℝ, 0 ≤ r ∧ x5 i = (r : EReal)) (b : Fin 8) (j : Fin 1024) :
    val_main_v35 (F := Ideal) x0 x1 x2 x3 x4 x5 x6 x7 (ix2 b j)
      = Cert.Spec.hidden x0 x1 x2 x3 x4 x5 x6 x7 b j := by
  have e33 : idx_main_v32 (idx_main_v33 (ix2 b j)) = ix1 j := funext fun a => Fin.ext (by match a with | ⟨0, _⟩ => rfl)
  rw [val_main_v35_apply, val_main_call1_v0_apply, val_main_call1_cst_apply, val_main_v34_apply, val_main_v33_apply,
    val_main_v32_apply, e33, val_main_v31_apply]
  simp only [Ideal.ofBits_def, Ideal.addf_def, Ideal.maximumf_def, Ideal.ofBits_zero_f32]
  unfold Cert.Spec.hidden
  refine congrArg (fun s => max (s + x7 (ix1 j)) 0) (Finset.sum_congr rfl fun k _ => ?_)
  have el : lidx_main_v31 (ix2 b j) k = ix2 b k := funext fun a => Fin.ext (by match a with | ⟨0, _⟩ => rfl | ⟨1, _⟩ => rfl)
  have er : idx_main_v30 (ridx_main_v31 (ix2 b j) k) = ix2 j k := funext fun a => Fin.ext (by match a with | ⟨0, _⟩ => rfl | ⟨1, _⟩ => rfl)
  rw [el, val_main_v30_apply, er, v29_at x0 x1 x2 x3 x4 x5 hrv1]

/-- The second normalisation at (b, j): the specification's, applied to the hidden unit. -/
theorem v48_at (x0 : (⟨S8x3x20000, .f32⟩ : BufTy).Contents (Elt Ideal)) (x1 : (⟨S1024x3, .f32⟩ : BufTy).Contents (Elt Ideal))
    (x2 x3 x4 x5 : (⟨S1024, .f32⟩ : BufTy).Contents (Elt Ideal)) (x6 : (⟨S1024x1024, .f32⟩ : BufTy).Contents (Elt Ideal))
    (x7 x8 x9 x10 x11 : (⟨S1024, .f32⟩ : BufTy).Contents (Elt Ideal)) (hrv1 : ∀ i, ∃ r : ℝ, 0 ≤ r ∧ x5 i = (r : EReal))
    (hrv2 : ∀ i, ∃ r : ℝ, 0 ≤ r ∧ x11 i = (r : EReal)) (b : Fin 8) (j : Fin 1024) :
    val_main_v48 (F := Ideal) x0 x1 x2 x3 x4 x5 x6 x7 x8 x9 x10 x11 (ix2 b j)
      = Cert.Spec.norm x8 x9 x10 x11 j (Cert.Spec.hidden x0 x1 x2 x3 x4 x5 x6 x7 b j) := by
  have e37 : idx_main_v36 (idx_main_v37 (ix2 b j)) = ix1 j := funext fun a => Fin.ext (by match a with | ⟨0, _⟩ => rfl)
  have e44 : idx_main_v43 (idx_main_v44 (ix2 b j)) = ix1 j := funext fun a => Fin.ext (by match a with | ⟨0, _⟩ => rfl)
  have e47 : idx_main_v46 (idx_main_v47 (ix2 b j)) = ix1 j := funext fun a => Fin.ext (by match a with | ⟨0, _⟩ => rfl)
  rw [val_main_v48_apply, val_main_v45_apply, val_main_v38_apply, val_main_v37_apply, val_main_v36_apply,
    val_main_v44_apply, val_main_v43_apply, val_main_v42_apply, val_main_v41_apply, val_main_v40_apply,
    val_main_v39_apply, val_main_cst_5_apply, val_main_v47_apply, val_main_v46_apply, e37, e44, e47,
    v35_at x0 x1 x2 x3 x4 x5 x6 x7 hrv1]
  simp only [Ideal.ofBits_def, Ideal.addf_def, Ideal.subf_def, Ideal.mulf_def, Ideal.hostDivf_def,
    Ideal.hostUnary_sqrt_def]
  rw [div_sqrt_add_eps _ _ (hrv2 (ix1 j))]
  rfl

/-- The reference program's result is the specification's, when both running variances are nonnegative reals. -/
theorem ref_result_eq (x0 : (⟨S8x3x20000, .f32⟩ : BufTy).Contents (Elt Ideal)) (x1 : (⟨S1024x3, .f32⟩ : BufTy).Contents (Elt Ideal))
    (x2 x3 x4 x5 : (⟨S1024, .f32⟩ : BufTy).Contents (Elt Ideal)) (x6 : (⟨S1024x1024, .f32⟩ : BufTy).Contents (Elt Ideal))
    (x7 x8 x9 x10 x11 : (⟨S1024, .f32⟩ : BufTy).Contents (Elt Ideal)) (x12 : (⟨S1x1024, .f32⟩ : BufTy).Contents (Elt Ideal))
    (x13 : (⟨S1, .f32⟩ : BufTy).Contents (Elt Ideal)) (hrv1 : ∀ i, ∃ r : ℝ, 0 ≤ r ∧ x5 i = (r : EReal))
    (hrv2 : ∀ i, ∃ r : ℝ, 0 ≤ r ∧ x11 i = (r : EReal)) :
    val_main_v53 (F := Ideal) x0 x1 x2 x3 x4 x5 x6 x7 x8 x9 x10 x11 x12 x13
      = Cert.Spec.result x0 x1 x2 x3 x4 x5 x6 x7 x8 x9 x10 x11 x12 x13 := by
  funext i
  obtain ⟨b, q, rfl⟩ : ∃ (b : Fin 8) (q : Fin 1), i = ix2 b q := ⟨i 0, i 1, eq_ix2 i⟩
  obtain rfl : q = 0 := Subsingleton.elim _ _
  have e52 : idx_main_v51 (idx_main_v52 (ix2 b (0 : Fin 1))) = ix1 (0 : Fin 1) := funext fun a => Fin.ext (by match a with | ⟨0, _⟩ => rfl)
  rw [val_main_v53_apply, val_main_v52_apply, val_main_v51_apply, e52, val_main_v50_apply]
  simp only [Ideal.addf_def]
  show _ = Cert.Spec.out x0 x1 x2 x3 x4 x5 x6 x7 x8 x9 x10 x11 x12 x13 b
  unfold Cert.Spec.out
  refine congrArg (fun s => s + x13 (ix1 (0 : Fin 1))) (Finset.sum_congr rfl fun j _ => ?_)
  have el : lidx_main_v50 (ix2 b (0 : Fin 1)) j = ix2 b j := funext fun a => Fin.ext (by match a with | ⟨0, _⟩ => rfl | ⟨1, _⟩ => rfl)
  have er : idx_main_v49 (ridx_main_v50 (ix2 b (0 : Fin 1)) j) = ix2 (0 : Fin 1) j := funext fun a => Fin.ext (by match a with | ⟨0, _⟩ => rfl | ⟨1, _⟩ => rfl)
  rw [el, val_main_v49_apply, er, v48_at x0 x1 x2 x3 x4 x5 x6 x7 x8 x9 x10 x11 hrv1 hrv2]

end Cert.ReferenceIdeal.RefValue

end
-- ==== Proof.PreFacts.lean ====
/-
  What the precondition says of the two running variances: every entry of each is a nonnegative real.

  The precondition is a conjunction, over the arguments, of "every entry has absolute value below plus infinity", and
  of "every entry is at least zero" for the two variance arrays.  A conjunction of bits that is one has both bits one;
  a conjunction over an array that is one has every entry's bit one.  An extended real x with max x (-x) below the top
  is not the top, an extended real at least zero is not the bottom, and what is neither is a real.
-/
import proofs.«167137_j12017318494451_2_alg».proof.Pre_finite_inputs
import Idealize.ShloMosaic.Lib.ReduceAll
import Idealize.ShloMosaic.Lib.ValueIdx
import Idealize.ShloMosaic.PureOps.Ideal.Laws

noncomputable section

namespace Cert.PreFacts

open Idealize.ShloMosaic Cert.Pre_finite_inputs

variable [Cert.Pre_finite_inputs.Facts]
open Cert.Pre_finite_inputs.Facts

/-- The scalar shape has one index. -/
instance : Subsingleton S_.Idx := ⟨fun a b => funext fun d => d.elim0⟩

/-- The bit of a truth value is one exactly when it is true. -/
theorem ofBool_eq_one_iff (b : Bool) : BitVec.ofBool b = 1#1 ↔ b = true := by cases b <;> decide

/-- A comparison "x at least zero" that answers one says so. -/
theorem ge_zero_of_cmp (x : EReal)
    (h : FloatOps.cmpf (F := Ideal) (φ := .f32) .oge x (FloatOps.ofBits .f32 0x00000000#32) = 1#1) : 0 ≤ x := by
  simpa [Ideal.cmpf_def, Ideal.cmp, Ideal.ofBits_zero_f32, ofBool_eq_one_iff] using h

/-- A comparison "the absolute value of x is below plus infinity" that answers one says x is not the top. -/
theorem ne_top_of_cmp (x : EReal)
    (h : FloatOps.cmpf (F := Ideal) (φ := .f32) .olt (FloatOps.hostAbsf x) (FloatOps.ofBits .f32 0x7F800000#32) = 1#1) :
    x ≠ ⊤ := by
  have h' : x < ⊤ ∧ -x < ⊤ := by
    simpa [Ideal.cmpf_def, Ideal.cmp, Ideal.absf_def, Ideal.ofBits, Ideal.ieee, ofBool_eq_one_iff] using h
  exact h'.1.ne

/-- An extended real that is at least zero and not the top is a nonnegative real. -/
theorem real_of (x : EReal) (h0 : 0 ≤ x) (ht : x ≠ ⊤) : ∃ r : ℝ, 0 ≤ r ∧ x = (r : EReal) := by
  induction x using EReal.rec with
  | bot => simp at h0
  | top => exact absurd rfl ht
  | coe r => exact ⟨r, by exact_mod_cast h0, rfl⟩

/-- The last part: its conjunction carries the two "at least zero" conjuncts. -/
theorem part4_one (a5 a11 : FVec Ideal S1024 .f32) (v63 v67 : IVec S_ 1)
    (h : fn_part4 (F := Ideal) a5 a11 v63 v67 ValueIdx.ix0 = 1#1) :
    v63 ValueIdx.ix0 = 1#1 ∧ (∀ i, 0 ≤ a5 i) ∧ (∀ i, 0 ≤ a11 i) := by
  dsimp only [fn_part4] at h
  obtain ⟨h72, h75⟩ := IntOp.andi_eq_one.1 h
  obtain ⟨h68, h71⟩ := IntOp.andi_eq_one.1 h72
  obtain ⟨h63, _⟩ := IntOp.andi_eq_one.1 h68
  exact ⟨h63, fun i => ge_zero_of_cmp _ (Host.reduce_andi_all _ _ _ _ _ h71 i),
    fun i => ge_zero_of_cmp _ (Host.reduce_andi_all _ _ _ _ _ h75 i)⟩

/-- The third part: its conjunction carries the finiteness of the second variance. -/
theorem part3_one (a5 a11 : FVec Ideal S1024 .f32) (a12 : FVec Ideal S1x1024 .f32) (a13 : FVec Ideal S1 .f32) (v48 : IVec S_ 1)
    (v49 v50 : FVec Ideal S1024 .f32)
    (h : fn_part3 (F := Ideal) a5 a11 a12 a13 v48 v49 v50 ValueIdx.ix0 = 1#1) :
    v48 ValueIdx.ix0 = 1#1 ∧ (∀ i, a11 i ≠ ⊤) ∧ (∀ i, 0 ≤ a5 i) ∧ (∀ i, 0 ≤ a11 i) := by
  dsimp only [fn_part3] at h
  obtain ⟨h63, h5, h11⟩ := part4_one _ _ _ _ h
  obtain ⟨h58, _⟩ := IntOp.andi_eq_one.1 h63
  obtain ⟨h53, h57⟩ := IntOp.andi_eq_one.1 h58
  obtain ⟨h48, _⟩ := IntOp.andi_eq_one.1 h53
  exact ⟨h48, fun i => ne_top_of_cmp _ (Host.reduce_andi_all _ _ _ _ _ h57 i), h5, h11⟩

/-- The second part hands the first part's conjunction through. -/
theorem part2_one (a5 a7 a8 a9 a10 a11 : FVec Ideal S1024 .f32) (a12 : FVec Ideal S1x1024 .f32) (a13 : FVec Ideal S1 .f32)
    (v33 : IVec S_ 1)
    (h : fn_part2 (F := Ideal) a5 a7 a8 a9 a10 a11 a12 a13 v33 ValueIdx.ix0 = 1#1) :
    v33 ValueIdx.ix0 = 1#1 ∧ (∀ i, a11 i ≠ ⊤) ∧ (∀ i, 0 ≤ a5 i) ∧ (∀ i, 0 ≤ a11 i) := by
  dsimp only [fn_part2] at h
  obtain ⟨h48, hf11, h5, h11⟩ := part3_one _ _ _ _ _ _ _ h
  obtain ⟨h43, _⟩ := IntOp.andi_eq_one.1 h48
  obtain ⟨h38, _⟩ := IntOp.andi_eq_one.1 h43
  obtain ⟨h33, _⟩ := IntOp.andi_eq_one.1 h38
  exact ⟨h33, hf11, h5, h11⟩

/-- The first part: its conjunction carries the finiteness of the first variance. -/
theorem part1_one (a4 a5 : FVec Ideal S1024 .f32) (a6 : FVec Ideal S1024x1024 .f32) (a7 a8 a9 a10 a11 : FVec Ideal S1024 .f32)
    (a12 : FVec Ideal S1x1024 .f32) (a13 : FVec Ideal S1 .f32) (v13 : IVec S_ 1) (v16 : IVec S1024 1)
    (h : fn_part1 (F := Ideal) a4 a5 a6 a7 a8 a9 a10 a11 a12 a13 v13 v16 ValueIdx.ix0 = 1#1) :
    (∀ i, a5 i ≠ ⊤) ∧ (∀ i, a11 i ≠ ⊤) ∧ (∀ i, 0 ≤ a5 i) ∧ (∀ i, 0 ≤ a11 i) := by
  dsimp only [fn_part1] at h
  obtain ⟨h33, hf11, h5, h11⟩ := part2_one _ _ _ _ _ _ _ _ _ h
  obtain ⟨h28, _⟩ := IntOp.andi_eq_one.1 h33
  obtain ⟨_, h27⟩ := IntOp.andi_eq_one.1 h28
  exact ⟨fun i => ne_top_of_cmp _ (Host.reduce_andi_all _ _ _ _ _ h27 i), hf11, h5, h11⟩

/-- Under the precondition every entry of each running variance is a nonnegative real. -/
theorem rv_facts (a0 : FVec Ideal S8x3x20000 .f32) (a1 : FVec Ideal S1024x3 .f32) (a2 a3 a4 a5 : FVec Ideal S1024 .f32)
    (a6 : FVec Ideal S1024x1024 .f32) (a7 a8 a9 a10 a11 : FVec Ideal S1024 .f32) (a12 : FVec Ideal S1x1024 .f32)
    (a13 : FVec Ideal S1 .f32)
    (h : Cert.Pre_finite_inputs.fn (F := Ideal) a0 a1 a2 a3 a4 a5 a6 a7 a8 a9 a10 a11 a12 a13 = fun _ => 1#1) :
    (∀ i, ∃ r : ℝ, 0 ≤ r ∧ a5 i = (r : EReal)) ∧ (∀ i, ∃ r : ℝ, 0 ≤ r ∧ a11 i = (r : EReal)) := by
  have h0 := congrFun h ValueIdx.ix0
  dsimp only [fn] at h0
  obtain ⟨hf5, hf11, h5, h11⟩ := part1_one _ _ _ _ _ _ _ _ _ _ _ _ h0
  exact ⟨fun i => real_of _ (h5 i) (hf5 i), fun i => real_of _ (h11 i) (hf11 i)⟩

end Cert.PreFacts

end
-- ==== Proof.Claims.lean ====
/-
  The five claims.

  The three programs run to the end without a fault and leave their argument arrays as launched: for the kernel program, read
  at words and read on the extended reals, this is the run of its five stretches — host operations, the distance kernel's
  region, host operations, the network kernel's region, host operations — whose last memory holds every argument at its
  launch contents, no host operation and no region writing one; for the reference it is its run.

  On the extended reals the kernel program's result and the reference's are one function of the argument arrays
  (Cert.Spec.result): the distance from each basis point to the nearest point of each cloud — the kernel folds a running
  minimum over ten tiles of 2000 points, the reference takes the minimum over all 20000 —, then two normalisations and two
  dense layers.  The one place the two spellings differ is the normalisation's multiplier, gain times the reciprocal square
  root of variance plus epsilon against gain over the square root of it: equal because the precondition makes every running
  variance a nonnegative real, so that variance plus epsilon is a positive real.
-/
import proofs.«167137_j12017318494451_2_alg».proof.Defs
import proofs.«167137_j12017318494451_2_alg».proof.Proof.KernelIdeal.Result
import proofs.«167137_j12017318494451_2_alg».proof.Proof.KernelIdeal.ArgsKept
import proofs.«167137_j12017318494451_2_alg».proof.Proof.Kernel.Run
import proofs.«167137_j12017318494451_2_alg».proof.Proof.Kernel.ArgsKept
import proofs.«167137_j12017318494451_2_alg».proof.Proof.RefSpec
import proofs.«167137_j12017318494451_2_alg».proof.Proof.PreFacts
import proofs.«167137_j12017318494451_2_alg».proof.Proof.Gen.Kernel
import proofs.«167137_j12017318494451_2_alg».proof.Proof.Gen.KernelIdeal
import proofs.«167137_j12017318494451_2_alg».proof.Proof.Gen.ReferenceIdeal
import proofs.«167137_j12017318494451_2_alg».proof.Proof.Gen.ReferenceIdeal.Run
import proofs.«167137_j12017318494451_2_alg».proof.Proof.Gen.ReferenceIdeal.Read
import proofs.«167137_j12017318494451_2_alg».proof.Proof.Gen.Pre_finite_inputs

set_option maxRecDepth 16384

noncomputable section

namespace Cert.Proof.Claims

open Idealize.ShloMosaic Idealize.ShloMosaic.TcCoe Idealize.SL.Sem

variable [hKernel : Cert.Kernel.Facts] [hKernelIdeal : Cert.KernelIdeal.Facts] [hReferenceIdeal : Cert.ReferenceIdeal.Facts]
  [hPre_finite_inputs : Cert.Pre_finite_inputs.Facts]

/-- The word-level kernel program runs and leaves its arguments as launched. -/
theorem frame_k : Cert.frame_Kernel := fun m ρ _ =>
  (θ_run Cert.Kernel.defs _ _).mono (fun r h c =>
    ⟨(h c _ (Cert.Kernel.Hand.mem_uc Cert.Kernel.main_arg0 (by decide))).trans (Cert.Kernel.Hand.W5_arg0 m ρ c),
      (h c _ (Cert.Kernel.Hand.mem_uc Cert.Kernel.main_arg1 (by decide))).trans (Cert.Kernel.Hand.W5_arg1 m ρ c),
      (h c _ (Cert.Kernel.Hand.mem_uc Cert.Kernel.main_arg2 (by decide))).trans (Cert.Kernel.Hand.W5_arg2 m ρ c),
      (h c _ (Cert.Kernel.Hand.mem_uc Cert.Kernel.main_arg3 (by decide))).trans (Cert.Kernel.Hand.W5_arg3 m ρ c),
      (h c _ (Cert.Kernel.Hand.mem_uc Cert.Kernel.main_arg4 (by decide))).trans (Cert.Kernel.Hand.W5_arg4 m ρ c),
      (h c _ (Cert.Kernel.Hand.mem_uc Cert.Kernel.main_arg5 (by decide))).trans (Cert.Kernel.Hand.W5_arg5 m ρ c),
      (h c _ (Cert.Kernel.Hand.mem_uc Cert.Kernel.main_arg6 (by decide))).trans (Cert.Kernel.Hand.W5_arg6 m ρ c),
      (h c _ (Cert.Kernel.Hand.mem_uc Cert.Kernel.main_arg7 (by decide))).trans (Cert.Kernel.Hand.W5_arg7 m ρ c),
      (h c _ (Cert.Kernel.Hand.mem_uc Cert.Kernel.main_arg8 (by decide))).trans (Cert.Kernel.Hand.W5_arg8 m ρ c),
      (h c _ (Cert.Kernel.Hand.mem_uc Cert.Kernel.main_arg9 (by decide))).trans (Cert.Kernel.Hand.W5_arg9 m ρ c),
      (h c _ (Cert.Kernel.Hand.mem_uc Cert.Kernel.main_arg10 (by decide))).trans (Cert.Kernel.Hand.W5_arg10 m ρ c),
      (h c _ (Cert.Kernel.Hand.mem_uc Cert.Kernel.main_arg11 (by decide))).trans (Cert.Kernel.Hand.W5_arg11 m ρ c),
      (h c _ (Cert.Kernel.Hand.mem_uc Cert.Kernel.main_arg12 (by decide))).trans (Cert.Kernel.Hand.W5_arg12 m ρ c),
      (h c _ (Cert.Kernel.Hand.mem_uc Cert.Kernel.main_arg13 (by decide))).trans (Cert.Kernel.Hand.W5_arg13 m ρ c)⟩)
    (Cert.Kernel.Hand.run_all (F := Bits) m ρ)

/-- So does the kernel program read on the extended reals. -/
theorem frame_ki : Cert.frame_KernelIdeal := fun m ρ _ =>
  (θ_run Cert.KernelIdeal.defs _ _).mono (fun r h c =>
    ⟨(h c _ (Cert.KernelIdeal.Hand.mem_uc Cert.KernelIdeal.main_arg0 (by decide))).trans (Cert.KernelIdeal.Hand.W5_arg0 m ρ c),
      (h c _ (Cert.KernelIdeal.Hand.mem_uc Cert.KernelIdeal.main_arg1 (by decide))).trans (Cert.KernelIdeal.Hand.W5_arg1 m ρ c),
      (h c _ (Cert.KernelIdeal.Hand.mem_uc Cert.KernelIdeal.main_arg2 (by decide))).trans (Cert.KernelIdeal.Hand.W5_arg2 m ρ c),
      (h c _ (Cert.KernelIdeal.Hand.mem_uc Cert.KernelIdeal.main_arg3 (by decide))).trans (Cert.KernelIdeal.Hand.W5_arg3 m ρ c),
      (h c _ (Cert.KernelIdeal.Hand.mem_uc Cert.KernelIdeal.main_arg4 (by decide))).trans (Cert.KernelIdeal.Hand.W5_arg4 m ρ c),
      (h c _ (Cert.KernelIdeal.Hand.mem_uc Cert.KernelIdeal.main_arg5 (by decide))).trans (Cert.KernelIdeal.Hand.W5_arg5 m ρ c),
      (h c _ (Cert.KernelIdeal.Hand.mem_uc Cert.KernelIdeal.main_arg6 (by decide))).trans (Cert.KernelIdeal.Hand.W5_arg6 m ρ c),
      (h c _ (Cert.KernelIdeal.Hand.mem_uc Cert.KernelIdeal.main_arg7 (by decide))).trans (Cert.KernelIdeal.Hand.W5_arg7 m ρ c),
      (h c _ (Cert.KernelIdeal.Hand.mem_uc Cert.KernelIdeal.main_arg8 (by decide))).trans (Cert.KernelIdeal.Hand.W5_arg8 m ρ c),
      (h c _ (Cert.KernelIdeal.Hand.mem_uc Cert.KernelIdeal.main_arg9 (by decide))).trans (Cert.KernelIdeal.Hand.W5_arg9 m ρ c),
      (h c _ (Cert.KernelIdeal.Hand.mem_uc Cert.KernelIdeal.main_arg10 (by decide))).trans (Cert.KernelIdeal.Hand.W5_arg10 m ρ c),
      (h c _ (Cert.KernelIdeal.Hand.mem_uc Cert.KernelIdeal.main_arg11 (by decide))).trans (Cert.KernelIdeal.Hand.W5_arg11 m ρ c),
      (h c _ (Cert.KernelIdeal.Hand.mem_uc Cert.KernelIdeal.main_arg12 (by decide))).trans (Cert.KernelIdeal.Hand.W5_arg12 m ρ c),
      (h c _ (Cert.KernelIdeal.Hand.mem_uc Cert.KernelIdeal.main_arg13 (by decide))).trans (Cert.KernelIdeal.Hand.W5_arg13 m ρ c)⟩)
    (Cert.KernelIdeal.Hand.run_all (F := Ideal) m ρ)

/-- The reference runs and leaves its arguments as launched: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end holding `Cert.Spec.result` of the arguments. -/
theorem algebraic : Cert.algebraic_KernelIdeal_ReferenceIdeal := by
  intro m ρ m' ρ' hpre hagree
  refine ⟨fun c => Cert.Spec.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · refine (θ_run Cert.KernelIdeal.defs _ _).mono (fun r h c => ⟨?_, ?_⟩) (Cert.KernelIdeal.Hand.run_all (F := Ideal) m ρ)
    · exact (h c _ (Cert.KernelIdeal.Hand.mem_uc Cert.KernelIdeal.main_v16 (by decide))).trans (Cert.KernelIdeal.Hand.result_value m ρ c)
    · exact ⟨(h c _ (Cert.KernelIdeal.Hand.mem_uc Cert.KernelIdeal.main_arg0 (by decide))).trans (Cert.KernelIdeal.Hand.W5_arg0 m ρ c),
      (h c _ (Cert.KernelIdeal.Hand.mem_uc Cert.KernelIdeal.main_arg1 (by decide))).trans (Cert.KernelIdeal.Hand.W5_arg1 m ρ c),
      (h c _ (Cert.KernelIdeal.Hand.mem_uc Cert.KernelIdeal.main_arg2 (by decide))).trans (Cert.KernelIdeal.Hand.W5_arg2 m ρ c),
      (h c _ (Cert.KernelIdeal.Hand.mem_uc Cert.KernelIdeal.main_arg3 (by decide))).trans (Cert.KernelIdeal.Hand.W5_arg3 m ρ c),
      (h c _ (Cert.KernelIdeal.Hand.mem_uc Cert.KernelIdeal.main_arg4 (by decide))).trans (Cert.KernelIdeal.Hand.W5_arg4 m ρ c),
      (h c _ (Cert.KernelIdeal.Hand.mem_uc Cert.KernelIdeal.main_arg5 (by decide))).trans (Cert.KernelIdeal.Hand.W5_arg5 m ρ c),
      (h c _ (Cert.KernelIdeal.Hand.mem_uc Cert.KernelIdeal.main_arg6 (by decide))).trans (Cert.KernelIdeal.Hand.W5_arg6 m ρ c),
      (h c _ (Cert.KernelIdeal.Hand.mem_uc Cert.KernelIdeal.main_arg7 (by decide))).trans (Cert.KernelIdeal.Hand.W5_arg7 m ρ c),
      (h c _ (Cert.KernelIdeal.Hand.mem_uc Cert.KernelIdeal.main_arg8 (by decide))).trans (Cert.KernelIdeal.Hand.W5_arg8 m ρ c),
      (h c _ (Cert.KernelIdeal.Hand.mem_uc Cert.KernelIdeal.main_arg9 (by decide))).trans (Cert.KernelIdeal.Hand.W5_arg9 m ρ c),
      (h c _ (Cert.KernelIdeal.Hand.mem_uc Cert.KernelIdeal.main_arg10 (by decide))).trans (Cert.KernelIdeal.Hand.W5_arg10 m ρ c),
      (h c _ (Cert.KernelIdeal.Hand.mem_uc Cert.KernelIdeal.main_arg11 (by decide))).trans (Cert.KernelIdeal.Hand.W5_arg11 m ρ c),
      (h c _ (Cert.KernelIdeal.Hand.mem_uc Cert.KernelIdeal.main_arg12 (by decide))).trans (Cert.KernelIdeal.Hand.W5_arg12 m ρ c),
      (h c _ (Cert.KernelIdeal.Hand.mem_uc Cert.KernelIdeal.main_arg13 (by decide))).trans (Cert.KernelIdeal.Hand.W5_arg13 m ρ c)⟩
  · refine (θ_run Cert.ReferenceIdeal.defs _ _).mono (fun r h c => ⟨(h c).1.trans ?_, (h c).2⟩)
      (Cert.ReferenceIdeal.Value.run (F := Ideal) m' ρ')
    obtain ⟨h1, h2⟩ := Cert.PreFacts.rv_facts _ _ _ _ _ _ _ _ _ _ _ _ _ _ (hpre c)
    obtain ⟨a0, a1, a2, a3, a4, a5, a6, a7, a8, a9, a10, a11, a12, a13⟩ := hagree c
    rw [Cert.ReferenceIdeal.Read.val_main_v53_eq, a0, a1, a2, a3, a4, a5, a6, a7, a8, a9, a10, a11, a12, a13]
    exact Cert.ReferenceIdeal.RefValue.ref_result_eq _ _ _ _ _ _ _ _ _ _ _ _ _ _ h1 h2

end Cert.Proof.Claims

end
-- ==== Proof.lean ====
/-
  The certificate's claim: the kernel program (a distance-to-nearest-point encoding of eight point clouds against 1024 basis
  points, followed by a small normalised two-layer network) and its reference compute one function of their arguments on the
  extended reals, and all three programs run without a fault leaving their arguments unchanged.  The claims are proved in
  Proof/Claims.lean; here they are assembled behind the witnesses of the programs' stated facts.
-/
import proofs.«167137_j12017318494451_2_alg».proof.Defs
import proofs.«167137_j12017318494451_2_alg».proof.Proof.Claims
import proofs.«167137_j12017318494451_2_alg».proof.Proof.Gen.Kernel
import proofs.«167137_j12017318494451_2_alg».proof.Proof.Gen.KernelIdeal
import proofs.«167137_j12017318494451_2_alg».proof.Proof.Gen.ReferenceIdeal
import proofs.«167137_j12017318494451_2_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
